-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S256x256 : Shape := ⟨2, ![256, 256]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  main_v18

def fn {F : FTy → Type} [FloatOps F] (main_arg0 : FVec F S131072x256 .f32) (main_arg1 : FVec F S256x256 .f32) (main_arg2 : FVec F S256x256 .f32) (main_arg3 : FVec F S256x256 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_v13 main_v16
-- ==== Kernel.lean ====
abbrev S131072x256 : Shape := ⟨2, ![131072, 256]⟩
abbrev S256x256 : Shape := ⟨2, ![256, 256]⟩
abbrev S512x128 : Shape := ⟨2, ![512, 128]⟩
abbrev S2048x256 : Shape := ⟨2, ![2048, 256]⟩
abbrev S8x128 : Shape := ⟨2, ![8, 128]⟩
abbrev S2048 : Shape := ⟨1, ![2048]⟩
abbrev S2048x1 : Shape := ⟨2, ![2048, 1]⟩
abbrev S1 : Shape := ⟨1, ![1]⟩
abbrev S1x1 : Shape := ⟨2, ![1, 1]⟩
abbrev S_ : Shape := ⟨0, ![]⟩

abbrev nBuf : Space → Nat
  | .hbm => 115
  | .vmem => 29
  | .smem => 0
  | _ => 0

abbrev bufTy : (tb : Table) → Fin (tcTables nBuf tb) → BufTy
  | .hbm, ⟨0, _⟩ => ⟨S131072x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S512x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S256x256, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S256x256, .f32⟩
  | .hbm, ⟨21, _⟩ => ⟨S256x256, .f32⟩
  | .hbm, ⟨22, _⟩ => ⟨S_, .f32⟩
  | .hbm, ⟨23, _⟩ => ⟨S256x256, .f32⟩
  | .hbm, ⟨24, _⟩ => ⟨S256x256, .i1⟩
  | .hbm, ⟨25, _⟩ => ⟨S_, .f32⟩
  | .hbm, ⟨26, _⟩ => ⟨S_, .f32⟩
  | .hbm, ⟨27, _⟩ => ⟨S256x256, .f32⟩
  | .hbm, ⟨28, _⟩ => ⟨S256x256, .f32⟩
  | .hbm, ⟨29, _⟩ => ⟨S256x256, .f32⟩
  | .hbm, ⟨30, _⟩ => ⟨S256x256, .f32⟩
  | .hbm, ⟨31, _⟩ => ⟨S256x256, .f32⟩
  | .hbm, ⟨32, _⟩ => ⟨S256x256, .bf16⟩
  | .hbm, ⟨33, _⟩ => ⟨S_, .f32⟩
  | .hbm, ⟨34, _⟩ => ⟨S_, .f32⟩
  | .hbm, ⟨35, _⟩ => ⟨S1x1, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S1x1, .f32⟩
  | .hbm, ⟨40, _⟩ => ⟨S131072x256, .f32⟩
  | .hbm, ⟨41, _⟩ => ⟨S512x128, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S256x256, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S256x256, .f32⟩
  | .hbm, ⟨58, _⟩ => ⟨S256x256, .f32⟩
  | .hbm, ⟨59, _⟩ => ⟨S_, .f32⟩
  | .hbm, ⟨60, _⟩ => ⟨S256x256, .f32⟩
  | .hbm, ⟨61, _⟩ => ⟨S256x256, .i1⟩
  | .hbm, ⟨62, _⟩ => ⟨S_, .f32⟩
  | .hbm, ⟨63, _⟩ => ⟨S_, .f32⟩
  | .hbm, ⟨64, _⟩ => ⟨S256x256, .f32⟩
  | .hbm, ⟨65, _⟩ => ⟨S256x256, .f32⟩
  | .hbm, ⟨66, _⟩ => ⟨S256x256, .f32⟩
  | .hbm, ⟨67, _⟩ => ⟨S256x256, .f32⟩
  | .hbm, ⟨68, _⟩ => ⟨S256x256, .f32⟩
  | .hbm, ⟨69, _⟩ => ⟨S256x256, .bf16⟩
  | .hbm, ⟨70, _⟩ => ⟨S_, .f32⟩
  | .hbm, ⟨71, _⟩ => ⟨S_, .f32⟩
  | .hbm, ⟨72, _⟩ => ⟨S1x1, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S1x1, .f32⟩
  | .hbm, ⟨77, _⟩ => ⟨S131072x256, .f32⟩
  | .hbm, ⟨78, _⟩ => ⟨S512x128, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S256x256, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S256x256, .f32⟩
  | .hbm, ⟨95, _⟩ => ⟨S256x256, .f32⟩
  | .hbm, ⟨96, _⟩ => ⟨S_, .f32⟩
  | .hbm, ⟨97, _⟩ => ⟨S256x256, .f32⟩
  | .hbm, ⟨98, _⟩ => ⟨S256x256, .i1⟩
  | .hbm, ⟨99, _⟩ => ⟨S_, .f32⟩
  | .hbm, ⟨100, _⟩ => ⟨S_, .f32⟩
  | .hbm, ⟨101, _⟩ => ⟨S256x256, .f32⟩
  | .hbm, ⟨102, _⟩ => ⟨S256x256, .f32⟩
  | .hbm, ⟨103, _⟩ => ⟨S256x256, .f32⟩
  | .hbm, ⟨104, _⟩ => ⟨S256x256, .f32⟩
  | .hbm, ⟨105, _⟩ => ⟨S256x256, .f32⟩
  | .hbm, ⟨106, _⟩ => ⟨S256x256, .bf16⟩
  | .hbm, ⟨107, _⟩ => ⟨S_, .f32⟩
  | .hbm, ⟨108, _⟩ => ⟨S_, .f32⟩
  | .hbm, ⟨109, _⟩ => ⟨S1x1, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S1x1, .f32⟩
  | .hbm, ⟨114, _⟩ => ⟨S131072x256, .f32⟩
  | .local _ .vmem, ⟨0, _⟩ => ⟨S2048x256, .f32⟩
  | .local _ .vmem, ⟨1, _⟩ => ⟨S2048x256, .f32⟩
  | .local _ .vmem, ⟨2, _⟩ => ⟨S8x128, .f32⟩
  | .local _ .vmem, ⟨3, _⟩ => ⟨S8x128, .f32⟩
  | .local _ .vmem, ⟨4, _⟩ => ⟨S2048x256, .f32⟩
  | .local _ .vmem, ⟨5, _⟩ => ⟨S2048x256, .f32⟩
  | .local _ .vmem, ⟨6, _⟩ => ⟨S256x256, .bf16⟩
  | .local _ .vmem, ⟨7, _⟩ => ⟨S1x1, .f32⟩
  | .local _ .vmem, ⟨8, _⟩ => ⟨S1x1, .f32⟩
  | .local _ .vmem, ⟨9, _⟩ => ⟨S2048x256, .f32⟩
  | .local _ .vmem, ⟨10, _⟩ => ⟨S2048x256, .f32⟩
  | .local _ .vmem, ⟨11, _⟩ => ⟨S8x128, .f32⟩
  | .local _ .vmem, ⟨12, _⟩ => ⟨S8x128, .f32⟩
  | .local _ .vmem, ⟨13, _⟩ => ⟨S2048x256, .f32⟩
  | .local _ .vmem, ⟨14, _⟩ => ⟨S2048x256, .f32⟩
  | .local _ .vmem, ⟨15, _⟩ => ⟨S256x256, .bf16⟩
  | .local _ .vmem, ⟨16, _⟩ => ⟨S1x1, .f32⟩
  | .local _ .vmem, ⟨17, _⟩ => ⟨S1x1, .f32⟩
  | .local _ .vmem, ⟨18, _⟩ => ⟨S2048x256, .f32⟩
  | .local _ .vmem, ⟨19, _⟩ => ⟨S2048x256, .f32⟩
  | .local _ .vmem, ⟨20, _⟩ => ⟨S8x128, .f32⟩
  | .local _ .vmem, ⟨21, _⟩ => ⟨S8x128, .f32⟩
  | .local _ .vmem, ⟨22, _⟩ => ⟨S2048x256, .f32⟩
  | .local _ .vmem, ⟨23, _⟩ => ⟨S2048x256, .f32⟩
  | .local _ .vmem, ⟨24, _⟩ => ⟨S256x256, .bf16⟩
  | .local _ .vmem, ⟨25, _⟩ => ⟨S1x1, .f32⟩
  | .local _ .vmem, ⟨26, _⟩ => ⟨S1x1, .f32⟩
  | .local _ .vmem, ⟨27, _⟩ => ⟨S2048x256, .f32⟩
  | .local _ .vmem, ⟨28, _⟩ => ⟨S2048x256, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_cst_2 : Ref sig .tc := ⟨.hbm, 11, rfl⟩
abbrev main_v4 : Ref sig .tc := ⟨.hbm, 12, rfl⟩
abbrev main_v5 : Ref sig .tc := ⟨.hbm, 13, rfl⟩
abbrev main_cst_3 : Ref sig .tc := ⟨.hbm, 14, rfl⟩
abbrev main_v6 : Ref sig .tc := ⟨.hbm, 15, rfl⟩
abbrev main_cst_4 : Ref sig .tc := ⟨.hbm, 16, rfl⟩
abbrev main_v7 : Ref sig .tc := ⟨.hbm, 17, rfl⟩
abbrev main_cst_5 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_6 : Ref sig .tc := ⟨.hbm, 22, rfl⟩
abbrev main_v11 : Ref sig .tc := ⟨.hbm, 23, rfl⟩
abbrev main_v12 : Ref sig .tc := ⟨.hbm, 24, rfl⟩
abbrev main_cst_7 : Ref sig .tc := ⟨.hbm, 25, rfl⟩
abbrev main_cst_8 : Ref sig .tc := ⟨.hbm, 26, rfl⟩
abbrev main_call0_v0 : Ref sig .tc := ⟨.hbm, 27, rfl⟩
abbrev main_call0_v1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_9 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_10 : Ref sig .tc := ⟨.hbm, 37, rfl⟩
abbrev main_v20 : Ref sig .tc := ⟨.hbm, 38, rfl⟩
abbrev main_v21 : Ref sig .tc := ⟨.hbm, 39, rfl⟩
abbrev main_v22_0 : Ref sig .tc := ⟨.hbm, 40, rfl⟩
abbrev main_v22_1 : Ref sig .tc := ⟨.hbm, 41, rfl⟩
abbrev main_cst_11 : Ref sig .tc := ⟨.hbm, 42, rfl⟩
abbrev main_v23 : Ref sig .tc := ⟨.hbm, 43, rfl⟩
abbrev main_cst_12 : Ref sig .tc := ⟨.hbm, 44, rfl⟩
abbrev main_v24 : Ref sig .tc := ⟨.hbm, 45, rfl⟩
abbrev main_cst_13 : Ref sig .tc := ⟨.hbm, 46, rfl⟩
abbrev main_v25 : Ref sig .tc := ⟨.hbm, 47, rfl⟩
abbrev main_cst_14 : Ref sig .tc := ⟨.hbm, 48, rfl⟩
abbrev main_v26 : Ref sig .tc := ⟨.hbm, 49, rfl⟩
abbrev main_v27 : Ref sig .tc := ⟨.hbm, 50, rfl⟩
abbrev main_cst_15 : Ref sig .tc := ⟨.hbm, 51, rfl⟩
abbrev main_v28 : Ref sig .tc := ⟨.hbm, 52, rfl⟩
abbrev main_cst_16 : Ref sig .tc := ⟨.hbm, 53, rfl⟩
abbrev main_v29 : Ref sig .tc := ⟨.hbm, 54, rfl⟩
abbrev main_cst_17 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_18 : Ref sig .tc := ⟨.hbm, 59, rfl⟩
abbrev main_v33 : Ref sig .tc := ⟨.hbm, 60, rfl⟩
abbrev main_v34 : Ref sig .tc := ⟨.hbm, 61, rfl⟩
abbrev main_cst_19 : Ref sig .tc := ⟨.hbm, 62, rfl⟩
abbrev main_cst_20 : Ref sig .tc := ⟨.hbm, 63, rfl⟩
abbrev main_call1_v0 : Ref sig .tc := ⟨.hbm, 64, rfl⟩
abbrev main_call1_v1 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_cst_21 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_22 : Ref sig .tc := ⟨.hbm, 74, rfl⟩
abbrev main_v42 : Ref sig .tc := ⟨.hbm, 75, rfl⟩
abbrev main_v43 : Ref sig .tc := ⟨.hbm, 76, rfl⟩
abbrev main_v44_0 : Ref sig .tc := ⟨.hbm, 77, rfl⟩
abbrev main_v44_1 : Ref sig .tc := ⟨.hbm, 78, rfl⟩
abbrev main_cst_23 : Ref sig .tc := ⟨.hbm, 79, rfl⟩
abbrev main_v45 : Ref sig .tc := ⟨.hbm, 80, rfl⟩
abbrev main_cst_24 : Ref sig .tc := ⟨.hbm, 81, rfl⟩
abbrev main_v46 : Ref sig .tc := ⟨.hbm, 82, rfl⟩
abbrev main_cst_25 : Ref sig .tc := ⟨.hbm, 83, rfl⟩
abbrev main_v47 : Ref sig .tc := ⟨.hbm, 84, rfl⟩
abbrev main_cst_26 : Ref sig .tc := ⟨.hbm, 85, rfl⟩
abbrev main_v48 : Ref sig .tc := ⟨.hbm, 86, rfl⟩
abbrev main_v49 : Ref sig .tc := ⟨.hbm, 87, rfl⟩
abbrev main_cst_27 : Ref sig .tc := ⟨.hbm, 88, rfl⟩
abbrev main_v50 : Ref sig .tc := ⟨.hbm, 89, rfl⟩
abbrev main_cst_28 : Ref sig .tc := ⟨.hbm, 90, rfl⟩
abbrev main_v51 : Ref sig .tc := ⟨.hbm, 91, rfl⟩
abbrev main_cst_29 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_cst_30 : Ref sig .tc := ⟨.hbm, 96, rfl⟩
abbrev main_v55 : Ref sig .tc := ⟨.hbm, 97, rfl⟩
abbrev main_v56 : Ref sig .tc := ⟨.hbm, 98, rfl⟩
abbrev main_cst_31 : Ref sig .tc := ⟨.hbm, 99, rfl⟩
abbrev main_cst_32 : Ref sig .tc := ⟨.hbm, 100, rfl⟩
abbrev main_call2_v0 : Ref sig .tc := ⟨.hbm, 101, rfl⟩
abbrev main_call2_v1 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_cst_33 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_cst_34 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg4_1 : Ref sig .tc := ⟨.vmem, 10, rfl⟩
abbrev cc1_stg5_0 : Ref sig .tc := ⟨.vmem, 11, rfl⟩
abbrev cc1_stg5_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc2_stg5_0 : Ref sig .tc := ⟨.vmem, 20, rfl⟩
abbrev cc2_stg5_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg4_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem4_1 : DmaSem sig := 10
abbrev cc1_sem5_0 : DmaSem sig := 11
abbrev cc1_sem5_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem4_1 : DmaSem sig := 19
abbrev cc2_sem5_0 : DmaSem sig := 20
abbrev cc2_sem5_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem4_0 : DmaSem sig := 27
abbrev cc3_sem4_1 : DmaSem sig := 28

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2048x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S8x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2048x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S8x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![64], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2048x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  inb_S2048x256_S2048x256_0_0 : ∀ a, (![0, 0] : Fin 2 → Nat) a + S2048x256.size a ≤ S2048x256.size a
  h_S2048x256 : 0 < S2048x256.numel
  reduces_S2048x256_S2048 : S2048x256.Reduces [1] S2048
  shapeCasts_S2048_S2048x1 : S2048.ShapeCasts S2048x1
  broadcasts_S2048x1_S2048x256 : S2048x1.Broadcasts S2048x256
  reduces_S2048x1_S1 : S2048x1.Reduces [0] S1
  shapeCasts_S1_S1x1 : S1.ShapeCasts S1x1
  shapeCasts_S1x1_S1x1 : S1x1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  reducesTo_S512x128_S_d0_1 : S512x128.ReducesTo [0, 1] S_
  h_S_ : 0 < S_.numel
  reducesTo_S256x256_S_d0_1 : S256x256.ReducesTo [0, 1] S_
  bcast_S_S256x256 : S_.BroadcastsInDim S256x256 (![] : Fin 0 → Fin S256x256.rank)
  transposes_S256x256_S256x256_1_0 : S256x256.Transposes [1, 0] S256x256
  bitsLt_bf16_f32 : FTy.bits .bf16 < FTy.bits .f32
  shapeCasts_S_S1x1 : S_.ShapeCasts S1x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S2048x256_S2048x256 : S2048x256.ShapeCasts S2048x256
  dot_S2048x256_S256x256_S2048x256_1_0_0_1_n_n_wf : DotDims.WF S2048x256 S256x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S131072x256.size a
  hwx0_0 : ∀ i : grid0.Coords, EltTy.bits .f32 = 32 ∨ (Rect.block (s := S131072x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S512x128.size a
  hwx0_1 : ∀ i : grid0.Coords, EltTy.bits .f32 = 32 ∨ (Rect.block (s := S512x128) S8x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S131072x256.size a
  hwx1_0 : ∀ i : grid1.Coords, EltTy.bits .f32 = 32 ∨ (Rect.block (s := S131072x256) S2048x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .bf16 = 32 ∨ (Rect.block (s := S256x256) S256x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x256.size a ≤ S131072x256.size a
  hwx1_4 : ∀ i : grid1.Coords, EltTy.bits .f32 = 32 ∨ (Rect.block (s := S131072x256) S2048x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8x128.size a ≤ S512x128.size a
  hwx1_5 : ∀ i : grid1.Coords, EltTy.bits .f32 = 32 ∨ (Rect.block (s := S512x128) S8x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x256.size a ≤ S131072x256.size a
  hwx2_0 : ∀ i : grid2.Coords, EltTy.bits .f32 = 32 ∨ (Rect.block (s := S131072x256) S2048x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .bf16 = 32 ∨ (Rect.block (s := S256x256) S256x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2048x256.size a ≤ S131072x256.size a
  hwx2_4 : ∀ i : grid2.Coords, EltTy.bits .f32 = 32 ∨ (Rect.block (s := S131072x256) S2048x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S8x128.size a ≤ S512x128.size a
  hwx2_5 : ∀ i : grid2.Coords, EltTy.bits .f32 = 32 ∨ (Rect.block (s := S512x128) S8x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x256.size a ≤ S131072x256.size a
  hwx3_0 : ∀ i : grid3.Coords, EltTy.bits .f32 = 32 ∨ (Rect.block (s := S131072x256) S2048x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .bf16 = 32 ∨ (Rect.block (s := S256x256) S256x256.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x1.size a ≤ S1x1.size a
  hwx3_3 : ∀ i : grid3.Coords, EltTy.bits .f32 = 32 ∨ (Rect.block (s := S1x1) S1x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2048x256.size a ≤ S131072x256.size a
  hwx3_4 : ∀ i : grid3.Coords, EltTy.bits .f32 = 32 ∨ (Rect.block (s := S131072x256) S2048x256.size (cc3_transform_4 i) (hinb3_4 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22_0) S2048x256.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v22_1) S8x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v22_0) S2048x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v38) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v40) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v43) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v44_0) S2048x256.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v44_1) S8x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v44_0) S2048x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S1x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v65) S1x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v66) S2048x256.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S131072x256 : Shape := ⟨2, ![131072, 256]⟩
abbrev S256x256 : Shape := ⟨2, ![256, 256]⟩
abbrev S_ : Shape := ⟨0, ![]⟩
abbrev S131072 : Shape := ⟨1, ![131072]⟩
abbrev S131072x1 : Shape := ⟨2, ![131072, 1]⟩

abbrev nBuf : Space → Nat
  | .hbm => 226
  | .vmem => 0
  | .smem => 0
  | _ => 0

abbrev hbmTy0_0 (i : Nat) : BufTy := match i % 128 with
  | 0 => ⟨S131072x256, .f32⟩
  | 1 => ⟨S256x256, .f32⟩
  | 2 => ⟨S256x256, .f32⟩
  | 3 => ⟨S256x256, .f32⟩
  | 4 => ⟨S_, .f32⟩
  | 5 => ⟨S131072, .f32⟩
  | 6 => ⟨S131072x1, .f32⟩
  | 7 => ⟨S_, .f32⟩
  | 8 => ⟨S131072x1, .f32⟩
  | 9 => ⟨S131072x1, .f32⟩
  | 10 => ⟨S131072x256, .f32⟩
  | 11 => ⟨S131072x256, .f32⟩
  | 12 => ⟨S131072x256, .f32⟩
  | 13 => ⟨S_, .f32⟩
  | 14 => ⟨S131072, .f32⟩
  | 15 => ⟨S131072x1, .f32⟩
  | 16 => ⟨S_, .f32⟩
  | 17 => ⟨S131072x1, .f32⟩
  | 18 => ⟨S131072x1, .f32⟩
  | 19 => ⟨S131072x256, .f32⟩
  | 20 => ⟨S131072x256, .f32⟩
  | 21 => ⟨S_, .f32⟩
  | 22 => ⟨S131072x1, .f32⟩
  | 23 => ⟨S131072x1, .f32⟩
  | 24 => ⟨S131072x1, .f32⟩
  | 25 => ⟨S131072x256, .f32⟩
  | 26 => ⟨S131072x256, .f32⟩
  | 27 => ⟨S131072x256, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S131072x256, .f32⟩
  | 35 => ⟨S131072x256, .f32⟩
  | 36 => ⟨S_, .f32⟩
  | 37 => ⟨S_, .f32⟩
  | 38 => ⟨S131072x256, .f32⟩
  | 39 => ⟨S131072x256, .f32⟩
  | 40 => ⟨S131072x256, .f32⟩
  | 41 => ⟨S131072x256, .f32⟩
  | 42 => ⟨S131072x256, .f32⟩
  | 43 => ⟨S131072x256, .f32⟩
  | 44 => ⟨S131072x256, .f32⟩
  | 45 => ⟨S_, .f32⟩
  | 46 => ⟨S_, .f32⟩
  | 47 => ⟨S_, .f32⟩
  | 48 => ⟨S_, .f32⟩
  | 49 => ⟨S256x256, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S256x256, .f32⟩
  | 57 => ⟨S256x256, .f32⟩
  | 58 => ⟨S_, .f32⟩
  | 59 => ⟨S256x256, .f32⟩
  | 60 => ⟨S256x256, .i1⟩
  | 61 => ⟨S_, .f32⟩
  | 62 => ⟨S_, .f32⟩
  | 63 => ⟨S256x256, .f32⟩
  | 64 => ⟨S256x256, .f32⟩
  | 65 => ⟨S256x256, .f32⟩
  | 66 => ⟨S256x256, .f32⟩
  | 67 => ⟨S256x256, .f32⟩
  | 68 => ⟨S256x256, .f32⟩
  | 69 => ⟨S256x256, .f32⟩
  | 70 => ⟨S131072x256, .f32⟩
  | 71 => ⟨S_, .f32⟩
  | 72 => ⟨S_, .f32⟩
  | 73 => ⟨S_, .f32⟩
  | 74 => ⟨S131072x256, .f32⟩
  | 75 => ⟨S131072x256, .f32⟩
  | 76 => ⟨S_, .f32⟩
  | 77 => ⟨S131072x256, .f32⟩
  | 78 => ⟨S131072x256, .f32⟩
  | 79 => ⟨S_, .f32⟩
  | 80 => ⟨S131072, .f32⟩
  | 81 => ⟨S131072x1, .f32⟩
  | 82 => ⟨S_, .f32⟩
  | 83 => ⟨S131072x1, .f32⟩
  | 84 => ⟨S131072x1, .f32⟩
  | 85 => ⟨S131072x256, .f32⟩
  | 86 => ⟨S131072x256, .f32⟩
  | 87 => ⟨S131072x256, .f32⟩
  | 88 => ⟨S_, .f32⟩
  | 89 => ⟨S131072, .f32⟩
  | 90 => ⟨S131072x1, .f32⟩
  | 91 => ⟨S_, .f32⟩
  | 92 => ⟨S131072x1, .f32⟩
  | 93 => ⟨S131072x1, .f32⟩
  | 94 => ⟨S131072x256, .f32⟩
  | 95 => ⟨S131072x256, .f32⟩
  | 96 => ⟨S_, .f32⟩
  | 97 => ⟨S131072x1, .f32⟩
  | 98 => ⟨S131072x1, .f32⟩
  | 99 => ⟨S131072x1, .f32⟩
  | 100 => ⟨S131072x256, .f32⟩
  | 101 => ⟨S131072x256, .f32⟩
  | 102 => ⟨S131072x256, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S131072x256, .f32⟩
  | 110 => ⟨S131072x256, .f32⟩
  | 111 => ⟨S_, .f32⟩
  | 112 => ⟨S_, .f32⟩
  | 113 => ⟨S131072x256, .f32⟩
  | 114 => ⟨S131072x256, .f32⟩
  | 115 => ⟨S131072x256, .f32⟩
  | 116 => ⟨S131072x256, .f32⟩
  | 117 => ⟨S131072x256, .f32⟩
  | 118 => ⟨S131072x256, .f32⟩
  | 119 => ⟨S131072x256, .f32⟩
  | 120 => ⟨S_, .f32⟩
  | 121 => ⟨S_, .f32⟩
  | 122 => ⟨S_, .f32⟩
  | 123 => ⟨S_, .f32⟩
  | 124 => ⟨S256x256, .f32⟩
  | 125 => ⟨S_, .f32⟩
  | 126 => ⟨S_, .f32⟩
  | 127 => ⟨S_, .f32⟩
  | _ => ⟨S131072x256, .f32⟩

abbrev hbmTy0_1 (i : Nat) : BufTy := match i % 128 with
  | 0 => ⟨S_, .f32⟩
  | 1 => ⟨S_, .f32⟩
  | 2 => ⟨S_, .f32⟩
  | 3 => ⟨S256x256, .f32⟩
  | 4 => ⟨S256x256, .f32⟩
  | 5 => ⟨S_, .f32⟩
  | 6 => ⟨S256x256, .f32⟩
  | 7 => ⟨S256x256, .i1⟩
  | 8 => ⟨S_, .f32⟩
  | 9 => ⟨S_, .f32⟩
  | 10 => ⟨S256x256, .f32⟩
  | 11 => ⟨S256x256, .f32⟩
  | 12 => ⟨S256x256, .f32⟩
  | 13 => ⟨S256x256, .f32⟩
  | 14 => ⟨S256x256, .f32⟩
  | 15 => ⟨S256x256, .f32⟩
  | 16 => ⟨S256x256, .f32⟩
  | 17 => ⟨S131072x256, .f32⟩
  | 18 => ⟨S_, .f32⟩
  | 19 => ⟨S_, .f32⟩
  | 20 => ⟨S_, .f32⟩
  | 21 => ⟨S131072x256, .f32⟩
  | 22 => ⟨S131072x256, .f32⟩
  | 23 => ⟨S_, .f32⟩
  | 24 => ⟨S131072x256, .f32⟩
  | 25 => ⟨S131072x256, .f32⟩
  | 26 => ⟨S_, .f32⟩
  | 27 => ⟨S131072, .f32⟩
  | 28 => ⟨S131072x1, .f32⟩
  | 29 => ⟨S_, .f32⟩
  | 30 => ⟨S131072x1, .f32⟩
  | 31 => ⟨S131072x1, .f32⟩
  | 32 => ⟨S131072x256, .f32⟩
  | 33 => ⟨S131072x256, .f32⟩
  | 34 => ⟨S131072x256, .f32⟩
  | 35 => ⟨S_, .f32⟩
  | 36 => ⟨S131072, .f32⟩
  | 37 => ⟨S131072x1, .f32⟩
  | 38 => ⟨S_, .f32⟩
  | 39 => ⟨S131072x1, .f32⟩
  | 40 => ⟨S131072x1, .f32⟩
  | 41 => ⟨S131072x256, .f32⟩
  | 42 => ⟨S131072x256, .f32⟩
  | 43 => ⟨S_, .f32⟩
  | 44 => ⟨S131072x1, .f32⟩
  | 45 => ⟨S131072x1, .f32⟩
  | 46 => ⟨S131072x1, .f32⟩
  | 47 => ⟨S131072x256, .f32⟩
  | 48 => ⟨S131072x256, .f32⟩
  | 49 => ⟨S131072x256, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S131072x256, .f32⟩
  | 57 => ⟨S131072x256, .f32⟩
  | 58 => ⟨S_, .f32⟩
  | 59 => ⟨S_, .f32⟩
  | 60 => ⟨S131072x256, .f32⟩
  | 61 => ⟨S131072x256, .f32⟩
  | 62 => ⟨S131072x256, .f32⟩
  | 63 => ⟨S131072x256, .f32⟩
  | 64 => ⟨S131072x256, .f32⟩
  | 65 => ⟨S131072x256, .f32⟩
  | 66 => ⟨S131072x256, .f32⟩
  | 67 => ⟨S_, .f32⟩
  | 68 => ⟨S_, .f32⟩
  | 69 => ⟨S_, .f32⟩
  | 70 => ⟨S_, .f32⟩
  | 71 => ⟨S256x256, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S256x256, .f32⟩
  | 79 => ⟨S256x256, .f32⟩
  | 80 => ⟨S_, .f32⟩
  | 81 => ⟨S256x256, .f32⟩
  | 82 => ⟨S256x256, .i1⟩
  | 83 => ⟨S_, .f32⟩
  | 84 => ⟨S_, .f32⟩
  | 85 => ⟨S256x256, .f32⟩
  | 86 => ⟨S256x256, .f32⟩
  | 87 => ⟨S256x256, .f32⟩
  | 88 => ⟨S256x256, .f32⟩
  | 89 => ⟨S256x256, .f32⟩
  | 90 => ⟨S256x256, .f32⟩
  | 91 => ⟨S256x256, .f32⟩
  | 92 => ⟨S131072x256, .f32⟩
  | 93 => ⟨S_, .f32⟩
  | 94 => ⟨S_, .f32⟩
  | 95 => ⟨S_, .f32⟩
  | 96 => ⟨S131072x256, .f32⟩
  | 97 => ⟨S131072x256, .f32⟩
  | _ => ⟨S131072x256, .f32⟩

abbrev hbmTy (i : Nat) : BufTy := match i / 128 with
  | 0 => hbmTy0_0 i
  | 1 => hbmTy0_1 i
  | _ => ⟨S131072x256, .f32⟩

abbrev bufTy : (tb : Table) → Fin (tcTables nBuf tb) → BufTy
  | .hbm, ⟨i, _⟩ => hbmTy i
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_cst_8 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_9 : Ref sig .tc := ⟨.hbm, 45, rfl⟩
abbrev main_v28 : Ref sig .tc := ⟨.hbm, 46, rfl⟩
abbrev main_cst_10 : Ref sig .tc := ⟨.hbm, 47, rfl⟩
abbrev main_v29 : Ref sig .tc := ⟨.hbm, 48, rfl⟩
abbrev main_v30 : Ref sig .tc := ⟨.hbm, 49, rfl⟩
abbrev main_cst_11 : Ref sig .tc := ⟨.hbm, 50, rfl⟩
abbrev main_v31 : Ref sig .tc := ⟨.hbm, 51, rfl⟩
abbrev main_cst_12 : Ref sig .tc := ⟨.hbm, 52, rfl⟩
abbrev main_v32 : Ref sig .tc := ⟨.hbm, 53, rfl⟩
abbrev main_cst_13 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_14 : Ref sig .tc := ⟨.hbm, 58, rfl⟩
abbrev main_v36 : Ref sig .tc := ⟨.hbm, 59, rfl⟩
abbrev main_v37 : Ref sig .tc := ⟨.hbm, 60, rfl⟩
abbrev main_cst_15 : Ref sig .tc := ⟨.hbm, 61, rfl⟩
abbrev main_cst_16 : Ref sig .tc := ⟨.hbm, 62, rfl⟩
abbrev main_call2_v0 : Ref sig .tc := ⟨.hbm, 63, rfl⟩
abbrev main_call2_v1 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_17 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_call3_cst : Ref sig .tc := ⟨.hbm, 76, rfl⟩
abbrev main_call3_v0 : Ref sig .tc := ⟨.hbm, 77, rfl⟩
abbrev main_v48 : Ref sig .tc := ⟨.hbm, 78, rfl⟩
abbrev main_cst_18 : Ref sig .tc := ⟨.hbm, 79, rfl⟩
abbrev main_v49 : Ref sig .tc := ⟨.hbm, 80, rfl⟩
abbrev main_v50 : Ref sig .tc := ⟨.hbm, 81, rfl⟩
abbrev main_cst_19 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_20 : Ref sig .tc := ⟨.hbm, 88, rfl⟩
abbrev main_v56 : Ref sig .tc := ⟨.hbm, 89, rfl⟩
abbrev main_v57 : Ref sig .tc := ⟨.hbm, 90, rfl⟩
abbrev main_cst_21 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_22 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_23 : Ref sig .tc := ⟨.hbm, 103, rfl⟩
abbrev main_v68 : Ref sig .tc := ⟨.hbm, 104, rfl⟩
abbrev main_cst_24 : Ref sig .tc := ⟨.hbm, 105, rfl⟩
abbrev main_v69 : Ref sig .tc := ⟨.hbm, 106, rfl⟩
abbrev main_cst_25 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_cst_26 : Ref sig .tc := ⟨.hbm, 111, rfl⟩
abbrev main_cst_27 : Ref sig .tc := ⟨.hbm, 112, rfl⟩
abbrev main_call4_v0 : Ref sig .tc := ⟨.hbm, 113, rfl⟩
abbrev main_call4_v1 : Ref sig .tc := ⟨.hbm, 114, rfl⟩
abbrev main_call4_v2 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_cst_28 : Ref sig .tc := ⟨.hbm, 120, rfl⟩
abbrev main_v77 : Ref sig .tc := ⟨.hbm, 121, rfl⟩
abbrev main_cst_29 : Ref sig .tc := ⟨.hbm, 122, rfl⟩
abbrev main_v78 : Ref sig .tc := ⟨.hbm, 123, rfl⟩
abbrev main_v79 : Ref sig .tc := ⟨.hbm, 124, rfl⟩
abbrev main_cst_30 : Ref sig .tc := ⟨.hbm, 125, rfl⟩
abbrev main_v80 : Ref sig .tc := ⟨.hbm, 126, rfl⟩
abbrev main_cst_31 : Ref sig .tc := ⟨.hbm, 127, rfl⟩
abbrev main_v81 : Ref sig .tc := ⟨.hbm, 128, rfl⟩
abbrev main_cst_32 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_cst_33 : Ref sig .tc := ⟨.hbm, 133, rfl⟩
abbrev main_v85 : Ref sig .tc := ⟨.hbm, 134, rfl⟩
abbrev main_v86 : Ref sig .tc := ⟨.hbm, 135, rfl⟩
abbrev main_cst_34 : Ref sig .tc := ⟨.hbm, 136, rfl⟩
abbrev main_cst_35 : Ref sig .tc := ⟨.hbm, 137, rfl⟩
abbrev main_call6_v0 : Ref sig .tc := ⟨.hbm, 138, rfl⟩
abbrev main_call6_v1 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_cst_36 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_call7_cst : Ref sig .tc := ⟨.hbm, 151, rfl⟩
abbrev main_call7_v0 : Ref sig .tc := ⟨.hbm, 152, rfl⟩
abbrev main_v97 : Ref sig .tc := ⟨.hbm, 153, rfl⟩
abbrev main_cst_37 : Ref sig .tc := ⟨.hbm, 154, rfl⟩
abbrev main_v98 : Ref sig .tc := ⟨.hbm, 155, rfl⟩
abbrev main_v99 : Ref sig .tc := ⟨.hbm, 156, rfl⟩
abbrev main_cst_38 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_cst_39 : Ref sig .tc := ⟨.hbm, 163, rfl⟩
abbrev main_v105 : Ref sig .tc := ⟨.hbm, 164, rfl⟩
abbrev main_v106 : Ref sig .tc := ⟨.hbm, 165, rfl⟩
abbrev main_cst_40 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_cst_41 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_cst_42 : Ref sig .tc := ⟨.hbm, 178, rfl⟩
abbrev main_v117 : Ref sig .tc := ⟨.hbm, 179, rfl⟩
abbrev main_cst_43 : Ref sig .tc := ⟨.hbm, 180, rfl⟩
abbrev main_v118 : Ref sig .tc := ⟨.hbm, 181, rfl⟩
abbrev main_cst_44 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_cst_45 : Ref sig .tc := ⟨.hbm, 186, rfl⟩
abbrev main_cst_46 : Ref sig .tc := ⟨.hbm, 187, rfl⟩
abbrev main_call8_v0 : Ref sig .tc := ⟨.hbm, 188, rfl⟩
abbrev main_call8_v1 : Ref sig .tc := ⟨.hbm, 189, rfl⟩
abbrev main_call8_v2 : Ref sig .tc := ⟨.hbm, 190, rfl⟩
abbrev main_v122 : Ref sig .tc := ⟨.hbm, 191, rfl⟩
abbrev main_v123 : Ref sig .tc := ⟨.hbm, 192, rfl⟩
abbrev main_v124 : Ref sig .tc := ⟨.hbm, 193, rfl⟩
abbrev main_v125 : Ref sig .tc := ⟨.hbm, 194, rfl⟩
abbrev main_cst_47 : Ref sig .tc := ⟨.hbm, 195, rfl⟩
abbrev main_v126 : Ref sig .tc := ⟨.hbm, 196, rfl⟩
abbrev main_cst_48 : Ref sig .tc := ⟨.hbm, 197, rfl⟩
abbrev main_v127 : Ref sig .tc := ⟨.hbm, 198, rfl⟩
abbrev main_v128 : Ref sig .tc := ⟨.hbm, 199, rfl⟩
abbrev main_cst_49 : Ref sig .tc := ⟨.hbm, 200, rfl⟩
abbrev main_v129 : Ref sig .tc := ⟨.hbm, 201, rfl⟩
abbrev main_cst_50 : Ref sig .tc := ⟨.hbm, 202, rfl⟩
abbrev main_v130 : Ref sig .tc := ⟨.hbm, 203, rfl⟩
abbrev main_cst_51 : Ref sig .tc := ⟨.hbm, 204, rfl⟩
abbrev main_v131 : Ref sig .tc := ⟨.hbm, 205, rfl⟩
abbrev main_v132 : Ref sig .tc := ⟨.hbm, 206, rfl⟩
abbrev main_v133 : Ref sig .tc := ⟨.hbm, 207, rfl⟩
abbrev main_cst_52 : Ref sig .tc := ⟨.hbm, 208, rfl⟩
abbrev main_v134 : Ref sig .tc := ⟨.hbm, 209, rfl⟩
abbrev main_v135 : Ref sig .tc := ⟨.hbm, 210, rfl⟩
abbrev main_cst_53 : Ref sig .tc := ⟨.hbm, 211, rfl⟩
abbrev main_cst_54 : Ref sig .tc := ⟨.hbm, 212, rfl⟩
abbrev main_call10_v0 : Ref sig .tc := ⟨.hbm, 213, rfl⟩
abbrev main_call10_v1 : Ref sig .tc := ⟨.hbm, 214, rfl⟩
abbrev main_v136 : Ref sig .tc := ⟨.hbm, 215, rfl⟩
abbrev main_v137 : Ref sig .tc := ⟨.hbm, 216, rfl⟩
abbrev main_v138 : Ref sig .tc := ⟨.hbm, 217, rfl⟩
abbrev main_v139 : Ref sig .tc := ⟨.hbm, 218, rfl⟩
abbrev main_v140 : Ref sig .tc := ⟨.hbm, 219, rfl⟩
abbrev main_v141 : Ref sig .tc := ⟨.hbm, 220, rfl⟩
abbrev main_v142 : Ref sig .tc := ⟨.hbm, 221, rfl⟩
abbrev main_cst_55 : Ref sig .tc := ⟨.hbm, 222, rfl⟩
abbrev main_v143 : Ref sig .tc := ⟨.hbm, 223, rfl⟩
abbrev main_v144 : Ref sig .tc := ⟨.hbm, 224, rfl⟩
abbrev main_v145 : Ref sig .tc := ⟨.hbm, 225, rfl⟩

abbrev nD : Nat := 1
abbrev τ : Topo := Topo.v7x

variable {F : FTy → Type} [FloatOps F]

class Facts₀ : Prop where
  reducesTo_S131072x256_S131072_d1 : S131072x256.ReducesTo [1] S131072
  h_S_ : 0 < S_.numel
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S131072x1_S131072x256_0_1 : S131072x1.BroadcastsInDim S131072x256 (![0, 1] : Fin 2 → Fin S131072x256.rank)
  reducesTo_S131072x256_S_d0_1 : S131072x256.ReducesTo [0, 1] S_
  bcast_S_S131072x256 : S_.BroadcastsInDim S131072x256 (![] : Fin 0 → Fin S131072x256.rank)
  reducesTo_S256x256_S_d0_1 : S256x256.ReducesTo [0, 1] S_
  bcast_S_S256x256 : S_.BroadcastsInDim S256x256 (![] : Fin 0 → Fin S256x256.rank)
  transposes_S256x256_S256x256_1_0 : S256x256.Transposes [1, 0] S256x256
  dot_S131072x256_S256x256_S131072x256_1_0_0_1_n_n_wf : DotDims.WF S131072x256 S256x256 S131072x256 [1] [0] [0] [1] [] []

variable [Facts₀]

def dot_S131072x256_S256x256_S131072x256_1_0_0_1_n_n : DotDims S131072x256 S256x256 S131072x256 where
  lhsContracting := [1]
  rhsContracting := [0]
  lhsNonContracting := [0]
  rhsNonContracting := [1]
  lhsBatch := []
  rhsBatch := []
  wf := dot_S131072x256_S256x256_S131072x256_1_0_0_1_n_n_wf

class Facts : Prop extends Facts₀ where

variable [Facts]
-- ==== Proof.Spec.lean ====
/- The network both programs compute, on the extended reals, entry by entry.

   One layer takes an activation matrix X (n rows of 256) and a 256 × 256 weight matrix W:
   every row of X is normalised (its mean subtracted, divided by the root of its variance plus a small constant);
   g is the largest absolute value of the whole normalised matrix, bounded below by a tiny constant;
   each normalised entry is scaled by 127 / g, clipped to [-127, 127] and rounded to the nearest integer (ties to even);
   the weights are replaced by the signs of their deviations from their mean, and β is the mean absolute weight (bounded below);
   the result at (i, j) is the sum over k of the rounded entry (i, k) times the sign (j, k), times β · g / 127.
   The network is three layers with max(·, 0) after the first two. -/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx
open scoped BigOperators

/-- An extended real that is a real number. -/
def IsReal (x : EReal) : Prop := x ≠ ⊥ ∧ x ≠ ⊤

/-- A matrix given at the two-coordinate indices, as a function of row and column. -/
abbrev cur {a b : ℕ} (A : (⟨2, ![a, b]⟩ : Shape).Idx → EReal) : Fin a → Fin b → EReal := fun i j => A (ix2 i j)

/-! ### The constants, as the two programs spell them -/

abbrev zero : EReal := Ideal.ofBits .f32 0x00000000#32
abbrev c256 : EReal := Ideal.ofBits .f32 0x43800000#32
abbrev c65536 : EReal := Ideal.ofBits .f32 0x47800000#32
abbrev epsLN : EReal := Ideal.ofBits .f32 0x3727C5AC#32
abbrev tiny : EReal := Ideal.ofBits .f32 0x322BCC77#32
abbrev c127 : EReal := Ideal.ofBits .f32 0x42FE0000#32
abbrev cm127 : EReal := Ideal.ofBits .f32 0xC2FE0000#32
abbrev one : EReal := Ideal.ofBits .f32 0x3F800000#32
abbrev mone : EReal := Ideal.ofBits .f32 0xBF800000#32

/-! ### Row normalisation -/

/-- The mean of a row of 256 entries. -/
def mean (v : Fin 256 → EReal) : EReal := Ideal.div (∑ t, v t) c256

/-- A row with its mean subtracted, times the reciprocal root of its variance plus the constant. -/
def lnRow (v : Fin 256 → EReal) (j : Fin 256) : EReal :=
  (v j - mean v) * Ideal.rsqrt (mean (fun t => (v t - mean v) * (v t - mean v)) + epsLN)

/-- Every row normalised. -/
def ln {n : ℕ} (X : Fin n → Fin 256 → EReal) : Fin n → Fin 256 → EReal := fun i => lnRow (X i)

/-! ### The activation scale -/

/-- The absolute value as the float operations compute it. -/
def abs' (z : EReal) : EReal := max z (-z)

/-- The largest absolute value of a matrix. -/
def absmax {n : ℕ} (Z : Fin n → Fin 256 → EReal) : EReal := ⨆ i, ⨆ j, abs' (Z i j)

/-- The largest absolute value, bounded below by the tiny constant. -/
def gamma {n : ℕ} (Z : Fin n → Fin 256 → EReal) : EReal := max (absmax Z) tiny

/-- Scale, clip to [-127, 127], round to nearest (ties to even). -/
def quant (sq z : EReal) : EReal := Ideal.liftRound Ideal.roundHalfEven (min c127 (max cm127 (z * sq)))

/-! ### The weights -/

/-- The mean of all 65536 weights. -/
def wmean (W : Fin 256 → Fin 256 → EReal) : EReal := Ideal.div (∑ a, ∑ b, W a b) c65536

/-- The sign of a weight's deviation from the mean: 1 when positive, else -1. -/
def wsign (W : Fin 256 → Fin 256 → EReal) (a b : Fin 256) : EReal :=
  Scalar.select (Ideal.cmp .ogt (W a b - wmean W) zero) one mone

/-- The mean absolute weight, bounded below by the tiny constant. -/
def beta (W : Fin 256 → Fin 256 → EReal) : EReal := max (Ideal.div (∑ a, ∑ b, abs' (W a b)) c65536) tiny

/-! ### A layer and the network -/

/-- A layer at a given activation scale g. -/
def pre {n : ℕ} (g : EReal) (X : Fin n → Fin 256 → EReal) (W : Fin 256 → Fin 256 → EReal) (i : Fin n) (j : Fin 256) : EReal :=
  (∑ k, quant (Ideal.div c127 g) (ln X i k) * wsign W j k) * Ideal.div (beta W * g) c127

/-- A layer: its scale is the bounded largest absolute value of its normalised input. -/
def layer {n : ℕ} (X : Fin n → Fin 256 → EReal) (W : Fin 256 → Fin 256 → EReal) : Fin n → Fin 256 → EReal :=
  pre (gamma (ln X)) X W

/-- max(·, 0). -/
def relu (z : EReal) : EReal := max z zero

/-- Three layers, max(·, 0) after the first two. -/
def net {n : ℕ} (X : Fin n → Fin 256 → EReal) (W1 W2 W3 : Fin 256 → Fin 256 → EReal) : Fin n → Fin 256 → EReal :=
  layer (fun i j => relu (layer (fun i j => relu (layer X W1 i j)) W2 i j)) W3

end Cert.Spec

end
-- ==== Proof.PreReal.lean ====
/- The precondition of the claim, read back: it says every entry of every input has absolute value below +∞,
   so every input entry is a real number. -/
import proofs.«165368_j14456859918944_2_alg».proof.Pre_finite_inputs
import proofs.«165368_j14456859918944_2_alg».proof.Proof.Spec
import Idealize.ShloMosaic.Lib.ReduceAll

namespace Cert.Bridge.Pre

open Idealize.ShloMosaic Cert.Pre_finite_inputs

instance : Subsingleton S_.Idx := ⟨fun a b => funext fun d => d.elim0⟩

private theorem ofBool_eq_one {b : Bool} : BitVec.ofBool b = 1#1 ↔ b = true := by cases b <;> decide

/-- An extended real whose absolute value max(x, -x) is strictly below +∞ is a real number. -/
theorem isReal_of_abs_lt_top (x : EReal)
    (h : FloatOps.cmpf (F := Ideal) (φ := .f32) .olt (FloatOps.hostAbsf (F := Ideal) (φ := .f32) x)
      (FloatOps.ofBits (F := Ideal) .f32 0x7F800000#32) = 1#1) : Cert.Spec.IsReal x := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  unfold Ideal.cmp at h
  have h' : max x (-x) < ⊤ := of_decide_eq_true (ofBool_eq_one.mp h)
  rw [max_lt_iff] at h'
  refine ⟨?_, h'.1.ne⟩
  rintro rfl
  simp at h'

/-- Under the precondition (every entry of every input has absolute value below +∞) every input entry is a real number. -/
theorem inputs_real [Facts] (a0 : (⟨2, ![131072, 256]⟩ : Shape).Idx → EReal)
    (a1 a2 a3 : (⟨2, ![256, 256]⟩ : Shape).Idx → EReal)
    (h : fn (F := Ideal) a0 a1 a2 a3 = fun _ => 1#1) :
    (∀ i, Cert.Spec.IsReal (a0 i)) ∧ (∀ i, Cert.Spec.IsReal (a1 i)) ∧ (∀ i, Cert.Spec.IsReal (a2 i)) ∧
      (∀ i, Cert.Spec.IsReal (a3 i)) := by
  have h0 := congrFun h ValueIdx.ix0
  dsimp only [fn, fn_part1, andi] at h0
  rw [IntOp.andi_eq_one, IntOp.andi_eq_one, IntOp.andi_eq_one] at h0
  obtain ⟨⟨⟨hA, hB⟩, hC⟩, hD⟩ := h0
  refine ⟨fun i => ?_, fun i => ?_, fun i => ?_, fun i => ?_⟩
  · exact isReal_of_abs_lt_top _ (Host.reduce_andi_all _ _ _ _ _ hA i)
  · exact isReal_of_abs_lt_top _ (Host.reduce_andi_all _ _ _ _ _ hB i)
  · exact isReal_of_abs_lt_top _ (Host.reduce_andi_all _ _ _ _ _ hC i)
  · exact isReal_of_abs_lt_top _ (Host.reduce_andi_all _ _ _ _ _ hD i)

end Cert.Bridge.Pre
-- ==== Proof.SpecFacts.lean ====
/- Facts about the network of Spec.lean on the extended reals: which of its quantities are real numbers,
   the one cancellation the reference's straight-through terms need, and the largest absolute value of a
   matrix regrouped by tiles of rows. -/
import proofs.«165368_j14456859918944_2_alg».proof.Proof.Spec

noncomputable section

namespace Cert.Spec

open Idealize.ShloMosaic Idealize.ShloMosaic.ValueIdx
open scoped BigOperators

/-! ### Real numbers among the extended reals -/

/-- The image of a real number is real. -/
theorem isReal_coe (r : ℝ) : IsReal (r : EReal) := ⟨EReal.coe_ne_bot r, EReal.coe_ne_top r⟩

/-- An extended real is real exactly when it is the image of a real number. -/
theorem isReal_iff {x : EReal} : IsReal x ↔ ∃ r : ℝ, x = (r : EReal) := by
  constructor
  · rintro ⟨h1, h2⟩
    lift x to ℝ using ⟨h2, h1⟩
    exact ⟨x, rfl⟩
  · rintro ⟨r, rfl⟩
    exact isReal_coe r

theorem isReal_add {a b : EReal} (ha : IsReal a) (hb : IsReal b) : IsReal (a + b) := by
  obtain ⟨a, rfl⟩ := isReal_iff.mp ha
  obtain ⟨b, rfl⟩ := isReal_iff.mp hb
  rw [← EReal.coe_add]; exact isReal_coe _

theorem isReal_sub {a b : EReal} (ha : IsReal a) (hb : IsReal b) : IsReal (a - b) := by
  obtain ⟨a, rfl⟩ := isReal_iff.mp ha
  obtain ⟨b, rfl⟩ := isReal_iff.mp hb
  rw [← EReal.coe_sub]; exact isReal_coe _

theorem isReal_mul {a b : EReal} (ha : IsReal a) (hb : IsReal b) : IsReal (a * b) := by
  obtain ⟨a, rfl⟩ := isReal_iff.mp ha
  obtain ⟨b, rfl⟩ := isReal_iff.mp hb
  rw [← EReal.coe_mul]; exact isReal_coe _

theorem isReal_neg {a : EReal} (ha : IsReal a) : IsReal (-a) := by
  obtain ⟨a, rfl⟩ := isReal_iff.mp ha
  rw [← EReal.coe_neg]; exact isReal_coe _

theorem isReal_max {a b : EReal} (ha : IsReal a) (hb : IsReal b) : IsReal (max a b) := by
  rcases max_choice a b with h | h <;> rw [h] <;> assumption

theorem isReal_min {a b : EReal} (ha : IsReal a) (hb : IsReal b) : IsReal (min a b) := by
  rcases min_choice a b with h | h <;> rw [h] <;> assumption

/-- The quotient of a real number by a nonzero real number is real. -/
theorem isReal_div_coe {x : EReal} (hx : IsReal x) {y : ℝ} (hy : y ≠ 0) : IsReal (Ideal.div x (y : EReal)) := by
  rw [Ideal.div_coe hy]
  exact isReal_mul hx (isReal_coe _)

/-- A real number added to a difference from it gives the other term back: a + (b - a) = b when a is real. -/
theorem add_sub_cancel_of_isReal {a : EReal} (ha : IsReal a) (b : EReal) : a + (b - a) = b := by
  obtain ⟨a, rfl⟩ := isReal_iff.mp ha
  induction b using EReal.rec with
  | bot => simp
  | top => simp
  | coe b => norm_cast; ring

/-! ### The constants are the real numbers they spell -/

theorem zero_eq : zero = 0 := by simp [Ideal.ofBits, Ideal.ieee]
theorem c256_eq : c256 = ((256 : ℝ) : EReal) := by
  simp [Ideal.ofBits, Ideal.ieee]; norm_cast; norm_num
theorem c65536_eq : c65536 = ((65536 : ℝ) : EReal) := by
  simp [Ideal.ofBits, Ideal.ieee]; norm_cast; norm_num
theorem c127_eq : c127 = ((127 : ℝ) : EReal) := by
  simp [Ideal.ofBits, Ideal.ieee]; norm_cast; norm_num
theorem cm127_eq : cm127 = ((-127 : ℝ) : EReal) := by
  simp [Ideal.ofBits, Ideal.ieee]; norm_cast; norm_num
theorem one_eq : one = ((1 : ℝ) : EReal) := by
  simp [Ideal.ofBits, Ideal.ieee]; norm_cast; norm_num
theorem mone_eq : mone = ((-1 : ℝ) : EReal) := by
  simp [Ideal.ofBits, Ideal.ieee]; norm_cast; norm_num
theorem epsLN_pos : ∃ r : ℝ, 0 < r ∧ epsLN = (r : EReal) := by
  have h : epsLN = (((10995116 : ℝ) * (2 ^ 40)⁻¹ : ℝ) : EReal) := by
    simp [Ideal.ofBits, Ideal.ieee]
  exact ⟨_, by positivity, h⟩
theorem tiny_pos : ∃ r : ℝ, 0 < r ∧ tiny = (r : EReal) := by
  have h : tiny = (((11258999 : ℝ) * (2 ^ 50)⁻¹ : ℝ) : EReal) := by
    simp [Ideal.ofBits, Ideal.ieee]
  exact ⟨_, by positivity, h⟩

theorem isReal_zero : IsReal zero := by rw [zero_eq, ← EReal.coe_zero]; exact isReal_coe _
theorem isReal_one : IsReal one := by rw [one_eq]; exact isReal_coe _
theorem isReal_mone : IsReal mone := by rw [mone_eq]; exact isReal_coe _
theorem isReal_c127 : IsReal c127 := by rw [c127_eq]; exact isReal_coe _
theorem isReal_cm127 : IsReal cm127 := by rw [cm127_eq]; exact isReal_coe _
theorem isReal_tiny : IsReal tiny := by obtain ⟨r, _, h⟩ := tiny_pos; rw [h]; exact isReal_coe _
theorem isReal_epsLN : IsReal epsLN := by obtain ⟨r, _, h⟩ := epsLN_pos; rw [h]; exact isReal_coe _

/-! ### Real-valuedness through a layer -/

theorem isReal_sum {ι : Type} (s : Finset ι) (f : ι → EReal) (h : ∀ i ∈ s, IsReal (f i)) : IsReal (∑ i ∈ s, f i) := by
  classical
  induction s using Finset.induction_on with
  | empty => rw [Finset.sum_empty, ← EReal.coe_zero]; exact isReal_coe _
  | insert a s ha ih =>
    rw [Finset.sum_insert ha]
    exact isReal_add (h a (Finset.mem_insert_self a s)) (ih fun i hi => h i (Finset.mem_insert_of_mem hi))

/-- The image of a finite sum of real numbers is the sum of the images. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isReal_mean {v : Fin 256 → EReal} (hv : ∀ t, IsReal (v t)) : IsReal (mean v) := by
  rw [mean, c256_eq]
  exact isReal_div_coe (isReal_sum _ _ fun t _ => hv t) (by norm_num)

/-- The mean of a row of real numbers is the image of their real mean. -/
theorem mean_coe (w : Fin 256 → ℝ) : mean (fun t => (w t : EReal)) = (((∑ t, w t) * (1 / 256) : ℝ) : EReal) := by
  rw [mean, c256_eq, Ideal.div_coe (by norm_num), ← coe_sum, ← EReal.coe_mul]

theorem isReal_lnRow {v : Fin 256 → EReal} (hv : ∀ t, IsReal (v t)) (j : Fin 256) : IsReal (lnRow v j) := by
  choose w hw using fun t => isReal_iff.mp (hv t)
  obtain rfl : v = fun t => (w t : EReal) := funext hw
  obtain ⟨e, he, hE⟩ := epsLN_pos
  rw [lnRow, mean_coe]
  refine isReal_mul (isReal_sub (isReal_coe _) (isReal_coe _)) ?_
  have h1 : (fun t => ((w t : EReal) - (((∑ t, w t) * (1 / 256) : ℝ) : EReal)) * ((w t : EReal) - (((∑ t, w t) * (1 / 256) : ℝ) : EReal)))
      = fun t => (((w t - (∑ t, w t) * (1 / 256)) * (w t - (∑ t, w t) * (1 / 256)) : ℝ) : EReal) := by
    funext t
    rw [← EReal.coe_sub, ← EReal.coe_mul]
  rw [h1, mean_coe, hE, ← EReal.coe_add, Ideal.rsqrt_coe]
  have h2 : 0 ≤ ∑ t, (w t - (∑ t, w t) * (1 / 256)) * (w t - (∑ t, w t) * (1 / 256)) :=
    Finset.sum_nonneg fun t _ => mul_self_nonneg _
  have h3 : 0 < (∑ t, (w t - (∑ t, w t) * (1 / 256)) * (w t - (∑ t, w t) * (1 / 256))) * (1 / 256) + e := by positivity
  rw [if_neg (not_lt.mpr h3.le), if_neg h3.ne']
  exact isReal_coe _

/-- The rounded clipped value is always a real number, whatever is scaled. -/
theorem isReal_quant (sq z : EReal) : IsReal (quant sq z) := by
  have h : IsReal (min c127 (max cm127 (z * sq))) := by
    rw [c127_eq, cm127_eq]
    constructor
    · refine (lt_of_lt_of_le (EReal.bot_lt_coe (-127)) (le_min ?_ (le_max_left _ _))).ne'
      exact_mod_cast (by norm_num : (-127 : ℝ) ≤ 127)
    · exact (lt_of_le_of_lt (min_le_left _ _) (EReal.coe_lt_top 127)).ne
  obtain ⟨r, hr⟩ := isReal_iff.mp h
  rw [quant, hr, Ideal.liftRound_coe]
  exact isReal_coe _

theorem isReal_abs' {z : EReal} (hz : IsReal z) : IsReal (abs' z) := isReal_max hz (isReal_neg hz)

/-- A supremum of finitely many extended reals, none of them +∞, is not +∞. -/
theorem iSup_ne_top {ι : Type} [Fintype ι] (f : ι → EReal) (h : ∀ i, f i ≠ ⊤) : (⨆ i, f i) ≠ ⊤ := by
  rw [← Finset.sup_univ_eq_iSup]
  exact ((Finset.sup_lt_iff bot_lt_top).mpr fun i _ => lt_top_iff_ne_top.mpr (h i)).ne

theorem isReal_gamma {n : ℕ} {Z : Fin n → Fin 256 → EReal} (hZ : ∀ i j, IsReal (Z i j)) : IsReal (gamma Z) := by
  obtain ⟨r, hr, hT⟩ := tiny_pos
  rw [gamma]
  constructor
  · refine (lt_of_lt_of_le ?_ (le_max_right _ _)).ne'
    rw [hT]; exact EReal.bot_lt_coe r
  · have h1 : absmax Z ≠ ⊤ := iSup_ne_top _ fun i => iSup_ne_top _ fun j => (isReal_abs' (hZ i j)).2
    rcases max_choice (absmax Z) tiny with h | h <;> rw [h]
    · exact h1
    · exact isReal_tiny.2

theorem isReal_wmean {W : Fin 256 → Fin 256 → EReal} (hW : ∀ a b, IsReal (W a b)) : IsReal (wmean W) := by
  rw [wmean, c65536_eq]
  exact isReal_div_coe (isReal_sum _ _ fun a _ => isReal_sum _ _ fun b _ => hW a b) (by norm_num)

theorem isReal_wsign (W : Fin 256 → Fin 256 → EReal) (a b : Fin 256) : IsReal (wsign W a b) := by
  rw [wsign, Scalar.select]
  split_ifs
  · exact isReal_one
  · exact isReal_mone

theorem isReal_beta {W : Fin 256 → Fin 256 → EReal} (hW : ∀ a b, IsReal (W a b)) : IsReal (beta W) := by
  rw [beta, c65536_eq]
  exact isReal_max (isReal_div_coe (isReal_sum _ _ fun a _ => isReal_sum _ _ fun b _ => isReal_abs' (hW a b)) (by norm_num))
    isReal_tiny

/-- A layer at a real scale with real weights is real everywhere (the rounded activations always are). -/
theorem isReal_pre {n : ℕ} {g : EReal} (hg : IsReal g) (X : Fin n → Fin 256 → EReal) {W : Fin 256 → Fin 256 → EReal}
    (hW : ∀ a b, IsReal (W a b)) (i : Fin n) (j : Fin 256) : IsReal (pre g X W i j) := by
  rw [pre, c127_eq]
  exact isReal_mul (isReal_sum _ _ fun k _ => isReal_mul (isReal_quant _ _) (isReal_wsign W j k))
    (isReal_div_coe (isReal_mul (isReal_beta hW) hg) (by norm_num))

theorem isReal_layer {n : ℕ} {X : Fin n → Fin 256 → EReal} (hX : ∀ i j, IsReal (X i j)) {W : Fin 256 → Fin 256 → EReal}
    (hW : ∀ a b, IsReal (W a b)) (i : Fin n) (j : Fin 256) : IsReal (layer X W i j) :=
  isReal_pre (isReal_gamma fun i j => isReal_lnRow (hX i) j) X hW i j

theorem isReal_relu {z : EReal} (hz : IsReal z) : IsReal (relu z) := isReal_max hz isReal_zero

/-! ### Maxima -/

/-- A fold of max from the bottom element over a whole finite type is the supremum. -/
theorem fold_max_bot_eq_iSup {ι : Type} [Fintype ι] (f : ι → EReal) :
    (Finset.univ : Finset ι).fold max ⊥ f = ⨆ i, f i := by
  rw [← Finset.sup_univ_eq_iSup]
  rfl

/-- The largest absolute value of a 131072-row matrix, tile by tile: 64 tiles of 2048 rows. -/
theorem absmax_tiles (Z : Fin 131072 → Fin 256 → EReal) :
    absmax Z = ⨆ t : Fin 64, ⨆ r : Fin 2048, ⨆ j : Fin 256,
      abs' (Z ⟨t.val * 2048 + r.val, by have := t.isLt; have := r.isLt; omega⟩ j) := by
  rw [absmax]
  apply le_antisymm
  · refine iSup_le fun i => iSup_le fun j => ?_
    refine le_iSup_of_le ⟨i.val / 2048, by have := i.isLt; omega⟩ ?_
    refine le_iSup_of_le ⟨i.val % 2048, by omega⟩ ?_
    refine le_iSup_of_le j (le_of_eq ?_)
    congr 2
    apply Fin.ext
    show i.val = i.val / 2048 * 2048 + i.val % 2048
    omega
  · refine iSup_le fun t => iSup_le fun r => iSup_le fun j => ?_
    exact le_iSup_of_le _ (le_iSup_of_le j le_rfl)

/-- An array of 512 × 128 entries whose entry (a, b) is the value of tile a / 8 has the tiles' supremum as its supremum. -/
theorem iSup_partials (τ : Fin 64 → EReal) :
    (⨆ a : Fin 512, ⨆ _b : Fin 128, τ ⟨a.val / 8, by have := a.isLt; omega⟩) = ⨆ t, τ t := by
  apply le_antisymm
  · exact iSup_le fun a => iSup_le fun _ => le_iSup τ _
  · refine iSup_le fun t => ?_
    refine le_iSup_of_le ⟨8 * t.val, by have := t.isLt; omega⟩ ?_
    refine le_iSup_of_le ⟨0, by norm_num⟩ (le_of_eq (congrArg τ (Fin.ext ?_)))
    show t.val = 8 * t.val / 8
    omega

end Cert.Spec

end
-- ==== Proof.RefBridge.lean ====
/- The reference program read entry by entry at the extended reals: one layer of the reference (row
   normalisation, the activation scale as a supremum, the rounded clipped activations, the sign weights and
   their scale, the product) is the layer of the specification, and the three layers compose to the network. -/
import proofs.«165368_j14456859918944_2_alg».proof.Proof.ReadP
import proofs.«165368_j14456859918944_2_alg».proof.Proof.SpecFacts

noncomputable section

namespace Cert.Bridge.Ref

open Cert.ReferenceIdeal Cert.ReferenceIdeal.Gen Cert.ReferenceIdeal.ReadP Idealize.ShloMosaic Idealize.ShloMosaic.TcCoe
open Idealize.SL.Sem Idealize.ShloMosaic.StableHlo Idealize.ShloMosaic.ValueIdx Cert.Spec
open scoped BigOperators

/-- An activation matrix of the reference. -/
abbrev XT : Type := (⟨S131072x256, .f32⟩ : BufTy).Contents (Elt Ideal)
/-- A weight matrix of the reference. -/
abbrev WT : Type := (⟨S256x256, .f32⟩ : BufTy).Contents (Elt Ideal)

/-! ### Small facts on the extended reals -/

/-- The word of the zero constant is the number zero. -/
theorem ofBits_zero : Ideal.ofBits .f32 0x00000000#32 = 0 := zero_eq

/-- The word of negative infinity is the bottom element. -/
theorem ofBits_neg_inf : Ideal.ofBits .f32 0xFF800000#32 = ⊥ := by
  simp [Ideal.ofBits, Ideal.ieee]

/-! ### Row normalisation -/

/-- The row index the row sums read: row p, column k. -/
theorem row_idx (p : Fin 131072) (q : Fin 256) (k : Fin 256) :
    idx_main_v0 (idx_main_v1 (idx_main_v4 (ix2 p q))) k = ix2 p k := by
  funext a
  match a with
  | ⟨0, _⟩ => rfl
  | ⟨1, _⟩ => rfl

/-- The row mean spread over the row, as the first subtraction reads it. -/
theorem v4_read (X : XT) (p : Fin 131072) (q : Fin 256) :
    val_main_v4 (F := Ideal) X (ix2 p q) = mean (cur X p) := by
  rw [val_main_v4_apply, val_main_v3_apply, val_main_v1_apply, val_main_v2_apply, val_main_v0_apply,
    val_main_cst_apply, val_main_cst_0_apply]
  simp only [Ideal.hostDivf_def, Ideal.ofBits_def, row_idx]
  rw [ofBits_zero, zero_add]
  rfl

/-- The row mean spread over the row, as the second subtraction reads it. -/
theorem v11_read (X : XT) (p : Fin 131072) (q : Fin 256) :
    val_main_v11 (F := Ideal) X (ix2 p q) = mean (cur X p) := by
  rw [val_main_v11_apply, val_main_v3_apply, val_main_v1_apply, val_main_v2_apply, val_main_v0_apply,
    val_main_cst_apply, val_main_cst_0_apply]
  simp only [Ideal.hostDivf_def, Ideal.ofBits_def]
  rw [ofBits_zero, zero_add]
  have h : ∀ k : Fin 256, idx_main_v0 (idx_main_v1 (idx_main_v11 (ix2 p q))) k = ix2 p k := fun k => by
    funext a
    match a with
    | ⟨0, _⟩ => rfl
    | ⟨1, _⟩ => rfl
  simp only [h]
  rfl

/-- The centred entry. -/
theorem v5_read (X : XT) (p : Fin 131072) (q : Fin 256) :
    val_main_v5 (F := Ideal) X (ix2 p q) = X (ix2 p q) - mean (cur X p) := by
  rw [val_main_v5_apply, v4_read]
  rfl

/-- The centred entry, second copy. -/
theorem v12_read (X : XT) (p : Fin 131072) (q : Fin 256) :
    val_main_v12 (F := Ideal) X (ix2 p q) = X (ix2 p q) - mean (cur X p) := by
  rw [val_main_v12_apply, v11_read]
  rfl

/-- The squared centred entry. -/
theorem v6_read (X : XT) (p : Fin 131072) (q : Fin 256) :
    val_main_v6 (F := Ideal) X (ix2 p q)
      = (X (ix2 p q) - mean (cur X p)) * (X (ix2 p q) - mean (cur X p)) := by
  rw [val_main_v6_apply, v5_read]
  rfl

/-- The reciprocal root of the row's variance plus the constant, spread over the row. -/
theorem v16_read (X : XT) (p : Fin 131072) (q : Fin 256) :
    val_main_v16 (F := Ideal) X (ix2 p q)
      = Ideal.rsqrt (mean (fun t => (cur X p t - mean (cur X p)) * (cur X p t - mean (cur X p))) + epsLN) := by
  rw [val_main_v16_apply, val_main_v15_apply, val_main_v14_apply, val_main_v10_apply, val_main_v8_apply,
    val_main_v9_apply, val_main_v13_apply, val_main_v7_apply, val_main_cst_1_apply, val_main_cst_2_apply,
    val_main_cst_3_apply]
  have h : ∀ k : Fin 256, idx_main_v7 (idx_main_v8 (idx_main_v16 (ix2 p q))) k = ix2 p k := fun k => by
    funext a
    match a with
    | ⟨0, _⟩ => rfl
    | ⟨1, _⟩ => rfl
  simp only [h, v6_read, Ideal.hostUnary_rsqrt_def, Ideal.addf_def, Ideal.hostDivf_def, Ideal.ofBits_def]
  rw [ofBits_zero, zero_add]
  rfl

/-- The normalised entry. -/
theorem v17_read (X : XT) (p : Fin 131072) (q : Fin 256) :
    val_main_v17 (F := Ideal) X (ix2 p q) = ln (cur X) p q := by
  rw [val_main_v17_apply, v12_read, v16_read]
  rfl

/-! ### The activation scale -/

/-- The total maximum of the absolute normalised entries is their supremum. -/
theorem v19_read (X : XT) (i : S_.Idx) : val_main_v19 (F := Ideal) X i = absmax (ln (cur X)) := by
  unfold val_main_v19
  rw [Host.reduce_eq_fold, val_main_cst_4_apply, Ideal.ofBits_def, ofBits_neg_inf,
    Finset.filter_true_of_mem (fun j _ => funext fun a => a.elim0)]
  refine (fold_max_bot_eq_iSup _).trans ?_
  rw [← Equiv.iSup_comp (idxEquiv2 (n0 := 131072) (n1 := 256)).symm, iSup_prod]
  show _ = ⨆ a, ⨆ b, abs' (ln (cur X) a b)
  refine iSup_congr fun a => iSup_congr fun b => ?_
  show val_main_v18 (F := Ideal) X (ix2 a b) = abs' (ln (cur X) a b)
  rw [val_main_v18_apply, v17_read]
  rfl

/-- The activation scale. -/
theorem v20_read (X : XT) (i : S_.Idx) : val_main_v20 (F := Ideal) X i = gamma (ln (cur X)) := by
  rw [val_main_v20_apply, v19_read, val_main_cst_5_apply]
  rfl

/-- The rounded clipped activation: the straight-through sum gives the rounded value back because the
    normalised entry is a real number. -/
theorem v27_read (X : XT) (hX : ∀ i, IsReal (X i)) (p : Fin 131072) (q : Fin 256) :
    val_main_v27 (F := Ideal) X (ix2 p q)
      = quant (Ideal.div c127 (gamma (ln (cur X)))) (ln (cur X) p q) := by
  rw [val_main_v27_apply, val_main_v26_apply, val_main_v25_apply, val_main_v24_apply, val_main_call0_v2_apply,
    val_main_call0_v1_apply, val_main_call0_v0_apply, val_main_v23_apply, val_main_v22_apply, val_main_v21_apply,
    v20_read, v17_read, val_main_cst_6_apply, val_main_cst_7_apply, val_main_cst_8_apply]
  have h : IsReal (ln (cur X) p q) := isReal_lnRow (fun t => hX (ix2 p t)) q
  simp only [Ideal.addf_def, Ideal.subf_def]
  rw [add_sub_cancel_of_isReal h]
  rfl

/-! ### The weights -/

/-- The mean weight. -/
theorem v29_read (W : WT) (i : S_.Idx) : val_main_v29 (F := Ideal) W i = wmean (cur W) := by
  rw [val_main_v29_apply, val_main_v28_apply, val_main_cst_9_apply, val_main_cst_10_apply]
  simp only [Ideal.hostDivf_def, Ideal.ofBits_def]
  rw [ofBits_zero, zero_add, sum_idx2]
  rfl

/-- A weight's deviation from the mean. -/
theorem v35_read (W : WT) (a b : Fin 256) :
    val_main_v35 (F := Ideal) W (ix2 a b) = W (ix2 a b) - wmean (cur W) := by
  rw [val_main_v35_apply, val_main_v34_apply, v29_read]
  rfl

/-- The sign weight: the straight-through sum gives the sign back because the deviation is a real number. -/
theorem v41_read (W : WT) (hW : ∀ i, IsReal (W i)) (a b : Fin 256) :
    val_main_v41 (F := Ideal) W (ix2 a b) = wsign (cur W) a b := by
  rw [val_main_v41_apply, val_main_v40_apply, val_main_v39_apply, val_main_v38_apply, val_main_v37_apply,
    val_main_v36_apply, val_main_call2_v0_apply, val_main_call2_v1_apply, val_main_cst_14_apply,
    val_main_cst_15_apply, val_main_cst_16_apply, v35_read]
  have h : IsReal (W (ix2 a b) - wmean (cur W)) :=
    isReal_sub (hW (ix2 a b)) (isReal_wmean (fun c d => hW (ix2 c d)))
  simp only [Ideal.addf_def, Ideal.subf_def]
  rw [add_sub_cancel_of_isReal h]
  rfl

/-- The transposed sign weights. -/
theorem v42_read (W : WT) (hW : ∀ i, IsReal (W i)) (k j : Fin 256) :
    val_main_v42 (F := Ideal) W (ix2 k j) = wsign (cur W) j k := by
  have h : idx_main_v42 (ix2 k j) = ix2 j k := by
    funext a
    match a with
    | ⟨0, _⟩ => rfl
    | ⟨1, _⟩ => rfl
  rw [val_main_v42_apply, h, v41_read W hW]

/-- The weight scale. -/
theorem v33_read (W : WT) (i : S_.Idx) : val_main_v33 (F := Ideal) W i = beta (cur W) := by
  rw [val_main_v33_apply, val_main_v32_apply, val_main_v31_apply, val_main_cst_11_apply, val_main_cst_12_apply,
    val_main_cst_13_apply]
  simp only [Ideal.hostDivf_def, Ideal.ofBits_def, Ideal.maximumf_def]
  rw [ofBits_zero, zero_add, sum_idx2]
  rfl

/-! ### The layer -/

/-- The product of the rounded activations with the transposed sign weights. -/
theorem v43_read (X : XT) (W : WT) (hX : ∀ i, IsReal (X i)) (hW : ∀ i, IsReal (W i)) (p : Fin 131072) (q : Fin 256) :
    val_main_v43 (F := Ideal) X W (ix2 p q)
      = ∑ k, quant (Ideal.div c127 (gamma (ln (cur X)))) (ln (cur X) p k) * wsign (cur W) q k := by
  rw [val_main_v43_apply]
  refine Finset.sum_congr rfl fun k _ => ?_
  have hl : lidx_main_v43 (ix2 p q) k = ix2 p k := by
    funext a
    match a with
    | ⟨0, _⟩ => rfl
    | ⟨1, _⟩ => rfl
  have hr : ridx_main_v43 (ix2 p q) k = ix2 k q := by
    funext a
    match a with
    | ⟨0, _⟩ => rfl
    | ⟨1, _⟩ => rfl
  rw [hl, hr, v27_read X hX, v42_read W hW]

/-- One layer of the reference is the layer of the specification. -/
theorem v47_read (X : XT) (W : WT) (hX : ∀ i, IsReal (X i)) (hW : ∀ i, IsReal (W i)) (p : Fin 131072) (q : Fin 256) :
    val_main_v47 (F := Ideal) X W (ix2 p q) = layer (cur X) (cur W) p q := by
  rw [val_main_v47_apply, v43_read X W hX hW, val_main_v46_apply, val_main_v45_apply, val_main_v44_apply, v33_read,
    v20_read, val_main_cst_17_apply]
  rfl

/-- The layer followed by max(·, 0). -/
theorem v48_read (X : XT) (W : WT) (hX : ∀ i, IsReal (X i)) (hW : ∀ i, IsReal (W i)) (p : Fin 131072) (q : Fin 256) :
    val_main_v48 (F := Ideal) X W (ix2 p q) = relu (layer (cur X) (cur W) p q) := by
  rw [val_main_v48_apply, v47_read X W hX hW, val_main_call3_v0_apply, val_main_call3_cst_apply]
  rfl

/-! ### The second and third layers are the first layer's operations on other operands -/

theorem v96_eq (x0 : XT) (x1 x2 : WT) :
    val_main_v96 (F := Ideal) x0 x1 x2 = val_main_v47 (F := Ideal) (val_main_v48 (F := Ideal) x0 x1) x2 := rfl

theorem v97_eq (x0 : XT) (x1 x2 : WT) :
    val_main_v97 (F := Ideal) x0 x1 x2 = val_main_v48 (F := Ideal) (val_main_v48 (F := Ideal) x0 x1) x2 := rfl

theorem v145_eq (x0 : XT) (x1 x2 x3 : WT) :
    val_main_v145 (F := Ideal) x0 x1 x2 x3
      = val_main_v47 (F := Ideal) (val_main_v97 (F := Ideal) x0 x1 x2) x3 := rfl

/-! ### The network -/

/-- The reference's result, entry by entry, is the network of the specification. -/
theorem result_eq (x0 : FVec Ideal ⟨2, ![131072, 256]⟩ .f32) (x1 x2 x3 : FVec Ideal ⟨2, ![256, 256]⟩ .f32)
    (h0 : ∀ i, Cert.Spec.IsReal (x0 i)) (h1 : ∀ i, Cert.Spec.IsReal (x1 i)) (h2 : ∀ i, Cert.Spec.IsReal (x2 i))
    (h3 : ∀ i, Cert.Spec.IsReal (x3 i)) (p : Fin 131072) (q : Fin 256) :
    Cert.ReferenceIdeal.ReadP.val_main_v145 (F := Ideal) x0 x1 x2 x3 (ValueIdx.ix2 p q)
      = Cert.Spec.net (Cert.Spec.cur x0) (Cert.Spec.cur x1) (Cert.Spec.cur x2) (Cert.Spec.cur x3) p q := by
  have e1 : cur (val_main_v48 (F := Ideal) x0 x1) = fun i j => relu (layer (cur x0) (cur x1) i j) := by
    funext i j
    exact v48_read x0 x1 h0 h1 i j
  have r1 : ∀ i, IsReal (val_main_v48 (F := Ideal) x0 x1 i) := by
    intro i
    obtain ⟨a, b, rfl⟩ : ∃ (a : Fin 131072) (b : Fin 256), i = ix2 a b := ⟨i 0, i 1, eq_ix2 i⟩
    rw [v48_read x0 x1 h0 h1]
    exact isReal_relu (isReal_layer (fun c d => h0 (ix2 c d)) (fun c d => h1 (ix2 c d)) a b)
  have e2 : cur (val_main_v97 (F := Ideal) x0 x1 x2)
      = fun i j => relu (layer (fun i j => relu (layer (cur x0) (cur x1) i j)) (cur x2) i j) := by
    funext i j
    show val_main_v97 (F := Ideal) x0 x1 x2 (ix2 i j) = _
    rw [v97_eq, v48_read _ x2 r1 h2, e1]
  have r2 : ∀ i, IsReal (val_main_v97 (F := Ideal) x0 x1 x2 i) := by
    intro i
    obtain ⟨a, b, rfl⟩ : ∃ (a : Fin 131072) (b : Fin 256), i = ix2 a b := ⟨i 0, i 1, eq_ix2 i⟩
    rw [v97_eq, v48_read _ x2 r1 h2]
    refine isReal_relu (isReal_layer (fun c d => ?_) (fun c d => h2 (ix2 c d)) a b)
    exact r1 (ix2 c d)
  rw [v145_eq, v47_read _ x3 r2 h3, e2]
  rfl

end Cert.Bridge.Ref

end
-- ==== Proof.RefRun.lean ====
/- The reference program's run, layer by layer: its 222 operations are three stretches, one per layer of the
   network; each stretch writes its layer's value as a function of the contents it starts from and leaves the
   four arguments alone, and the three compose to the value of the whole network at the launch contents. -/
import proofs.«165368_j14456859918944_2_alg».proof.Proof.RunP
import proofs.«165368_j14456859918944_2_alg».proof.Proof.ReadP

noncomputable section

namespace Cert.Bridge.RefRun

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

/-- The contents after two lines of operations run one after the other are those after the second line from
    the contents after the first. -/
theorem after_append {τ' : Topo} {sig' : RefSig} {Val : EltTy → Type} (l₁ l₂ : List (HloOp τ' sig' Val))
    (V : Valuation τ' sig' Val) : after (l₁ ++ l₂) V = after l₂ (after l₁ V) := by
  induction l₁ generalizing V with
  | nil => rfl
  | cons op l ih => rw [List.cons_append, after_cons, after_cons, ih]

variable {F : FTy → Type} [FloatOps F]

/-- The first layer's operations: the first 75, up to the first max(·, 0). -/
abbrev L1 : List (HloOp τ sig (Elt F)) := (ops (F := F)).take 75
/-- The second layer's operations: the next 75, up to the second max(·, 0). -/
abbrev L2 : List (HloOp τ sig (Elt F)) := ((ops (F := F)).drop 75).take 75
/-- The third layer's operations: the last 72. -/
abbrev L3 : List (HloOp τ sig (Elt F)) := ((ops (F := F)).drop 75).drop 75

/-- The 222 operations are the three stretches in order. -/
theorem ops_split : (ops (F := F)) = L1 ++ (L2 ++ L3) := by
  rw [L2, L3, List.take_append_drop, L1, List.take_append_drop]

/-! ### What each stretch writes, from any contents -/

set_option maxRecDepth 8192 in
set_option maxHeartbeats 4000000 in
/-- The first stretch writes the first layer's value (with its max(·, 0)) of the first two arguments. -/
theorem layer1 (V : Valuation τ sig (Elt F)) :
    after (L1 (F := F)) V (Proc.devRef .tc main_v48)
      = val_main_v48 (F := F) (V (Proc.devRef .tc main_arg0)) (V (Proc.devRef .tc main_arg1)) := by
  dsimp only [L1, ops, List.take, List.drop]
  after_results_simp
  rfl

set_option maxRecDepth 8192 in
set_option maxHeartbeats 4000000 in
/-- The second stretch writes the same layer function of the first layer's result and the third argument. -/
theorem layer2 (V : Valuation τ sig (Elt F)) :
    after (L2 (F := F)) V (Proc.devRef .tc main_v97)
      = val_main_v48 (F := F) (V (Proc.devRef .tc main_v48)) (V (Proc.devRef .tc main_arg2)) := by
  dsimp only [L2, ops, List.take, List.drop]
  after_results_simp
  rfl

set_option maxRecDepth 8192 in
set_option maxHeartbeats 4000000 in
/-- The third stretch writes the layer function without max(·, 0) of the second layer's result and the fourth argument. -/
theorem layer3 (V : Valuation τ sig (Elt F)) :
    after (L3 (F := F)) V (Proc.devRef .tc main_v145)
      = val_main_v47 (F := F) (V (Proc.devRef .tc main_v97)) (V (Proc.devRef .tc main_arg3)) := by
  dsimp only [L3, ops, List.take, List.drop]
  after_results_simp
  rfl

/-! ### What the stretches leave alone -/

set_option maxRecDepth 8192 in
set_option maxHeartbeats 4000000 in
theorem L1_arg2 (V : Valuation τ sig (Elt F)) :
    after (L1 (F := F)) V (Proc.devRef .tc main_arg2) = V (Proc.devRef .tc main_arg2) := by
  dsimp only [L1, ops, List.take, List.drop]
  after_results_simp

set_option maxRecDepth 8192 in
set_option maxHeartbeats 4000000 in
theorem L1_arg3 (V : Valuation τ sig (Elt F)) :
    after (L1 (F := F)) V (Proc.devRef .tc main_arg3) = V (Proc.devRef .tc main_arg3) := by
  dsimp only [L1, ops, List.take, List.drop]
  after_results_simp

set_option maxRecDepth 8192 in
set_option maxHeartbeats 4000000 in
theorem L2_arg3 (V : Valuation τ sig (Elt F)) :
    after (L2 (F := F)) V (Proc.devRef .tc main_arg3) = V (Proc.devRef .tc main_arg3) := by
  dsimp only [L2, ops, List.take, List.drop]
  after_results_simp

set_option maxRecDepth 8192 in
set_option maxHeartbeats 8000000 in
/-- No operation writes the first argument. -/
theorem ops_arg0 (V : Valuation τ sig (Elt F)) :
    after (ops (F := F)) V (Proc.devRef .tc main_arg0) = V (Proc.devRef .tc main_arg0) := by
  after_results_simp

set_option maxRecDepth 8192 in
set_option maxHeartbeats 8000000 in
/-- No operation writes the second argument. -/
theorem ops_arg1 (V : Valuation τ sig (Elt F)) :
    after (ops (F := F)) V (Proc.devRef .tc main_arg1) = V (Proc.devRef .tc main_arg1) := by
  after_results_simp

set_option maxRecDepth 8192 in
set_option maxHeartbeats 8000000 in
/-- No operation writes the third argument. -/
theorem ops_arg2 (V : Valuation τ sig (Elt F)) :
    after (ops (F := F)) V (Proc.devRef .tc main_arg2) = V (Proc.devRef .tc main_arg2) := by
  after_results_simp

set_option maxRecDepth 8192 in
set_option maxHeartbeats 8000000 in
/-- No operation writes the fourth argument. -/
theorem ops_arg3 (V : Valuation τ sig (Elt F)) :
    after (ops (F := F)) V (Proc.devRef .tc main_arg3) = V (Proc.devRef .tc main_arg3) := by
  after_results_simp

/-! ### The whole program -/

/-- The 222 operations write the network's value of the four arguments, from any contents. -/
theorem ops_result (V : Valuation τ sig (Elt F)) :
    after (ops (F := F)) V (Proc.devRef .tc main_v145)
      = val_main_v145 (F := F) (V (Proc.devRef .tc main_arg0)) (V (Proc.devRef .tc main_arg1))
          (V (Proc.devRef .tc main_arg2)) (V (Proc.devRef .tc main_arg3)) := by
  rw [ops_split, after_append, after_append, layer3, layer2, L2_arg3, layer1, L1_arg2, L1_arg3]
  rfl

set_option maxRecDepth 8192 in
set_option maxHeartbeats 88800000 in
/-- On every device, for any float values, from any memory with zero counters: every weakly fair execution of the
    reference terminates with the result buffer at the network's value of the four arguments' launch contents,
    and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v145)
        = val_main_v145 (F := F) (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v145).trans ((ops_result (launchContents m c)).trans rfl),
      (h c main_arg0).trans ((ops_arg0 (launchContents m c)).trans rfl),
      (h c main_arg1).trans ((ops_arg1 (launchContents m c)).trans rfl),
      (h c main_arg2).trans ((ops_arg2 (launchContents m c)).trans rfl),
      (h c main_arg3).trans ((ops_arg3 (launchContents m c)).trans rfl)⟩)
    (run_seq scopedRefs_eq scopedSems_eq defs main (fun _ => ops) main_eq (fun _ => ops_sub) m ρ)

end Cert.Bridge.RefRun

end
-- ==== Proof.KRun.lean ====
/- The idealized kernel program's run with its result named: every weakly fair execution terminates without a fault,
   the result buffer ends at the last boundary's contents of the fold through the four launches and the host stretches
   between them, and the argument arrays end as launched. -/
import proofs.«165368_j14456859918944_2_alg».proof.Proof.Gen.KernelIdeal.Frame

set_option maxRecDepth 16384

noncomputable section

namespace Cert.Bridge.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the launch over the program's segments, the last thread state read against the final state, the result buffer
    at the last boundary's contents and each argument walked back to the launch memory. -/
theorem run : θ_run defs (onTc (τ := τ) (main (F := F))) ⟨m, fun _ => 0, ρ⟩ (fun r => ∀ c : Dev nD,
      r.2.mem ((c.tc : Thread nD τ).loc main_v66) = W13 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v66 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c)⟩)

end Cert.Bridge.Run

end
-- ==== Proof.KSpec.lean ====
/- The kernel's way of computing the network of Spec.lean, as functions of whole arrays.
   The activation scale of a layer is found from per-tile maxima: the 131072 rows are 64 tiles of 2048 rows; each tile's
   largest normalised absolute value is written to every entry of an 8 × 128 block of a 512 × 128 array, whose overall
   maximum, bounded below, is the scale. Regrouping the maximum by tiles does not change it. -/
import proofs.«165368_j14456859918944_2_alg».proof.Proof.SpecFacts

noncomputable section

namespace Cert.Bridge.KSpec

open Idealize.ShloMosaic Idealize.ShloMosaic.ValueIdx Cert.Spec
open scoped BigOperators

/-- The word of the accumulator the maxima are folded from: minus infinity. -/
abbrev negInf : EReal := Ideal.ofBits .f32 0xFF800000#32

theorem negInf_eq : negInf = ⊥ := by simp [negInf, Ideal.ofBits, Ideal.ieee]

/-- Row 2048 t + r. -/
abbrev rowOf (t : Fin 64) (r : Fin 2048) : Fin 131072 := ⟨t.val * 2048 + r.val, by have := t.isLt; have := r.isLt; omega⟩

/-- The largest normalised absolute value of 2048 rows, as folds of max from minus infinity. -/
def foldRows (rows : Fin 2048 → Fin 256 → EReal) : EReal :=
  (Finset.univ : Finset (Fin 2048)).fold max negInf (fun r =>
    (Finset.univ : Finset (Fin 256)).fold max negInf (fun s => abs' (lnRow (rows r) s)))

/-- The largest normalised absolute value of tile t of X. -/
def tileAbsMax (X : (⟨2, ![131072, 256]⟩ : Shape).Idx → EReal) (t : Fin 64) : EReal :=
  foldRows (fun r s => X (ix2 (rowOf t r) s))

/-- The tile of a row of the 512 × 128 array of partial maxima. -/
abbrev tileOfRow (a : Fin 512) : Fin 64 := ⟨a.val / 8, by have := a.isLt; omega⟩

/-- The array of partial maxima: entry (a, b) is the maximum of tile a / 8. -/
def partials (X : (⟨2, ![131072, 256]⟩ : Shape).Idx → EReal) : (⟨2, ![512, 128]⟩ : Shape).Idx → EReal :=
  fun i => tileAbsMax X (tileOfRow (i 0))

theorem partials_read (X : (⟨2, ![131072, 256]⟩ : Shape).Idx → EReal) (a : Fin 512) (b : Fin 128) :
    partials X (ix2 a b) = tileAbsMax X (tileOfRow a) := rfl

theorem tileAbsMax_eq (X : (⟨2, ![131072, 256]⟩ : Shape).Idx → EReal) (t : Fin 64) :
    tileAbsMax X t = ⨆ r : Fin 2048, ⨆ s : Fin 256, abs' (ln (cur X) (rowOf t r) s) := by
  unfold tileAbsMax foldRows
  rw [negInf_eq, fold_max_bot_eq_iSup]
  refine iSup_congr fun r => ?_
  rw [fold_max_bot_eq_iSup]
  rfl

/-- The maximum of all partial maxima is the largest normalised absolute value of the whole matrix. -/
theorem iSup_partials_eq (X : (⟨2, ![131072, 256]⟩ : Shape).Idx → EReal) :
    (⨆ i, partials X i) = absmax (ln (cur X)) := by
  rw [absmax_tiles, ← iSup_partials (fun t => ⨆ r : Fin 2048, ⨆ s : Fin 256, abs' (ln (cur X) (rowOf t r) s))]
  rw [← (idxEquiv2 (n0 := 512) (n1 := 128)).symm.iSup_comp (g := partials X), iSup_prod]
  refine iSup_congr fun a => iSup_congr fun b => ?_
  show partials X (ix2 a b) = _
  rw [partials_read, tileAbsMax_eq]

/-- One output entry from one input row and one weight column: the rounded clipped scaled normalised row times the column,
    times the output scale. -/
def rowOut (row : Fin 256 → EReal) (sq : EReal) (col : Fin 256 → EReal) (so : EReal) : EReal :=
  (∑ k : Fin 256, quant sq (lnRow row k) * col k) * so

/-- A layer's entry in the kernel's terms: the scales 127 / g and β g / 127 arrive as one-entry arrays, the weights as a
    transposed sign matrix. -/
def layerEntry (X : (⟨2, ![131072, 256]⟩ : Shape).Idx → EReal) (sq : EReal) (wT : (⟨2, ![256, 256]⟩ : Shape).Idx → EReal) (so : EReal)
    (i : Fin 131072) (j : Fin 256) : EReal :=
  rowOut (fun s => X (ix2 i s)) sq (fun k => wT (ix2 k j)) so

/-- A layer's whole output array in the kernel's terms; `bounded` says whether max(·, 0) follows. -/
def layerArr (bounded : Bool) (X : (⟨2, ![131072, 256]⟩ : Shape).Idx → EReal) (sq : (⟨2, ![1, 1]⟩ : Shape).Idx → EReal)
    (wT : (⟨2, ![256, 256]⟩ : Shape).Idx → EReal) (so : (⟨2, ![1, 1]⟩ : Shape).Idx → EReal) :
    (⟨2, ![131072, 256]⟩ : Shape).Idx → EReal :=
  fun i => (if bounded then relu else id)
    (layerEntry X (sq (ix2 (0 : Fin 1) (0 : Fin 1))) wT (so (ix2 (0 : Fin 1) (0 : Fin 1))) (i 0) (i 1))

theorem layerArr_read (bounded : Bool) (X : (⟨2, ![131072, 256]⟩ : Shape).Idx → EReal) (sq : (⟨2, ![1, 1]⟩ : Shape).Idx → EReal)
    (wT : (⟨2, ![256, 256]⟩ : Shape).Idx → EReal) (so : (⟨2, ![1, 1]⟩ : Shape).Idx → EReal) (p : Fin 131072) (q : Fin 256) :
    layerArr bounded X sq wT so (ix2 p q)
      = (if bounded then relu else id)
          (layerEntry X (sq (ix2 (0 : Fin 1) (0 : Fin 1))) wT (so (ix2 (0 : Fin 1) (0 : Fin 1))) p q) := rfl

end Cert.Bridge.KSpec

end
-- ==== Proof.LibMatRead.lean ====
/- Vector operations of the ideal float instance read at an entry: reductions along the last axis of a
   matrix or the middle axis of a stack, a column broadcast over rows, slices, casts and concatenations
   of a stack of matrices, and the identity mask. Stated for any extents. -/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Lib.MatRead

open Idealize.ShloMosaic Idealize.ShloMosaic.ValueIdx
open scoped BigOperators

variable {φ : FTy}

/-! ### The index a reduction inserts -/

/-- Row i of a matrix with column k put back: (i, k). -/
theorem lift_row {a b : ℕ} (h : (⟨2, ![a, b]⟩ : Shape).Reduces [1] ⟨1, ![a]⟩) (i : Fin a) (k : Fin b) :
    h.lift (ix1 i) k = ix2 i k := by
  funext c; apply Fin.ext
  match c with
  | ⟨0, _⟩ => rfl
  | ⟨1, _⟩ => rfl

/-- Entry (g, j) of a stack's column sums with the row s put back: (g, s, j). -/
theorem lift_mid {m a b : ℕ} (h : (⟨3, ![m, a, b]⟩ : Shape).Reduces [1] ⟨2, ![m, b]⟩) (g : Fin m) (j : Fin b) (s : Fin a) :
    h.lift (ix2 g j) s = ix3 g s j := by
  funext c; apply Fin.ext
  match c with
  | ⟨0, _⟩ => rfl
  | ⟨1, _⟩ => rfl
  | ⟨2, _⟩ => rfl

/-! ### Reductions -/

/-- The sum along a matrix's rows. -/
theorem rowSum_read {a b : ℕ} (X : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ X acc h hφ hacc (ix1 i) = ∑ t : Fin b, X (ix2 i t) := by
  rw [Ideal.multiReduction_add_single]
  exact Finset.sum_congr rfl fun t _ => congrArg X (lift_row h i t)

/-- The maximum along a matrix's rows, folded from the accumulator's word. -/
theorem rowMax_read {a b : ℕ} (X : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ X acc h hφ hacc (ix1 i)
      = (Finset.univ : Finset (Fin b)).fold max (Ideal.ofBits φ acc) (fun t => X (ix2 i t)) := by
  rw [Ideal.multiReduction_maximumf_single]
  congr 1
  funext t
  exact congrArg X (lift_row h i t)

/-- The sums down the columns of each matrix of a stack. -/
theorem colSum_read {m a b : ℕ} (X : FVec Ideal ⟨3, ![m, a, b]⟩ φ) (acc : BitVec φ.bits)
    (h : (⟨3, ![m, a, b]⟩ : Shape).Reduces [1] ⟨2, ![m, b]⟩) (hφ : FKind.Formats φ) (hacc : acc = FKind.add.neutral φ hφ)
    (g : Fin m) (j : Fin b) :
    multiReduction .add [1] ⟨2, ![m, b]⟩ X acc h hφ hacc (ix2 g j) = ∑ s : Fin a, X (ix3 g s j) := by
  rw [Ideal.multiReduction_add_single]
  exact Finset.sum_congr rfl fun s _ => congrArg X (lift_mid h g j s)

/-! ### A vector of row values spread over the columns -/

/-- A vector cast to a one-column matrix and broadcast over b columns reads, at (i, j), the vector at i. -/
theorem colBcast_read {α : Type} {a b : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b]⟩) (i : Fin a) (j : Fin b) :
    broadcastTo ⟨2, ![a, b]⟩ (shapeCast ⟨2, ![a, 1]⟩ v hc) hb (ix2 i j) = v (ix1 i) := by
  rw [broadcastTo_apply _ hb (ix2 i j) (ix2 i (0 : Fin 1)) (fun ax => by
    match ax with
    | ⟨0, _⟩ =>
      show i.val = if a = 1 then 0 else i.val
      split
      · have := i.isLt; omega
      · rfl
    | ⟨1, _⟩ => rfl)]
  exact shapeCast_apply v hc _ _ (by
    rw [Shape.rowMajor_val_one, Shape.rowMajor_val_two]
    show i.val = i.val * 1 + 0
    omega)

/-! ### Casts and broadcasts of a stack of matrices -/

section Layout
variable {α : Type}

/-- A vector of m values cast to m × 1 and then to m × 1 × 1 reads, at (g, ·, ·), the vector at g. -/
theorem cast_m_m11_read {m : ℕ} (v : (⟨1, ![m]⟩ : Shape).Idx → α)
    (h1 : (⟨1, ![m]⟩ : Shape).ShapeCasts ⟨2, ![m, 1]⟩) (h2 : (⟨2, ![m, 1]⟩ : Shape).ShapeCasts ⟨3, ![m, 1, 1]⟩)
    (g : Fin m) (u u' : Fin 1) :
    shapeCast ⟨3, ![m, 1, 1]⟩ (shapeCast ⟨2, ![m, 1]⟩ v h1) h2 (ix3 g u u') = v (ix1 g) := by
  have hu : u.val = 0 := by omega
  have hu' : u'.val = 0 := by omega
  rw [shapeCast_apply _ h2 (ix3 g u u') (ix2 g (0 : Fin 1)) (by
    rw [Shape.rowMajor_val_two, Shape.rowMajor_val_three]
    show g.val * 1 + 0 = (g.val * 1 + u.val) * 1 + u'.val
    omega)]
  exact shapeCast_apply v h1 _ _ (by
    rw [Shape.rowMajor_val_one, Shape.rowMajor_val_two]
    show g.val = g.val * 1 + 0
    omega)

/-- An m × 1 × 1 stack of scalars broadcast to m × a × b reads, at (g, i, j), the scalar of g. -/
theorem bcast_m11_read {m a b : ℕ} (x : (⟨3, ![m, 1, 1]⟩ : Shape).Idx → α)
    (h : (⟨3, ![m, 1, 1]⟩ : Shape).Broadcasts ⟨3, ![m, a, b]⟩) (g : Fin m) (i : Fin a) (j : Fin b) :
    broadcastTo ⟨3, ![m, a, b]⟩ x h (ix3 g i j) = x (ix3 g (0 : Fin 1) (0 : Fin 1)) := by
  refine broadcastTo_apply x h (ix3 g i j) (ix3 g (0 : Fin 1) (0 : Fin 1)) fun ax => ?_
  match ax with
  | ⟨0, _⟩ =>
    show g.val = if m = 1 then 0 else g.val
    split
    · have := g.isLt; omega
    · rfl
  | ⟨1, _⟩ => rfl
  | ⟨2, _⟩ => rfl

/-- One matrix broadcast to a stack of m reads, at (g, i, j), the matrix at (i, j). -/
theorem bcast_1ab_read {m a b : ℕ} (x : (⟨3, ![1, a, b]⟩ : Shape).Idx → α)
    (h : (⟨3, ![1, a, b]⟩ : Shape).Broadcasts ⟨3, ![m, a, b]⟩) (g : Fin m) (i : Fin a) (j : Fin b) :
    broadcastTo ⟨3, ![m, a, b]⟩ x h (ix3 g i j) = x (ix3 (0 : Fin 1) i j) := by
  refine broadcastTo_apply x h (ix3 g i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-- Matrix g of a stack, sliced out as a stack of one and cast to a matrix, reads the stack at (g, i, j). -/
theorem sliceMat_read {m a b : ℕ} (o : ℕ) (x : (⟨3, ![m, a, b]⟩ : Shape).Idx → α)
    (hs : (⟨3, ![m, a, b]⟩ : Shape).Slices ![o, 0, 0] ⟨3, ![1, a, b]⟩)
    (hc : (⟨3, ![1, a, b]⟩ : Shape).ShapeCasts ⟨2, ![a, b]⟩) (g : Fin m) (hg : g.val = o) (i : Fin a) (j : Fin b) :
    shapeCast ⟨2, ![a, b]⟩ (extractStridedSlice ⟨3, ![1, a, b]⟩ ![o, 0, 0] x hs) hc (ix2 i j) = x (ix3 g i j) := by
  rw [shapeCast_1ab_ab_apply]
  refine extractStridedSlice_apply _ x hs _ (ix3 g i j) fun ax => ?_
  match ax with
  | ⟨0, _⟩ => show g.val = o + 0; omega
  | ⟨1, _⟩ => show i.val = 0 + i.val; omega
  | ⟨2, _⟩ => show j.val = 0 + j.val; omega

/-- Columns o … o + w' − 1 of a matrix, sliced out, read the matrix at (i, o + d). -/
theorem sliceCols_read {n w w' : ℕ} (o : ℕ) (x : (⟨2, ![n, w]⟩ : Shape).Idx → α)
    (h : (⟨2, ![n, w]⟩ : Shape).Slices ![0, o] ⟨2, ![n, w']⟩) (i : Fin n) (d : Fin w') (c : Fin w) (hc : c.val = o + d.val) :
    extractStridedSlice ⟨2, ![n, w']⟩ ![0, o] x h (ix2 i d) = x (ix2 i c) := by
  refine extractStridedSlice_apply _ x h _ (ix2 i c) fun ax => ?_
  match ax with
  | ⟨0, _⟩ => show i.val = 0 + i.val; omega
  | ⟨1, _⟩ => exact hc

/-- Two matrices set side by side: a column of the first. -/
theorem concatCols_left {n w1 w2 w : ℕ} (x1 : (⟨2, ![n, w1]⟩ : Shape).Idx → α) (x2 : (⟨2, ![n, w2]⟩ : Shape).Idx → α)
    (h : Shape.Concatenates [⟨2, ![n, w1]⟩, ⟨2, ![n, w2]⟩] ⟨2, ![n, w]⟩ 1) (i : Fin n) (d : Fin w1) (c : Fin w) (hc : c.val = d.val) :
    concatenate ⟨2, ![n, w]⟩ 1 [⟨⟨2, ![n, w1]⟩, x1⟩, ⟨⟨2, ![n, w2]⟩, x2⟩] h (ix2 i c) = x1 (ix2 i d) := by
  refine concatenate_pair_apply_left 1 x1 x2 h (ix2 i c) rfl (ix2 i d) fun ax => ?_
  match ax with
  | ⟨0, _⟩ => rfl
  | ⟨1, _⟩ => exact hc.symm

/-- Two matrices set side by side: a column of the second. -/
theorem concatCols_right {n w1 w2 w : ℕ} (x1 : (⟨2, ![n, w1]⟩ : Shape).Idx → α) (x2 : (⟨2, ![n, w2]⟩ : Shape).Idx → α)
    (h : Shape.Concatenates [⟨2, ![n, w1]⟩, ⟨2, ![n, w2]⟩] ⟨2, ![n, w]⟩ 1) (i : Fin n) (d : Fin w2) (c : Fin w) (hc : c.val = d.val + w1) :
    concatenate ⟨2, ![n, w]⟩ 1 [⟨⟨2, ![n, w1]⟩, x1⟩, ⟨⟨2, ![n, w2]⟩, x2⟩] h (ix2 i c) = x2 (ix2 i d) := by
  refine concatenate_pair_apply_right 1 x1 x2 h (ix2 i c) rfl rfl (ix2 i d) (fun ax hne => ?_) hc.symm
  match ax with
  | ⟨0, _⟩ => rfl
  | ⟨1, _⟩ => exact absurd rfl hne

/-- Two matrices stacked: the first. -/
theorem stack2_fst {a b : ℕ} (x1 x2 : (⟨3, ![1, a, b]⟩ : Shape).Idx → α)
    (h : Shape.Concatenates [⟨3, ![1, a, b]⟩, ⟨3, ![1, a, b]⟩] ⟨3, ![2, a, b]⟩ 0) (i : Fin a) (j : Fin b) :
    concatenate ⟨3, ![2, a, b]⟩ 0 [⟨⟨3, ![1, a, b]⟩, x1⟩, ⟨⟨3, ![1, a, b]⟩, x2⟩] h (ix3 (0 : Fin 2) i j) = x1 (ix3 (0 : Fin 1) i j) := by
  refine concatenate_pair_apply_left 0 x1 x2 h (ix3 (0 : Fin 2) i j) rfl (ix3 (0 : Fin 1) i j) fun ax => ?_
  match ax with
  | ⟨0, _⟩ => rfl
  | ⟨1, _⟩ => rfl
  | ⟨2, _⟩ => rfl

/-- Two matrices stacked: the second. -/
theorem stack2_snd {a b : ℕ} (x1 x2 : (⟨3, ![1, a, b]⟩ : Shape).Idx → α)
    (h : Shape.Concatenates [⟨3, ![1, a, b]⟩, ⟨3, ![1, a, b]⟩] ⟨3, ![2, a, b]⟩ 0) (i : Fin a) (j : Fin b) :
    concatenate ⟨3, ![2, a, b]⟩ 0 [⟨⟨3, ![1, a, b]⟩, x1⟩, ⟨⟨3, ![1, a, b]⟩, x2⟩] h (ix3 (1 : Fin 2) i j) = x2 (ix3 (0 : Fin 1) i j) := by
  refine concatenate_pair_apply_right 0 x1 x2 h (ix3 (1 : Fin 2) i j) rfl rfl (ix3 (0 : Fin 1) i j) (fun ax hne => ?_) rfl
  match ax with
  | ⟨0, _⟩ => exact absurd rfl hne
  | ⟨1, _⟩ => rfl
  | ⟨2, _⟩ => rfl

end Layout

/-! ### The identity mask -/

/-- Comparing the row and column counters of an n × n array for equality gives the bit 1 on the diagonal and 0 off it
    (the counters are below 2³²). -/
theorem iotaEq_read {n : ℕ} (hn : n ≤ 4294967296) (κ : Kind) (h0 : (⟨2, ![n, n]⟩ : Shape).Iotas κ 32 [0])
    (h1 : (⟨2, ![n, n]⟩ : Shape).Iotas κ 32 [1]) (i j : Fin n) :
    cmpi .eq (iota κ ⟨2, ![n, n]⟩ 32 [0] h0) (iota κ ⟨2, ![n, n]⟩ 32 [1] h1) (ix2 i j) = if i = j then 1#1 else 0#1 := by
  show IntOp.cmpi .eq (iota κ ⟨2, ![n, n]⟩ 32 [0] h0 (ix2 i j)) (iota κ ⟨2, ![n, n]⟩ 32 [1] h1 (ix2 i j)) = _
  rw [iota_single_apply, iota_single_apply]
  show BitVec.ofBool (BitVec.ofNat 32 i.val == BitVec.ofNat 32 j.val) = _
  have hi := i.isLt; have hj := j.isLt
  by_cases hij : i = j
  · subst hij; simp
  · rw [if_neg hij]
    have hne : (BitVec.ofNat 32 i.val == BitVec.ofNat 32 j.val) = false := by
      rw [beq_eq_false_iff_ne]
      intro he
      have := congrArg BitVec.toNat he
      simp only [BitVec.toNat_ofNat] at this
      rw [Nat.mod_eq_of_lt (by omega), Nat.mod_eq_of_lt (by omega)] at this
      exact hij (Fin.ext this)
    rw [hne]; rfl

end Cert.Lib.MatRead

end
-- ==== Proof.LibHostMatRead.lean ====
/- Host operations of the ideal float instance read at an entry of a matrix, for any extents: a scalar
   splat, a vector spread over the rows or over the columns through a one-row or one-column matrix by two
   broadcasts, and the one-axis reductions along the rows — the maximum (any commutative, associative
   operation) as a fold from the initial value, the sum as the initial value plus the row's sum. -/
import Idealize.ShloMosaic.PureOps.Ideal
import Idealize.ShloMosaic.PureOps.Ideal.Laws
import Idealize.ShloMosaic.Lib.ValueIdx
import Idealize.ShloMosaic.Lib.Pipeline.Value
import proofs.«165368_j14456859918944_2_alg».proof.Proof.LibMatRead

noncomputable section

namespace Cert.Lib.HostMatRead

open Idealize.ShloMosaic Idealize.ShloMosaic.ValueIdx
open scoped BigOperators

variable {α : Type}

/-- A scalar splat reads the scalar everywhere. -/
theorem splat_read {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply ![] h x j ix0 (fun ax => ax.elim0)

/-- A vector made a one-row matrix and repeated down a rows reads, at (i, j), the vector at j. -/
theorem rowBcast_read {a b : ℕ} (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (i : Fin a) (j : Fin b) :
    broadcastInDim ⟨2, ![a, b]⟩ ![0, 1] h2 (broadcastInDim ⟨2, ![1, b]⟩ ![1] h1 v) (ix2 i j) = v (ix1 j) := by
  refine (broadcastInDim_apply ![0, 1] h2 _ (ix2 i j) (ix2 (0 : Fin 1) j) (fun ax => ?_)).trans
    (broadcastInDim_apply ![1] h1 v (ix2 (0 : Fin 1) j) (ix1 j) (fun ax => ?_))
  · match ax with
    | ⟨0, _⟩ => rfl
    | ⟨1, _⟩ =>
      show j.val = if b = 1 then 0 else j.val
      split
      · have := j.isLt; omega
      · rfl
  · match ax with
    | ⟨0, _⟩ =>
      show j.val = if b = 1 then 0 else j.val
      split
      · have := j.isLt; omega
      · rfl

/-- A vector made a one-column matrix and repeated over b columns reads, at (i, j), the vector at i. -/
theorem colBcast_read {a b : ℕ} (v : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (i : Fin a) (j : Fin b) :
    broadcastInDim ⟨2, ![a, b]⟩ ![0, 1] h2 (broadcastInDim ⟨2, ![a, 1]⟩ ![0] h1 v) (ix2 i j) = v (ix1 i) := by
  refine (broadcastInDim_apply ![0, 1] h2 _ (ix2 i j) (ix2 i (0 : Fin 1)) (fun ax => ?_)).trans
    (broadcastInDim_apply ![0] h1 v (ix2 i (0 : Fin 1)) (ix1 i) (fun ax => ?_))
  · match ax with
    | ⟨0, _⟩ =>
      show i.val = if a = 1 then 0 else i.val
      split
      · have := i.isLt; omega
      · rfl
    | ⟨1, _⟩ => rfl
  · match ax with
    | ⟨0, _⟩ =>
      show i.val = if a = 1 then 0 else i.val
      split
      · have := i.isLt; omega
      · rfl

/-- A vector made a one-column matrix reads, at (i, 0), the vector at i. -/
theorem col_read {a : ℕ} (v : (⟨1, ![a]⟩ : Shape).Idx → α)
    (h1 : (⟨1, ![a]⟩ : Shape).BroadcastsInDim ⟨2, ![a, 1]⟩ (![0] : Fin 1 → Fin 2)) (i : Fin a) (u : Fin 1) :
    broadcastInDim ⟨2, ![a, 1]⟩ ![0] h1 v (ix2 i u) = v (ix1 i) := by
  refine broadcastInDim_apply ![0] h1 v (ix2 i u) (ix1 i) (fun ax => ?_)
  match ax with
  | ⟨0, _⟩ =>
    show i.val = if a = 1 then 0 else i.val
    split
    · have := i.isLt; omega
    · rfl

/-- A one-column matrix repeated over b columns reads, at (i, j), the column at (i, 0). -/
theorem colRepeat_read {a b : ℕ} (x : (⟨2, ![a, 1]⟩ : Shape).Idx → α)
    (h2 : (⟨2, ![a, 1]⟩ : Shape).BroadcastsInDim ⟨2, ![a, b]⟩ (![0, 1] : Fin 2 → Fin 2)) (i : Fin a) (j : Fin b) :
    broadcastInDim ⟨2, ![a, b]⟩ ![0, 1] h2 x (ix2 i j) = x (ix2 i (0 : Fin 1)) := by
  refine broadcastInDim_apply ![0, 1] h2 x (ix2 i j) (ix2 i (0 : Fin 1)) (fun ax => ?_)
  match ax with
  | ⟨0, _⟩ =>
    show i.val = if a = 1 then 0 else i.val
    split
    · have := i.isLt; omega
    · rfl
  | ⟨1, _⟩ => rfl

/-- The host's reduction of each row by a commutative, associative operation: the fold over the row from the
    initial value. -/
theorem rowFold_read {a b : ℕ} (f : α → α → α) [Std.Commutative f] [Std.Associative f]
    (X : (⟨2, ![a, b]⟩ : Shape).Idx → α) (init : (⟨0, ![]⟩ : Shape).Idx → α)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (i : Fin a) :
    Host.reduce f X init h' hu (ix1 i) = (Finset.univ : Finset (Fin b)).fold f (init ix0) (fun t => X (ix2 i t)) := by
  rw [Host.reduce_eq_fold_single f X init h' h hu (ix1 i)]
  congr 1
  · exact congrArg init (eq_ix0 _)
  · funext t
    exact congrArg X (Cert.Lib.MatRead.lift_row h i t)

/-- The host's sum of each row: the initial value plus the row's sum. -/
theorem rowSum_read {a b : ℕ} {φ : FTy} (X : FVec Ideal ⟨2, ![a, b]⟩ φ) (init : (⟨0, ![]⟩ : Shape).Idx → Ideal φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (i : Fin a) :
    Host.reduceAdd (F := Ideal) X init h' hu (ix1 i) = init ix0 + ∑ t : Fin b, X (ix2 i t) := by
  show Ideal.hostReduceAdd h' X (init (Shape.Idx.first hu)) (ix1 i) = _
  rw [Ideal.hostReduceAdd_single h' h, show Shape.Idx.first hu = ix0 from eq_ix0 _]
  exact congrArg (init ix0 + ·) (Finset.sum_congr rfl fun t _ => congrArg X (Cert.Lib.MatRead.lift_row h i t))

end Cert.Lib.HostMatRead

end
-- ==== Proof.KHost.lean ====
/- The host operations between the kernel launches, as functions of arrays at the ideal instance, read at an entry:
   a weight matrix's mean, its mean absolute value bounded below, its sign matrix transposed; the activation scale from an
   array of partial maxima; and the two one-entry scale arrays 127 / g and β · g / 127. -/
import proofs.«165368_j14456859918944_2_alg».proof.Proof.Gen.KernelIdeal
import proofs.«165368_j14456859918944_2_alg».proof.Proof.KSpec
import proofs.«165368_j14456859918944_2_alg».proof.Proof.LibHostMatRead
import Idealize.ShloMosaic.Lib.Pipeline.Value
import Idealize.ShloMosaic.PureOps.Reduce

noncomputable section

namespace Cert.Bridge.Host

open Idealize.ShloMosaic Idealize.ShloMosaic.ValueIdx Cert.KernelIdeal Cert.KernelIdeal.Gen Cert.Spec Cert.Bridge.KSpec
open scoped BigOperators

/-- A weight matrix. -/
abbrev WM : Type := FVec Ideal S256x256 .f32
/-- A scalar array. -/
abbrev SC : Type := FVec Ideal S_ .f32

theorem ofBits_zero : Ideal.ofBits .f32 0x00000000#32 = 0 := zero_eq

/-- The mean of the 65536 weights. -/
def hMean (W : WM) : SC :=
  Host.divf (Host.reduceAdd (F := Ideal) W (constant (F := Ideal) S_ .f32 0x00000000#32) reducesTo_S256x256_S_d0_1 h_S_)
    (constant (F := Ideal) S_ .f32 0x47800000#32)

theorem sumAll_read (W : WM) (i : S_.Idx) :
    Host.reduceAdd (F := Ideal) W (constant (F := Ideal) S_ .f32 0x00000000#32) reducesTo_S256x256_S_d0_1 h_S_ i
      = ∑ a : Fin 256, ∑ b : Fin 256, W (ix2 a b) := by
  simp only [Host.reduceAdd, Ideal.hostReduceAdd_def]
  refine (Ideal.hostReduceAdd_total reducesTo_S256x256_S_d0_1 (fun b => b.elim0) W _ i).trans ?_
  show Ideal.ofBits .f32 0x00000000#32 + _ = _
  rw [ofBits_zero, zero_add, sum_idx2]

theorem hMean_read (W : WM) (i : S_.Idx) : hMean W i = wmean (cur W) := by
  unfold hMean
  show Ideal.div (Host.reduceAdd (F := Ideal) W (constant (F := Ideal) S_ .f32 0x00000000#32) reducesTo_S256x256_S_d0_1 h_S_ i)
    (Ideal.ofBits .f32 0x47800000#32) = _
  rw [sumAll_read]
  rfl

/-- The mean absolute weight, bounded below by the tiny constant. -/
def hBeta (W : WM) : SC :=
  maximumf
    (Host.divf (Host.reduceAdd (F := Ideal) (Host.absf W) (constant (F := Ideal) S_ .f32 0x00000000#32) reducesTo_S256x256_S_d0_1 h_S_)
      (constant (F := Ideal) S_ .f32 0x47800000#32))
    (constant (F := Ideal) S_ .f32 0x322BCC77#32)

theorem hBeta_read (W : WM) (i : S_.Idx) : hBeta W i = beta (cur W) := by
  unfold hBeta
  show max (Ideal.div (Host.reduceAdd (F := Ideal) (Host.absf W) (constant (F := Ideal) S_ .f32 0x00000000#32) reducesTo_S256x256_S_d0_1 h_S_ i)
    (Ideal.ofBits .f32 0x47800000#32)) (Ideal.ofBits .f32 0x322BCC77#32) = _
  rw [sumAll_read]
  rfl

/-- The sign matrix: 1 where a weight exceeds the mean, else −1. -/
def hSign (W : WM) : WM :=
  select
    (cmpf .ogt (subf W (broadcastInDim S256x256 ![] bcast_S_S256x256 (hMean W)))
      (broadcastInDim S256x256 ![] bcast_S_S256x256 (constant (F := Ideal) S_ .f32 0x00000000#32)))
    (broadcastInDim S256x256 ![] bcast_S_S256x256 (constant (F := Ideal) S_ .f32 0x3F800000#32))
    (broadcastInDim S256x256 ![] bcast_S_S256x256 (constant (F := Ideal) S_ .f32 0xBF800000#32))

theorem hSign_read (W : WM) (a b : Fin 256) : hSign W (ix2 a b) = wsign (cur W) a b := by
  unfold hSign
  rw [select_apply, cmpf_apply, subf_apply, Cert.Lib.HostMatRead.splat_read, Cert.Lib.HostMatRead.splat_read,
    Cert.Lib.HostMatRead.splat_read, Cert.Lib.HostMatRead.splat_read, hMean_read]
  rfl

/-- The sign matrix transposed, as the kernels take it. -/
def hWbT (W : WM) : FVec Ideal S256x256 .bf16 :=
  truncf .bf16 (transpose S256x256 [1, 0] (id (hSign W)) transposes_S256x256_S256x256_1_0) bitsLt_bf16_f32

theorem hWbT_read (W : WM) (k j : Fin 256) : hWbT W (ix2 k j) = wsign (cur W) j k := by
  unfold hWbT
  rw [truncf_apply]
  refine (transpose_apply [1, 0] (id (hSign W)) transposes_S256x256_S256x256_1_0 (ix2 k j) (ix2 j k) fun ax => ?_).trans
    (hSign_read W j k)
  match ax with
  | ⟨0, _⟩ => rfl
  | ⟨1, _⟩ => rfl

/-- The activation scale from an array of partial maxima: their maximum, bounded below by the tiny constant. -/
def hGamma (P : FVec Ideal S512x128 .f32) : SC :=
  maximumf (Host.reduce FloatOps.maximumf P (constant (F := Ideal) S_ .f32 0xFF800000#32) reducesTo_S512x128_S_d0_1 h_S_)
    (constant (F := Ideal) S_ .f32 0x322BCC77#32)

theorem hGamma_partials (X : (⟨2, ![131072, 256]⟩ : Shape).Idx → EReal) (i : S_.Idx) :
    hGamma (partials X) i = gamma (ln (cur X)) := by
  unfold hGamma
  rw [maximumf_apply, Host.reduce_eq_fold, constant_apply, constant_apply,
    show Ideal.ofBits .f32 0xFF800000#32 = (⊥ : EReal) from negInf_eq,
    Finset.filter_true_of_mem (fun j _ => funext fun a => a.elim0)]
  rw [show gamma (ln (cur X)) = max (absmax (ln (cur X))) tiny from rfl]
  refine congrArg₂ max ?_ rfl
  exact (fold_max_bot_eq_iSup _).trans (iSup_partials_eq X)

/-- The activation scale 127 / g as a one-entry array. -/
def hSq (g : SC) : FVec Ideal S1x1 .f32 :=
  shapeCast S1x1 (Host.divf (constant (F := Ideal) S_ .f32 0x42FE0000#32) g) shapeCasts_S_S1x1

theorem hSq_read (g : SC) : hSq g (ix2 (0 : Fin 1) (0 : Fin 1)) = Ideal.div c127 (g ix0) := by
  unfold hSq
  rw [shapeCast_apply _ shapeCasts_S_S1x1 (ix2 (0 : Fin 1) (0 : Fin 1)) ix0 (by rfl)]
  rfl

/-- The output scale β · g / 127 as a one-entry array. -/
def hSo (β g : SC) : FVec Ideal S1x1 .f32 :=
  shapeCast S1x1 (Host.divf (mulf β g) (constant (F := Ideal) S_ .f32 0x42FE0000#32)) shapeCasts_S_S1x1

theorem hSo_read (β g : SC) : hSo β g (ix2 (0 : Fin 1) (0 : Fin 1)) = Ideal.div (β ix0 * g ix0) c127 := by
  unfold hSo
  rw [shapeCast_apply _ shapeCasts_S_S1x1 (ix2 (0 : Fin 1) (0 : Fin 1)) ix0 (by rfl)]
  rfl

end Cert.Bridge.Host

end
-- ==== Proof.KLayer.lean ====
/- One layer as the kernel computes it, fed by the host operations between the launches, is the layer of the
   specification: the two scale arrays carry 127 / g and β · g / 127 for g the bounded largest normalised absolute
   value (found through the partial maxima) and β the bounded mean absolute weight, and the transposed sign matrix
   carries the signs of the weights' deviations from their mean. -/
import proofs.«165368_j14456859918944_2_alg».proof.Proof.KHost

noncomputable section

namespace Cert.Bridge.KLayer

open Idealize.ShloMosaic Idealize.ShloMosaic.ValueIdx Cert.KernelIdeal Cert.KernelIdeal.Gen Cert.Spec Cert.Bridge.KSpec
open Cert.Bridge.Host
open scoped BigOperators

/-- The kernel's layer entry at the host's scales and sign matrix is the specification's layer entry, with
    max(·, 0) applied when the launch applies it. -/
theorem layer_of_host (bounded : Bool) (X : (⟨2, ![131072, 256]⟩ : Shape).Idx → EReal) (W : Cert.Bridge.Host.WM)
    (p : Fin 131072) (q : Fin 256) :
    Cert.Bridge.KSpec.layerArr bounded X (hSq (hGamma (partials X))) (hWbT W) (hSo (hBeta W) (hGamma (partials X))) (ix2 p q)
      = (if bounded then Cert.Spec.relu else id) (Cert.Spec.layer (Cert.Spec.cur X) (Cert.Spec.cur W) p q) := by
  rw [layerArr_read]
  refine congrArg (if bounded then relu else id) ?_
  unfold layerEntry rowOut
  rw [hSq_read, hSo_read, hGamma_partials, hBeta_read]
  show _ = (∑ k, quant (Ideal.div c127 (gamma (ln (cur X)))) (ln (cur X) p k) * wsign (cur W) q k)
    * Ideal.div (beta (cur W) * gamma (ln (cur X))) c127
  refine congrArg (· * _) (Finset.sum_congr rfl fun k _ => ?_)
  beta_reduce
  rw [hWbT_read]
  rfl

/-- A launch that applies max(·, 0), as a matrix: max(·, 0) of the specification's layer, entry by entry. -/
theorem cur_layer_true (X : (⟨2, ![131072, 256]⟩ : Shape).Idx → EReal) (W : Cert.Bridge.Host.WM) :
    Cert.Spec.cur (Cert.Bridge.KSpec.layerArr true X (hSq (hGamma (partials X))) (hWbT W) (hSo (hBeta W) (hGamma (partials X))))
      = fun i j => Cert.Spec.relu (Cert.Spec.layer (Cert.Spec.cur X) (Cert.Spec.cur W) i j) := by
  funext i j
  exact layer_of_host true X W i j

/-- A launch that does not apply max(·, 0), as a matrix: the specification's layer. -/
theorem cur_layer_false (X : (⟨2, ![131072, 256]⟩ : Shape).Idx → EReal) (W : Cert.Bridge.Host.WM) :
    Cert.Spec.cur (Cert.Bridge.KSpec.layerArr false X (hSq (hGamma (partials X))) (hWbT W) (hSo (hBeta W) (hGamma (partials X))))
      = Cert.Spec.layer (Cert.Spec.cur X) (Cert.Spec.cur W) := by
  funext i j
  exact layer_of_host false X W i j

end Cert.Bridge.KLayer

end
-- ==== Proof.LibColRead.lean ====
/- Vector operations of the ideal float instance read at an entry, for any extents: a vector made a one-column
   matrix, a one-column matrix spread over the columns, the maximum down a one-column matrix, a one-entry vector made a
   one-entry matrix, a one-entry matrix spread over a matrix, and the entry taken out of a one-entry matrix. -/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Lib.ColRead

open Idealize.ShloMosaic Idealize.ShloMosaic.ValueIdx
open scoped BigOperators

variable {α : Type} {φ : FTy}

/-- A vector made a one-column matrix reads, at (i, ·), the vector at i. -/
theorem colCast_read {a : ℕ} (v : (⟨1, ![a]⟩ : Shape).Idx → α)
    (hc : (⟨1, ![a]⟩ : Shape).ShapeCasts ⟨2, ![a, 1]⟩) (i : Fin a) (u : Fin 1) :
    shapeCast ⟨2, ![a, 1]⟩ v hc (ix2 i u) = v (ix1 i) := by
  have hu : u.val = 0 := by omega
  exact shapeCast_apply v hc _ _ (by
    rw [Shape.rowMajor_val_one, Shape.rowMajor_val_two]
    show i.val = i.val * 1 + u.val
    omega)

/-- A one-column matrix spread over b columns reads, at (i, j), the column at (i, 0). -/
theorem colSpread_read {a b : ℕ} (x : (⟨2, ![a, 1]⟩ : Shape).Idx → α)
    (hb : (⟨2, ![a, 1]⟩ : Shape).Broadcasts ⟨2, ![a, b]⟩) (i : Fin a) (j : Fin b) :
    broadcastTo ⟨2, ![a, b]⟩ x hb (ix2 i j) = x (ix2 i (0 : Fin 1)) := by
  refine broadcastTo_apply x hb (ix2 i j) (ix2 i (0 : Fin 1)) fun ax => ?_
  match ax with
  | ⟨0, _⟩ =>
    show i.val = if a = 1 then 0 else i.val
    split
    · have := i.isLt; omega
    · rfl
  | ⟨1, _⟩ => rfl

/-- Row r of a one-column matrix put back under the single entry of its column maxima: (r, 0). -/
theorem lift_col {a : ℕ} (h : (⟨2, ![a, 1]⟩ : Shape).Reduces [0] ⟨1, ![1]⟩) (u : Fin 1) (r : Fin a) :
    h.lift (ix1 u) r = ix2 r (0 : Fin 1) := by
  have hu : u.val = 0 := by omega
  funext c; apply Fin.ext
  match c with
  | ⟨0, _⟩ => rfl
  | ⟨1, _⟩ => exact hu

/-- The maximum down a one-column matrix, folded from the accumulator's word. -/
theorem colMax_read {a : ℕ} (X : FVec Ideal ⟨2, ![a, 1]⟩ φ) (acc : BitVec φ.bits)
    (h : (⟨2, ![a, 1]⟩ : Shape).Reduces [0] ⟨1, ![1]⟩) (hφ : FKind.Formats φ) (hacc : acc = FKind.maximumf.neutral φ hφ) (u : Fin 1) :
    multiReduction .maximumf [0] ⟨1, ![1]⟩ X acc h hφ hacc (ix1 u)
      = (Finset.univ : Finset (Fin a)).fold max (Ideal.ofBits φ acc) (fun r => X (ix2 r (0 : Fin 1))) := by
  rw [Ideal.multiReduction_maximumf_single]
  congr 1
  funext r
  exact congrArg X (lift_col h u r)

/-- A one-entry vector made a one-entry matrix reads its entry. -/
theorem cast_1_11_read (v : (⟨1, ![1]⟩ : Shape).Idx → α)
    (hc : (⟨1, ![1]⟩ : Shape).ShapeCasts ⟨2, ![1, 1]⟩) (u u' : Fin 1) :
    shapeCast ⟨2, ![1, 1]⟩ v hc (ix2 u u') = v (ix1 (0 : Fin 1)) := by
  have hu : u.val = 0 := by omega
  have hu' : u'.val = 0 := by omega
  exact shapeCast_apply v hc _ _ (by
    rw [Shape.rowMajor_val_one, Shape.rowMajor_val_two]
    show (0 : ℕ) = u.val * 1 + u'.val
    omega)

/-- A one-entry matrix spread over a rows and b columns reads its entry everywhere. -/
theorem spread_11_read {a b : ℕ} (x : (⟨2, ![1, 1]⟩ : Shape).Idx → α)
    (hb : (⟨2, ![1, 1]⟩ : Shape).Broadcasts ⟨2, ![a, b]⟩) (i : Fin a) (j : Fin b) :
    broadcastTo ⟨2, ![a, b]⟩ x hb (ix2 i j) = x (ix2 (0 : Fin 1) (0 : Fin 1)) := by
  refine broadcastTo_apply x hb (ix2 i j) (ix2 (0 : Fin 1) (0 : Fin 1)) fun ax => ?_
  match ax with
  | ⟨0, _⟩ => rfl
  | ⟨1, _⟩ => rfl

end Cert.Lib.ColRead

end
-- ==== Proof.LibRowNorm.lean ====
/- Row normalisation and the largest absolute value of a matrix, as vector operations of the ideal float instance,
   read at an entry, for any extents: each row has its mean subtracted and is multiplied by the reciprocal root of its
   variance plus a constant; the absolute values are maximised along the rows, then down the column of row maxima,
   and the single result is spread over a small matrix. -/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«165368_j14456859918944_2_alg».proof.Proof.LibMatRead
import proofs.«165368_j14456859918944_2_alg».proof.Proof.LibColRead

noncomputable section

namespace Cert.Lib.RowNorm

open Idealize.ShloMosaic Idealize.ShloMosaic.ValueIdx
open scoped BigOperators

variable {a b : ℕ}
-- the format fact and the two accumulator words (zero for a sum, minus infinity for a maximum) as the reductions take them
variable (hφ : FKind.Formats FTy.f32)
  (h0 : (0x00000000#32 : BitVec FTy.f32.bits) = FKind.add.neutral FTy.f32 hφ)
  (hm : (0xFF800000#32 : BitVec FTy.f32.bits) = FKind.maximumf.neutral FTy.f32 hφ)

/-- The mean of each row as a one-column matrix: the row sums, cast to a column, divided by the spread count n. -/
def rowMeanCol (X : FVec Ideal ⟨2, ![a, b]⟩ .f32) (n : Ideal .f32)
    (hr : (⟨2, ![a, b]⟩ : Shape).Reduces [1] ⟨1, ![a]⟩) (hc : (⟨1, ![a]⟩ : Shape).ShapeCasts ⟨2, ![a, 1]⟩) :
    FVec Ideal ⟨2, ![a, 1]⟩ .f32 :=
  divf (shapeCast ⟨2, ![a, 1]⟩ (multiReduction .add [1] ⟨1, ![a]⟩ X 0x00000000#32 hr hφ h0) hc)
    (broadcast ⟨2, ![a, 1]⟩ n)

theorem rowMeanCol_read (X : FVec Ideal ⟨2, ![a, b]⟩ .f32) (n : Ideal .f32)
    (hr : (⟨2, ![a, b]⟩ : Shape).Reduces [1] ⟨1, ![a]⟩) (hc : (⟨1, ![a]⟩ : Shape).ShapeCasts ⟨2, ![a, 1]⟩)
    (i : Fin a) (u : Fin 1) :
    rowMeanCol hφ h0 X n hr hc (ix2 i u) = Ideal.div (∑ t : Fin b, X (ix2 i t)) n := by
  unfold rowMeanCol
  rw [divf_apply, Cert.Lib.ColRead.colCast_read]
  exact congrArg (fun z => Ideal.div z n) (Cert.Lib.MatRead.rowSum_read X 0x00000000#32 hr hφ h0 i)

/-- A matrix with each row's mean subtracted. -/
def centred (X : FVec Ideal ⟨2, ![a, b]⟩ .f32) (n : Ideal .f32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) : FVec Ideal ⟨2, ![a, b]⟩ .f32 :=
  subf X (broadcastTo ⟨2, ![a, b]⟩ (rowMeanCol hφ h0 X n hr hc) hb)

theorem centred_read (X : FVec Ideal ⟨2, ![a, b]⟩ .f32) (n : Ideal .f32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) (i : Fin a) (j : Fin b) :
    centred hφ h0 X n hr hc hb (ix2 i j) = X (ix2 i j) - Ideal.div (∑ t : Fin b, X (ix2 i t)) n := by
  unfold centred
  rw [subf_apply, Cert.Lib.ColRead.colSpread_read, rowMeanCol_read]

/-- The normalised matrix: the centred matrix times the spread reciprocal root of (the mean square of the centred row plus ε). -/
def normed (X : FVec Ideal ⟨2, ![a, b]⟩ .f32) (n ε : Ideal .f32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) : FVec Ideal ⟨2, ![a, b]⟩ .f32 :=
  mulf (centred hφ h0 X n hr hc hb)
    (broadcastTo ⟨2, ![a, b]⟩
      (rsqrt (addf (rowMeanCol hφ h0 (mulf (centred hφ h0 X n hr hc hb) (centred hφ h0 X n hr hc hb)) n hr hc) (broadcast ⟨2, ![a, 1]⟩ ε))) hb)

theorem normed_read (X : FVec Ideal ⟨2, ![a, b]⟩ .f32) (n ε : Ideal .f32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) (i : Fin a) (j : Fin b) :
    normed hφ h0 X n ε hr hc hb (ix2 i j)
      = (X (ix2 i j) - Ideal.div (∑ t : Fin b, X (ix2 i t)) n)
        * Ideal.rsqrt (Ideal.div (∑ s : Fin b, (X (ix2 i s) - Ideal.div (∑ t : Fin b, X (ix2 i t)) n)
            * (X (ix2 i s) - Ideal.div (∑ t : Fin b, X (ix2 i t)) n)) n + ε) := by
  unfold normed
  rw [mulf_apply, centred_read, Cert.Lib.ColRead.colSpread_read]
  congr 1
  show Ideal.rsqrt (rowMeanCol hφ h0 (mulf (centred hφ h0 X n hr hc hb) (centred hφ h0 X n hr hc hb)) n hr hc (ix2 i (0 : Fin 1)) + ε) = _
  rw [rowMeanCol_read]
  refine congrArg (fun z => Ideal.rsqrt (Ideal.div z n + ε)) (Finset.sum_congr rfl fun s _ => ?_)
  rw [mulf_apply, centred_read]

/-- The largest absolute value of a matrix, spread over a p × q matrix: absolute values, the maximum along each row, cast to a
    column, the maximum down the column, cast to a one-entry matrix (twice), spread. -/
def absMaxSpread {p q : ℕ} (Z : FVec Ideal ⟨2, ![a, b]⟩ .f32)
    (hr : (⟨2, ![a, b]⟩ : Shape).Reduces [1] ⟨1, ![a]⟩) (hc : (⟨1, ![a]⟩ : Shape).ShapeCasts ⟨2, ![a, 1]⟩)
    (hr0 : (⟨2, ![a, 1]⟩ : Shape).Reduces [0] ⟨1, ![1]⟩) (hc1 : (⟨1, ![1]⟩ : Shape).ShapeCasts ⟨2, ![1, 1]⟩)
    (hc11 : (⟨2, ![1, 1]⟩ : Shape).ShapeCasts ⟨2, ![1, 1]⟩) (hs : (⟨2, ![1, 1]⟩ : Shape).Broadcasts ⟨2, ![p, q]⟩) :
    FVec Ideal ⟨2, ![p, q]⟩ .f32 :=
  broadcastTo ⟨2, ![p, q]⟩
    (shapeCast ⟨2, ![1, 1]⟩
      (shapeCast ⟨2, ![1, 1]⟩
        (multiReduction .maximumf [0] ⟨1, ![1]⟩
          (shapeCast ⟨2, ![a, 1]⟩ (multiReduction .maximumf [1] ⟨1, ![a]⟩ (absf Z) 0xFF800000#32 hr hφ hm) hc)
          0xFF800000#32 hr0 hφ hm) hc1) hc11) hs

theorem absMaxSpread_read {p q : ℕ} (Z : FVec Ideal ⟨2, ![a, b]⟩ .f32)
    (hr : (⟨2, ![a, b]⟩ : Shape).Reduces [1] ⟨1, ![a]⟩) (hc : (⟨1, ![a]⟩ : Shape).ShapeCasts ⟨2, ![a, 1]⟩)
    (hr0 : (⟨2, ![a, 1]⟩ : Shape).Reduces [0] ⟨1, ![1]⟩) (hc1 : (⟨1, ![1]⟩ : Shape).ShapeCasts ⟨2, ![1, 1]⟩)
    (hc11 : (⟨2, ![1, 1]⟩ : Shape).ShapeCasts ⟨2, ![1, 1]⟩) (hs : (⟨2, ![1, 1]⟩ : Shape).Broadcasts ⟨2, ![p, q]⟩)
    (i : Fin p) (j : Fin q) :
    absMaxSpread hφ hm Z hr hc hr0 hc1 hc11 hs (ix2 i j)
      = (Finset.univ : Finset (Fin a)).fold max (Ideal.ofBits .f32 0xFF800000#32) (fun r =>
          (Finset.univ : Finset (Fin b)).fold max (Ideal.ofBits .f32 0xFF800000#32) (fun t => max (Z (ix2 r t)) (-(Z (ix2 r t))))) := by
  unfold absMaxSpread
  rw [Cert.Lib.ColRead.spread_11_read, shapeCast_self, Cert.Lib.ColRead.cast_1_11_read, Cert.Lib.ColRead.colMax_read]
  congr 1
  funext r
  rw [Cert.Lib.ColRead.colCast_read, Cert.Lib.MatRead.rowMax_read]
  rfl

end Cert.Lib.RowNorm

end
-- ==== Proof.LibMatProd.lean ====
/- Matrix products of the ideal float instance read at an entry, for any extents: a rows-by-columns product
   (contracting the left operand's columns with the right operand's rows) accumulated into the zero matrix, and
   the host's product of the same pattern, are both, at (p, q), the sum over t of left (p, t) · right (t, q). -/
import Idealize.ShloMosaic.PureOps.Ideal
import Idealize.ShloMosaic.PureOps.Ideal.Laws
import Idealize.ShloMosaic.Lib.ValueIdx

noncomputable section

namespace Cert.Lib.MatProd

open Idealize.ShloMosaic Idealize.ShloMosaic.ValueIdx
open scoped BigOperators

variable {M K N : ℕ} {φ₁ φ₂ : FTy}

/-- The left operand's index at result entry j and contraction coordinate t: row j₀, column t. -/
theorem plain_lhs (j : (⟨2, ![M, N]⟩ : Shape).Idx) (t : Fin K) :
    (DotDims.plain M K N).lhsIdx j ((contrEquiv1 (DotDims.plain M K N) K rfl rfl).symm t) = ix2 (j 0) t := by
  funext a; apply Fin.ext
  match a with
  | ⟨0, _⟩ => rfl
  | ⟨1, _⟩ =>
    exact ((DotDims.plain M K N).lhsIdx_val_of_single rfl j _).trans
      (contrEquiv1_symm_val (DotDims.plain M K N) K rfl rfl t)

/-- The right operand's index at result entry j and contraction coordinate t: row t, column j₁. -/
theorem plain_rhs (j : (⟨2, ![M, N]⟩ : Shape).Idx) (t : Fin K) :
    (DotDims.plain M K N).rhsIdx j ((contrEquiv1 (DotDims.plain M K N) K rfl rfl).symm t) = ix2 t (j 1) := by
  funext a; apply Fin.ext
  match a with
  | ⟨0, _⟩ =>
    exact ((DotDims.plain M K N).rhsIdx_val_of_single rfl j _).trans
      (contrEquiv1_symm_val (DotDims.plain M K N) K rfl rfl t)
  | ⟨1, _⟩ => rfl

/-- A product accumulated into the zero matrix, read at (p, q). -/
theorem matmul_zero_read (prec : Option ContractPrecision) (l : FVec Ideal ⟨2, ![M, K]⟩ φ₁) (r : FVec Ideal ⟨2, ![K, N]⟩ φ₂)
    (p : Fin M) (q : Fin N) :
    FloatOps.matmul (DotDims.plain M K N) prec l r (constant (F := Ideal) ⟨2, ![M, N]⟩ .f32 0x00000000#32) (ix2 p q)
      = ∑ t : Fin K, l (ix2 p t) * r (ix2 t q) := by
  refine (Ideal.matmul_constant_zero_apply (DotDims.plain M K N) prec l r (ix2 p q)).trans ?_
  rw [← Equiv.sum_comp (contrEquiv1 (DotDims.plain M K N) K rfl rfl).symm]
  exact Finset.sum_congr rfl fun t _ => by rw [plain_lhs, plain_rhs]; rfl

/-- The host's product, read at (p, q). -/
theorem dotGeneral_read (prec : Option ContractPrecision) (sched : HostSchedule) (l : FVec Ideal ⟨2, ![M, K]⟩ φ₁)
    (r : FVec Ideal ⟨2, ![K, N]⟩ φ₂) (p : Fin M) (q : Fin N) :
    FloatOps.dotGeneral (DotDims.plain M K N) prec sched l r (ix2 p q) = ∑ t : Fin K, l (ix2 p t) * r (ix2 t q) := by
  refine (Ideal.dotGeneral_apply (DotDims.plain M K N) prec sched l r (ix2 p q)).trans ?_
  rw [← Equiv.sum_comp (contrEquiv1 (DotDims.plain M K N) K rfl rfl).symm]
  exact Finset.sum_congr rfl fun t _ => by rw [plain_lhs, plain_rhs]; rfl

end Cert.Lib.MatProd

end
-- ==== Proof.KBody.lean ====
/- What each kernel body computes from its loaded blocks, entry by entry, at the ideal instance.
   A 2048 × 256 block x gives: the largest absolute value of its row-normalised entries, spread over an 8 × 128 block;
   and, with a one-entry scale sq, a 256 × 256 matrix w and a one-entry scale so, the matrix whose entry (r, j) is
   (the sum over k of round(clip(normalised x (r, k) · sq)) · w (k, j)) · so, bounded below by 0 in the first two layers. -/
import proofs.«165368_j14456859918944_2_alg».proof.Proof.Gen.KernelIdeal.Skeleton
import proofs.«165368_j14456859918944_2_alg».proof.Proof.KSpec
import proofs.«165368_j14456859918944_2_alg».proof.Proof.LibRowNorm
import proofs.«165368_j14456859918944_2_alg».proof.Proof.LibMatProd

noncomputable section

namespace Cert.Bridge.Body

open Idealize.ShloMosaic Idealize.ShloMosaic.ValueIdx
open Cert.KernelIdeal Cert.KernelIdeal.Gen Cert.Lib.RowNorm Cert.Bridge.KSpec
open scoped BigOperators

/-- The block normalised row by row, as the bodies spell it. -/
abbrev nrm (x : FVec Ideal S2048x256 .f32) : FVec Ideal S2048x256 .f32 :=
  normed (.inl rfl) rfl x (Ideal.ofBits .f32 0x43800000#32) (Ideal.ofBits .f32 0x3727C5AC#32)
    reduces_S2048x256_S2048 shapeCasts_S2048_S2048x1 broadcasts_S2048x1_S2048x256

/-- An entry of the normalised block is the specification's normalised row. -/
theorem nrm_read (x : FVec Ideal S2048x256 .f32) (r : Fin 2048) (k : Fin 256) :
    nrm x (ix2 r k) = Cert.Spec.lnRow (fun s => x (ix2 r s)) k :=
  (normed_read _ _ x _ _ _ _ _ r k).trans rfl

/-- The largest absolute value of the normalised block, spread over 8 × 128. -/
abbrev tileMax (x : FVec Ideal S2048x256 .f32) : FVec Ideal S8x128 .f32 :=
  absMaxSpread (.inl rfl) rfl (nrm x) reduces_S2048x256_S2048 shapeCasts_S2048_S2048x1 reduces_S2048x1_S1 shapeCasts_S1_S1x1
    shapeCasts_S1x1_S1x1 broadcasts_S1x1_S8x128

/-- Every entry of the spread is the fold of max over the block's rows and columns of the normalised absolute values. -/
theorem tileMax_read (x : FVec Ideal S2048x256 .f32) (a : Fin 8) (b : Fin 128) :
    tileMax x (ix2 a b)
      = (Finset.univ : Finset (Fin 2048)).fold max (Ideal.ofBits .f32 0xFF800000#32) (fun r =>
          (Finset.univ : Finset (Fin 256)).fold max (Ideal.ofBits .f32 0xFF800000#32) (fun t =>
            Cert.Spec.abs' (Cert.Spec.lnRow (fun s => x (ix2 r s)) t))) := by
  refine (absMaxSpread_read _ _ (nrm x) _ _ _ _ _ _ a b).trans ?_
  congr 1
  funext r
  congr 1
  funext t
  rw [nrm_read]
  rfl

/-- The three partial-maximum payloads are that spread. -/
theorem pay0_eq (x : FVec Ideal S2048x256 .f32) : k0_pay1 (F := Ideal) x = tileMax x := rfl
theorem pay1_partial_eq (x : FVec Ideal S2048x256 .f32) : k1_pay1 (F := Ideal) x = tileMax x := rfl
theorem pay2_partial_eq (x : FVec Ideal S2048x256 .f32) : k2_pay1 (F := Ideal) x = tileMax x := rfl

/-- The single entry of a one-entry matrix, as the bodies take it out. -/
theorem extract_11 (s : FVec Ideal S1x1 .f32) : extractAt ![0, 0] s inpos_S1x1_p0_0 = s (ix2 (0 : Fin 1) (0 : Fin 1)) := by
  unfold extractAt
  congr 1
  funext a
  apply Fin.ext
  match a with
  | ⟨0, _⟩ => rfl
  | ⟨1, _⟩ => rfl

/-- The scaled, clipped, rounded block times the weight matrix, times the output scale, before the lower bound. -/
abbrev lin (x : FVec Ideal S2048x256 .f32) (sq : FVec Ideal S1x1 .f32) (w : FVec Ideal S256x256 .bf16) (so : FVec Ideal S1x1 .f32) :
    FVec Ideal S2048x256 .f32 :=
  mulf
    (matmul dot_S2048x256_S256x256_S2048x256_1_0_0_1_n_n none
      (truncf .bf16
        (roundeven
          (minimumf (broadcast S2048x256 (Scalar.ofBits (F := Ideal) .f32 0x42FE0000#32))
            (maximumf (broadcast S2048x256 (Scalar.ofBits (F := Ideal) .f32 0xC2FE0000#32))
              (mulf (nrm x) (broadcast S2048x256 (extractAt ![0, 0] sq inpos_S1x1_p0_0))))))
        bitsLt_bf16_f32)
      (shapeCast S256x256 w shapeCasts_S256x256_S256x256) (constant S2048x256 .f32 0x00000000#32))
    (broadcast S2048x256 (extractAt ![0, 0] so inpos_S1x1_p0_0))

theorem lin_read (x : FVec Ideal S2048x256 .f32) (sq : FVec Ideal S1x1 .f32) (w : FVec Ideal S256x256 .bf16) (so : FVec Ideal S1x1 .f32)
    (r : Fin 2048) (j : Fin 256) :
    lin x sq w so (ix2 r j)
      = (∑ k : Fin 256, Cert.Spec.quant (sq (ix2 (0 : Fin 1) (0 : Fin 1))) (Cert.Spec.lnRow (fun s => x (ix2 r s)) k) * w (ix2 k j))
        * so (ix2 (0 : Fin 1) (0 : Fin 1)) := by
  unfold lin
  rw [mulf_apply, broadcast_apply, shapeCast_self]
  refine congrArg₂ (· * ·) ?_ (extract_11 so)
  rw [extract_11]
  refine (Cert.Lib.MatProd.matmul_zero_read (M := 2048) (K := 256) (N := 256) none _ w r j).trans ?_
  refine Finset.sum_congr rfl fun k _ => ?_
  congr 1
  show Ideal.liftRound Ideal.roundHalfEven (min (Ideal.ofBits .f32 0x42FE0000#32) (max (Ideal.ofBits .f32 0xC2FE0000#32)
    (nrm x (ix2 r k) * sq (ix2 (0 : Fin 1) (0 : Fin 1))))) = _
  rw [nrm_read]
  rfl

/-- The layer payloads: the first two bound the product below by 0, the last does not. -/
theorem pay1_layer_eq (x : FVec Ideal S2048x256 .f32) (sq : FVec Ideal S1x1 .f32) (w : FVec Ideal S256x256 .bf16) (so : FVec Ideal S1x1 .f32) :
    k1_pay2 (F := Ideal) x sq w so = maximumf (lin x sq w so) (broadcast S2048x256 (Scalar.ofBits (F := Ideal) .f32 0x00000000#32)) := by
  unfold k1_pay2 lin nrm normed centred rowMeanCol
  rfl
theorem pay2_layer_eq (x : FVec Ideal S2048x256 .f32) (sq : FVec Ideal S1x1 .f32) (w : FVec Ideal S256x256 .bf16) (so : FVec Ideal S1x1 .f32) :
    k2_pay2 (F := Ideal) x sq w so = maximumf (lin x sq w so) (broadcast S2048x256 (Scalar.ofBits (F := Ideal) .f32 0x00000000#32)) := by
  have h : k2_pay2 (F := Ideal) x sq w so
      = maximumf (lin (shapeCast S2048x256 x shapeCasts_S2048x256_S2048x256) sq w so)
          (broadcast S2048x256 (Scalar.ofBits (F := Ideal) .f32 0x00000000#32)) := by
    unfold k2_pay2 lin nrm normed centred rowMeanCol
    rfl
  rw [h, shapeCast_self]
theorem pay3_layer_eq (x : FVec Ideal S2048x256 .f32) (sq : FVec Ideal S1x1 .f32) (w : FVec Ideal S256x256 .bf16) (so : FVec Ideal S1x1 .f32) :
    k3_pay1 (F := Ideal) x sq w so = lin x sq w so := by
  have h : k3_pay1 (F := Ideal) x sq w so = lin (shapeCast S2048x256 x shapeCasts_S2048x256_S2048x256) sq w so := by
    unfold k3_pay1 lin nrm normed centred rowMeanCol
    rfl
  rw [h, shapeCast_self]

/-- The bounded layer block at an entry. -/
theorem relu_lin_read (x : FVec Ideal S2048x256 .f32) (sq : FVec Ideal S1x1 .f32) (w : FVec Ideal S256x256 .bf16) (so : FVec Ideal S1x1 .f32)
    (r : Fin 2048) (j : Fin 256) :
    maximumf (lin x sq w so) (broadcast S2048x256 (Scalar.ofBits (F := Ideal) .f32 0x00000000#32)) (ix2 r j)
      = Cert.Spec.relu ((∑ k : Fin 256, Cert.Spec.quant (sq (ix2 (0 : Fin 1) (0 : Fin 1))) (Cert.Spec.lnRow (fun s => x (ix2 r s)) k) * w (ix2 k j))
        * so (ix2 (0 : Fin 1) (0 : Fin 1))) := by
  rw [maximumf_apply, lin_read]
  rfl

/-- The spread tile maximum, over the block's rows as row data. -/
theorem tileMax_rows (x : FVec Ideal S2048x256 .f32) (a : Fin 8) (b : Fin 128) :
    tileMax x (ix2 a b) = foldRows (fun r s => x (ix2 r s)) := tileMax_read x a b

/-- The layer block at an entry, from the entry's row of the block and column of the weight matrix. -/
theorem lin_rows (x : FVec Ideal S2048x256 .f32) (sq : FVec Ideal S1x1 .f32) (w : FVec Ideal S256x256 .bf16) (so : FVec Ideal S1x1 .f32)
    (r : Fin 2048) (j : Fin 256) :
    lin x sq w so (ix2 r j)
      = rowOut (fun s => x (ix2 r s)) (sq (ix2 (0 : Fin 1) (0 : Fin 1))) (fun k => w (ix2 k j)) (so (ix2 (0 : Fin 1) (0 : Fin 1))) :=
  lin_read x sq w so r j

/-- The bounded layer block at an entry, likewise. -/
theorem relu_lin_rows (x : FVec Ideal S2048x256 .f32) (sq : FVec Ideal S1x1 .f32) (w : FVec Ideal S256x256 .bf16) (so : FVec Ideal S1x1 .f32)
    (r : Fin 2048) (j : Fin 256) :
    maximumf (lin x sq w so) (broadcast S2048x256 (Scalar.ofBits (F := Ideal) .f32 0x00000000#32)) (ix2 r j)
      = Cert.Spec.relu (rowOut (fun s => x (ix2 r s)) (sq (ix2 (0 : Fin 1) (0 : Fin 1))) (fun k => w (ix2 k j)) (so (ix2 (0 : Fin 1) (0 : Fin 1)))) :=
  relu_lin_read x sq w so r j

end Cert.Bridge.Body

end
-- ==== Proof.KReg0.lean ====
/- The first kernel launch: 64 grid points, point t reads rows 2048 t … 2048 t + 2047 of its input array and writes the
   tile's largest normalised absolute value to rows 8 t … 8 t + 7 of the 512 × 128 output array. So the output array
   ends holding the array of partial maxima of the input, whatever the arrays hold when the launch is entered. -/
import proofs.«165368_j14456859918944_2_alg».proof.Proof.Gen.KernelIdeal.Frame
import proofs.«165368_j14456859918944_2_alg».proof.Proof.KBody
import proofs.«165368_j14456859918944_2_alg».proof.Proof.KSpec
import Idealize.ShloMosaic.Lib.Pipeline.Value

set_option maxRecDepth 16384

noncomputable section

open Idealize.ShloMosaic Idealize.ShloMosaic.TcCoe Idealize.SL.Sem
open Idealize.ShloMosaic.Pipeline (Dat)

namespace Cert.Bridge.Reg0

open Idealize.ShloMosaic.ValueIdx Cert.KernelIdeal Cert.KernelIdeal.Gen Cert.Bridge.Body Cert.Bridge.KSpec

variable (V : (c : Dev nD) → (b : Ref sig .tc) → Buf (Elt Ideal) ((c : Thread nD τ).loc b))

theorem hz : (![0, 0] : Fin 2 → Nat) = fun _ => 0 := funext fun a => by fin_cases a <;> rfl

/-- The block index maps, decided over the grid: point t reads block (t, 0) and writes block (t, 0). -/
theorem idx : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

theorem t_lt (t : Fin cfg0.N) : t.val < 64 := lt_of_lt_of_eq t.isLt N_0

/-- The input block at point t is rows 2048 t … of the input array. -/
theorem in_read (c : Dev nD) (t : Fin cfg0.N) (r : Fin 2048) (s : Fin 256) :
    (iblk0 V c 0 t : Vec Ideal S2048x256 .f32) (ix2 r s)
      = (V c (Pipeline.arrRef spec0 0) : S131072x256.Idx → EReal) (ix2 (rowOf ⟨t.val, t_lt t⟩ r) s) := by
  obtain ⟨e0, e1, -, -⟩ := idx t
  unfold iblk0
  rw [View.read_apply]
  refine congrArg (V c (Pipeline.arrRef spec0 0)) ?_
  funext a
  apply Fin.ext
  match a with
  | ⟨0, _⟩ => show win0_0.index t (0 : Fin 2) * 2048 + 1 * r.val = t.val * 2048 + r.val; rw [e0]; omega
  | ⟨1, _⟩ => show win0_0.index t (1 : Fin 2) * 256 + 1 * s.val = s.val; rw [e1]; omega

/-- What point t writes back is block t of the array of partial maxima. -/
theorem flushed_eq (c : Dev nD) (t : Fin cfg0.N) :
    (dat0 V c).flushed 1 t
      = ((cfg0.win 1).blk t).view.read (Elt Ideal) (partials (V c (Pipeline.arrRef spec0 0))) := by
  obtain ⟨-, -, e2, e3⟩ := idx t
  show (cfg0.win 1).cut (grid0.coords t) ((dat0 V c).after 1 t) = _
  rw [after0_1]
  unfold out0_1
  rw [View.canon_unit_zero hz]
  simp only [View.ld_unit_zero (S := S2048x256) hz]
  funext y
  obtain ⟨a, b, rfl⟩ : ∃ (a : Fin 8) (b : Fin 128), y = ix2 a b := ⟨y 0, y 1, eq_ix2 y⟩
  show k0_pay1 (F := Ideal) (iblk0 V c 0 t) (ix2 a b)
    = partials (V c (Pipeline.arrRef spec0 0)) (((cfg0.win 1).blk t).view.emb (ix2 a b))
  refine (tileMax_rows (iblk0 V c 0 t) a b).trans ?_
  have hrow : (((cfg0.win 1).blk t).view.emb (ix2 a b)) = ix2 (⟨t.val * 8 + a.val, by have := t_lt t; have := a.isLt; omega⟩ : Fin 512) b := by
    funext ax
    apply Fin.ext
    match ax with
    | ⟨0, _⟩ => show win0_1.index t (0 : Fin 2) * 8 + 1 * a.val = t.val * 8 + a.val; rw [e2]; omega
    | ⟨1, _⟩ => show win0_1.index t (1 : Fin 2) * 128 + 1 * b.val = b.val; rw [e3]; omega
  rw [hrow, partials_read]
  have htile : tileOfRow (⟨t.val * 8 + a.val, by have := t_lt t; have := a.isLt; omega⟩ : Fin 512) = ⟨t.val, t_lt t⟩ :=
    Fin.ext (by show (t.val * 8 + a.val) / 8 = t.val; have := a.isLt; omega)
  rw [htile]
  exact congrArg foldRows (funext fun r => funext fun s => in_read V c t r s)

/-- The output array after the launch: the partial maxima of the input array as the launch found it. -/
theorem final (c : Dev nD) :
    (dat0 V c).arrAt 1 cfg0.N = partials (V c (Pipeline.arrRef spec0 0)) :=
  (dat0 V c).arrAt_eq_of_cover 1 (partials (V c (Pipeline.arrRef spec0 0))) (fun t _ => flushed_eq V c t) fun i => by
    have hi0 : (i 0).val < 512 := (i 0).isLt
    have hi1 : (i 1).val < 128 := (i 1).isLt
    have hN : cfg0.N = 64 := N_0
    let t : Fin cfg0.N := ⟨(i 0).val / 8, by rw [hN]; omega⟩
    obtain ⟨-, -, e2, e3⟩ := idx t
    refine ⟨t, flush0_1 t, ?_⟩
    show i ∈ ((View.whole main_v0).slice (win0_1.rect t)).set
    rw [View.set_slice_whole, Rect.mem_set_unit]
    intro ax
    match ax with
    | ⟨0, _⟩ =>
      show win0_1.index t (0 : Fin 2) * 8 ≤ (i 0).val ∧ (i 0).val < win0_1.index t (0 : Fin 2) * 8 + 8
      rw [e2]; show (i 0).val / 8 * 8 ≤ (i 0).val ∧ (i 0).val < (i 0).val / 8 * 8 + 8; omega
    | ⟨1, _⟩ =>
      show win0_1.index t (1 : Fin 2) * 128 ≤ (i 1).val ∧ (i 1).val < win0_1.index t (1 : Fin 2) * 128 + 128
      rw [e3]; omega

end Cert.Bridge.Reg0

end
-- ==== Proof.KReg1.lean ====
/- Kernel launch 1: 64 grid points; point t reads rows 2048 t … 2048 t + 2047 of its activation array, the whole weight array and
   the two one-entry scale arrays, and writes the layer's output for those rows and, to rows 8 t … 8 t + 7 of a 512 × 128
   array, the tile's largest normalised absolute value of that output. So the output arrays end holding the layer's
   array and its partial maxima, whatever the arrays hold when the launch is entered. -/
import proofs.«165368_j14456859918944_2_alg».proof.Proof.Gen.KernelIdeal.Frame
import proofs.«165368_j14456859918944_2_alg».proof.Proof.KBody
import proofs.«165368_j14456859918944_2_alg».proof.Proof.KSpec
import Idealize.ShloMosaic.Lib.Pipeline.Value

set_option maxRecDepth 16384

noncomputable section

open Idealize.ShloMosaic Idealize.ShloMosaic.TcCoe Idealize.SL.Sem
open Idealize.ShloMosaic.Pipeline (Dat)

namespace Cert.Bridge.Reg1

open Idealize.ShloMosaic.ValueIdx Cert.KernelIdeal Cert.KernelIdeal.Gen Cert.Bridge.Body Cert.Bridge.KSpec

variable (V : (c : Dev nD) → (b : Ref sig .tc) → Buf (Elt Ideal) ((c : Thread nD τ).loc b))

theorem hz : (![0, 0] : Fin 2 → Nat) = fun _ => 0 := funext fun a => by fin_cases a <;> rfl

/-- The block index maps, decided over the grid: point t reads block (t, 0) of the activations and block (0, 0) of the weights and
    of each scale, and writes block (t, 0) of each output. -/
theorem idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

theorem t_lt (t : Fin cfg1.N) : t.val < 64 := lt_of_lt_of_eq t.isLt N_1

/-- The activation block at point t is rows 2048 t … of the activation array. -/
theorem x_read (c : Dev nD) (t : Fin cfg1.N) (r : Fin 2048) (s : Fin 256) :
    (iblk1 V c 0 t : Vec Ideal S2048x256 .f32) (ix2 r s)
      = (V c (Pipeline.arrRef spec1 0) : S131072x256.Idx → EReal) (ix2 (rowOf ⟨t.val, t_lt t⟩ r) s) := by
  obtain ⟨e0, e1, -⟩ := idx t
  unfold iblk1
  rw [View.read_apply]
  refine congrArg (V c (Pipeline.arrRef spec1 0)) ?_
  funext a
  apply Fin.ext
  match a with
  | ⟨0, _⟩ => show win1_0.index t (0 : Fin 2) * 2048 + 1 * r.val = t.val * 2048 + r.val; rw [e0]; omega
  | ⟨1, _⟩ => show win1_0.index t (1 : Fin 2) * 256 + 1 * s.val = s.val; rw [e1]; omega

/-- The weight block at every point is the whole weight array. -/
theorem w_read (c : Dev nD) (t : Fin cfg1.N) (k j : Fin 256) :
    (iblk1 V c 1 t : Vec Ideal S256x256 .bf16) (ix2 k j)
      = (V c (Pipeline.arrRef spec1 1) : S256x256.Idx → EReal) (ix2 k j) := by
  obtain ⟨-, -, e0, e1, -⟩ := idx t
  unfold iblk1
  rw [View.read_apply]
  refine congrArg (V c (Pipeline.arrRef spec1 1)) ?_
  funext a
  apply Fin.ext
  match a with
  | ⟨0, _⟩ => show win1_1.index t (0 : Fin 2) * 256 + 1 * k.val = k.val; rw [e0]; omega
  | ⟨1, _⟩ => show win1_1.index t (1 : Fin 2) * 256 + 1 * j.val = j.val; rw [e1]; omega

/-- The activation-scale block at every point is the one-entry scale array. -/
theorem sq_read (c : Dev nD) (t : Fin cfg1.N) :
    (iblk1 V c 2 t : Vec Ideal S1x1 .f32) (ix2 (0 : Fin 1) (0 : Fin 1))
      = (V c (Pipeline.arrRef spec1 2) : S1x1.Idx → EReal) (ix2 (0 : Fin 1) (0 : Fin 1)) := by
  obtain ⟨-, -, -, -, e0, e1, -⟩ := idx t
  unfold iblk1
  rw [View.read_apply]
  refine congrArg (V c (Pipeline.arrRef spec1 2)) ?_
  funext a
  apply Fin.ext
  match a with
  | ⟨0, _⟩ => show win1_2.index t (0 : Fin 2) * 1 + 1 * 0 = 0; rw [e0]
  | ⟨1, _⟩ => show win1_2.index t (1 : Fin 2) * 1 + 1 * 0 = 0; rw [e1]

/-- The output-scale block at every point is the one-entry scale array. -/
theorem so_read (c : Dev nD) (t : Fin cfg1.N) :
    (iblk1 V c 3 t : Vec Ideal S1x1 .f32) (ix2 (0 : Fin 1) (0 : Fin 1))
      = (V c (Pipeline.arrRef spec1 3) : S1x1.Idx → EReal) (ix2 (0 : Fin 1) (0 : Fin 1)) := by
  obtain ⟨-, -, -, -, -, -, e0, e1, -⟩ := idx t
  unfold iblk1
  rw [View.read_apply]
  refine congrArg (V c (Pipeline.arrRef spec1 3)) ?_
  funext a
  apply Fin.ext
  match a with
  | ⟨0, _⟩ => show win1_3.index t (0 : Fin 2) * 1 + 1 * 0 = 0; rw [e0]
  | ⟨1, _⟩ => show win1_3.index t (1 : Fin 2) * 1 + 1 * 0 = 0; rw [e1]

/-- The layer's array of the arrays as the launch finds them. -/
abbrev out (c : Dev nD) : S131072x256.Idx → EReal :=
  layerArr true (V c (Pipeline.arrRef spec1 0)) (V c (Pipeline.arrRef spec1 2)) (V c (Pipeline.arrRef spec1 1))
    (V c (Pipeline.arrRef spec1 3))

/-- The body's layer value at entry (r, j) of point t's blocks is the layer's array at (2048 t + r, j). -/
theorem entry (c : Dev nD) (t : Fin cfg1.N) (r : Fin 2048) (j : Fin 256) :
    k1_pay2 (F := Ideal) (iblk1 V c 0 t) (iblk1 V c 2 t) (iblk1 V c 1 t) (iblk1 V c 3 t) (ix2 r j)
      = out V c (ix2 (rowOf ⟨t.val, t_lt t⟩ r) j) := by
  refine (congrFun (pay1_layer_eq (iblk1 V c 0 t) (iblk1 V c 2 t) (iblk1 V c 1 t) (iblk1 V c 3 t)) (ix2 r j)).trans ?_
  refine (relu_lin_rows (iblk1 V c 0 t) (iblk1 V c 2 t) (iblk1 V c 1 t) (iblk1 V c 3 t) r j).trans ?_
  refine Eq.trans ?_ (layerArr_read true _ _ _ _ (rowOf ⟨t.val, t_lt t⟩ r) j).symm
  show Cert.Spec.relu (rowOut _ _ _ _) = Cert.Spec.relu (layerEntry _ _ _ _ _ _)
  unfold layerEntry
  exact congrArg Cert.Spec.relu (congr (congr (congr (congrArg rowOut (funext fun s => x_read V c t r s)) (sq_read V c t))
    (funext fun k => w_read V c t k j)) (so_read V c t))

/-- What point t writes back to the layer's output is block t of the layer's array. -/
theorem flushed4 (c : Dev nD) (t : Fin cfg1.N) :
    (dat1 V c).flushed 4 t = ((cfg1.win 4).blk t).view.read (Elt Ideal) (out V c) := by
  obtain ⟨-, -, -, -, -, -, -, -, e8, e9, -⟩ := idx t
  show (cfg1.win 4).cut (grid1.coords t) ((dat1 V c).after 4 t) = _
  rw [after1_4]
  unfold out1_4
  rw [View.canon_unit_zero hz]
  simp only [View.ld_unit_zero (S := S2048x256) hz, View.ld_unit_zero (S := S256x256) hz, View.ld_unit_zero (S := S1x1) hz]
  funext y
  obtain ⟨r, j, rfl⟩ : ∃ (r : Fin 2048) (j : Fin 256), y = ix2 r j := ⟨y 0, y 1, eq_ix2 y⟩
  show k1_pay2 (F := Ideal) (iblk1 V c 0 t) (iblk1 V c 2 t) (iblk1 V c 1 t) (iblk1 V c 3 t) (ix2 r j)
    = out V c (((cfg1.win 4).blk t).view.emb (ix2 r j))
  have hrow : (((cfg1.win 4).blk t).view.emb (ix2 r j)) = ix2 (rowOf ⟨t.val, t_lt t⟩ r) j := by
    funext ax
    apply Fin.ext
    match ax with
    | ⟨0, _⟩ => show win1_4.index t (0 : Fin 2) * 2048 + 1 * r.val = t.val * 2048 + r.val; rw [e8]; omega
    | ⟨1, _⟩ => show win1_4.index t (1 : Fin 2) * 256 + 1 * j.val = j.val; rw [e9]; omega
  rw [hrow]
  exact entry V c t r j

/-- The layer's output array after the launch. -/
theorem final4 (c : Dev nD) : (dat1 V c).arrAt 4 cfg1.N = out V c :=
  (dat1 V c).arrAt_eq_of_cover 4 (out V c) (fun t _ => flushed4 V c t) fun i => by
    have hi0 : (i 0).val < 131072 := (i 0).isLt
    have hi1 : (i 1).val < 256 := (i 1).isLt
    have hN : cfg1.N = 64 := N_1
    let t : Fin cfg1.N := ⟨(i 0).val / 2048, by rw [hN]; omega⟩
    obtain ⟨-, -, -, -, -, -, -, -, e8, e9, -⟩ := idx t
    refine ⟨t, flush1_4 t, ?_⟩
    show i ∈ ((View.whole main_v22_0).slice (win1_4.rect t)).set
    rw [View.set_slice_whole, Rect.mem_set_unit]
    intro ax
    match ax with
    | ⟨0, _⟩ =>
      show win1_4.index t (0 : Fin 2) * 2048 ≤ (i 0).val ∧ (i 0).val < win1_4.index t (0 : Fin 2) * 2048 + 2048
      rw [e8]; show (i 0).val / 2048 * 2048 ≤ (i 0).val ∧ (i 0).val < (i 0).val / 2048 * 2048 + 2048; omega
    | ⟨1, _⟩ =>
      show win1_4.index t (1 : Fin 2) * 256 ≤ (i 1).val ∧ (i 1).val < win1_4.index t (1 : Fin 2) * 256 + 256
      rw [e9]; omega

/-- What point t writes back to the partial maxima is block t of the partial maxima of the layer's array. -/
theorem flushed5 (c : Dev nD) (t : Fin cfg1.N) :
    (dat1 V c).flushed 5 t = ((cfg1.win 5).blk t).view.read (Elt Ideal) (partials (out V c)) := by
  obtain ⟨-, -, -, -, -, -, -, -, -, -, e10, e11⟩ := idx t
  show (cfg1.win 5).cut (grid1.coords t) ((dat1 V c).after 5 t) = _
  rw [after1_5]
  unfold out1_5
  rw [View.canon_unit_zero hz]
  simp only [View.ld_unit_zero (S := S2048x256) hz, View.ld_unit_zero (S := S256x256) hz, View.ld_unit_zero (S := S1x1) hz]
  funext y
  obtain ⟨a, b, rfl⟩ : ∃ (a : Fin 8) (b : Fin 128), y = ix2 a b := ⟨y 0, y 1, eq_ix2 y⟩
  show k1_pay1 (F := Ideal) (k1_pay2 (F := Ideal) (iblk1 V c 0 t) (iblk1 V c 2 t) (iblk1 V c 1 t) (iblk1 V c 3 t)) (ix2 a b)
    = partials (out V c) (((cfg1.win 5).blk t).view.emb (ix2 a b))
  refine (congrFun (pay1_partial_eq _) (ix2 a b)).trans ?_
  refine (tileMax_rows _ a b).trans ?_
  have hrow : (((cfg1.win 5).blk t).view.emb (ix2 a b)) = ix2 (⟨t.val * 8 + a.val, by have := t_lt t; have := a.isLt; omega⟩ : Fin 512) b := by
    funext ax
    apply Fin.ext
    match ax with
    | ⟨0, _⟩ => show win1_5.index t (0 : Fin 2) * 8 + 1 * a.val = t.val * 8 + a.val; rw [e10]; omega
    | ⟨1, _⟩ => show win1_5.index t (1 : Fin 2) * 128 + 1 * b.val = b.val; rw [e11]; omega
  rw [hrow, partials_read]
  have htile : tileOfRow (⟨t.val * 8 + a.val, by have := t_lt t; have := a.isLt; omega⟩ : Fin 512) = ⟨t.val, t_lt t⟩ :=
    Fin.ext (by show (t.val * 8 + a.val) / 8 = t.val; have := a.isLt; omega)
  rw [htile]
  exact congrArg foldRows (funext fun r => funext fun s => entry V c t r s)

/-- The partial-maxima array after the launch. -/
theorem final5 (c : Dev nD) : (dat1 V c).arrAt 5 cfg1.N = partials (out V c) :=
  (dat1 V c).arrAt_eq_of_cover 5 (partials (out V c)) (fun t _ => flushed5 V c t) fun i => by
    have hi0 : (i 0).val < 512 := (i 0).isLt
    have hi1 : (i 1).val < 128 := (i 1).isLt
    have hN : cfg1.N = 64 := N_1
    let t : Fin cfg1.N := ⟨(i 0).val / 8, by rw [hN]; omega⟩
    obtain ⟨-, -, -, -, -, -, -, -, -, -, e10, e11⟩ := idx t
    refine ⟨t, flush1_5 t, ?_⟩
    show i ∈ ((View.whole main_v22_1).slice (win1_5.rect t)).set
    rw [View.set_slice_whole, Rect.mem_set_unit]
    intro ax
    match ax with
    | ⟨0, _⟩ =>
      show win1_5.index t (0 : Fin 2) * 8 ≤ (i 0).val ∧ (i 0).val < win1_5.index t (0 : Fin 2) * 8 + 8
      rw [e10]; show (i 0).val / 8 * 8 ≤ (i 0).val ∧ (i 0).val < (i 0).val / 8 * 8 + 8; omega
    | ⟨1, _⟩ =>
      show win1_5.index t (1 : Fin 2) * 128 ≤ (i 1).val ∧ (i 1).val < win1_5.index t (1 : Fin 2) * 128 + 128
      rw [e11]; omega

end Cert.Bridge.Reg1

end
-- ==== Proof.KReg2.lean ====
/- Kernel launch 2: 64 grid points; point t reads rows 2048 t … 2048 t + 2047 of its activation array, the whole weight array and
   the two one-entry scale arrays, and writes the layer's output for those rows and, to rows 8 t … 8 t + 7 of a 512 × 128
   array, the tile's largest normalised absolute value of that output. So the output arrays end holding the layer's
   array and its partial maxima, whatever the arrays hold when the launch is entered. -/
import proofs.«165368_j14456859918944_2_alg».proof.Proof.Gen.KernelIdeal.Frame
import proofs.«165368_j14456859918944_2_alg».proof.Proof.KBody
import proofs.«165368_j14456859918944_2_alg».proof.Proof.KSpec
import Idealize.ShloMosaic.Lib.Pipeline.Value

set_option maxRecDepth 16384

noncomputable section

open Idealize.ShloMosaic Idealize.ShloMosaic.TcCoe Idealize.SL.Sem
open Idealize.ShloMosaic.Pipeline (Dat)

namespace Cert.Bridge.Reg2

open Idealize.ShloMosaic.ValueIdx Cert.KernelIdeal Cert.KernelIdeal.Gen Cert.Bridge.Body Cert.Bridge.KSpec

variable (V : (c : Dev nD) → (b : Ref sig .tc) → Buf (Elt Ideal) ((c : Thread nD τ).loc b))

theorem hz : (![0, 0] : Fin 2 → Nat) = fun _ => 0 := funext fun a => by fin_cases a <;> rfl

/-- The block index maps, decided over the grid: point t reads block (t, 0) of the activations and block (0, 0) of the weights and
    of each scale, and writes block (t, 0) of each output. -/
theorem idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

theorem t_lt (t : Fin cfg2.N) : t.val < 64 := lt_of_lt_of_eq t.isLt N_2

/-- The activation block at point t is rows 2048 t … of the activation array. -/
theorem x_read (c : Dev nD) (t : Fin cfg2.N) (r : Fin 2048) (s : Fin 256) :
    (iblk2 V c 0 t : Vec Ideal S2048x256 .f32) (ix2 r s)
      = (V c (Pipeline.arrRef spec2 0) : S131072x256.Idx → EReal) (ix2 (rowOf ⟨t.val, t_lt t⟩ r) s) := by
  obtain ⟨e0, e1, -⟩ := idx t
  unfold iblk2
  rw [View.read_apply]
  refine congrArg (V c (Pipeline.arrRef spec2 0)) ?_
  funext a
  apply Fin.ext
  match a with
  | ⟨0, _⟩ => show win2_0.index t (0 : Fin 2) * 2048 + 1 * r.val = t.val * 2048 + r.val; rw [e0]; omega
  | ⟨1, _⟩ => show win2_0.index t (1 : Fin 2) * 256 + 1 * s.val = s.val; rw [e1]; omega

/-- The weight block at every point is the whole weight array. -/
theorem w_read (c : Dev nD) (t : Fin cfg2.N) (k j : Fin 256) :
    (iblk2 V c 1 t : Vec Ideal S256x256 .bf16) (ix2 k j)
      = (V c (Pipeline.arrRef spec2 1) : S256x256.Idx → EReal) (ix2 k j) := by
  obtain ⟨-, -, e0, e1, -⟩ := idx t
  unfold iblk2
  rw [View.read_apply]
  refine congrArg (V c (Pipeline.arrRef spec2 1)) ?_
  funext a
  apply Fin.ext
  match a with
  | ⟨0, _⟩ => show win2_1.index t (0 : Fin 2) * 256 + 1 * k.val = k.val; rw [e0]; omega
  | ⟨1, _⟩ => show win2_1.index t (1 : Fin 2) * 256 + 1 * j.val = j.val; rw [e1]; omega

/-- The activation-scale block at every point is the one-entry scale array. -/
theorem sq_read (c : Dev nD) (t : Fin cfg2.N) :
    (iblk2 V c 2 t : Vec Ideal S1x1 .f32) (ix2 (0 : Fin 1) (0 : Fin 1))
      = (V c (Pipeline.arrRef spec2 2) : S1x1.Idx → EReal) (ix2 (0 : Fin 1) (0 : Fin 1)) := by
  obtain ⟨-, -, -, -, e0, e1, -⟩ := idx t
  unfold iblk2
  rw [View.read_apply]
  refine congrArg (V c (Pipeline.arrRef spec2 2)) ?_
  funext a
  apply Fin.ext
  match a with
  | ⟨0, _⟩ => show win2_2.index t (0 : Fin 2) * 1 + 1 * 0 = 0; rw [e0]
  | ⟨1, _⟩ => show win2_2.index t (1 : Fin 2) * 1 + 1 * 0 = 0; rw [e1]

/-- The output-scale block at every point is the one-entry scale array. -/
theorem so_read (c : Dev nD) (t : Fin cfg2.N) :
    (iblk2 V c 3 t : Vec Ideal S1x1 .f32) (ix2 (0 : Fin 1) (0 : Fin 1))
      = (V c (Pipeline.arrRef spec2 3) : S1x1.Idx → EReal) (ix2 (0 : Fin 1) (0 : Fin 1)) := by
  obtain ⟨-, -, -, -, -, -, e0, e1, -⟩ := idx t
  unfold iblk2
  rw [View.read_apply]
  refine congrArg (V c (Pipeline.arrRef spec2 3)) ?_
  funext a
  apply Fin.ext
  match a with
  | ⟨0, _⟩ => show win2_3.index t (0 : Fin 2) * 1 + 1 * 0 = 0; rw [e0]
  | ⟨1, _⟩ => show win2_3.index t (1 : Fin 2) * 1 + 1 * 0 = 0; rw [e1]

/-- The layer's array of the arrays as the launch finds them. -/
abbrev out (c : Dev nD) : S131072x256.Idx → EReal :=
  layerArr true (V c (Pipeline.arrRef spec2 0)) (V c (Pipeline.arrRef spec2 2)) (V c (Pipeline.arrRef spec2 1))
    (V c (Pipeline.arrRef spec2 3))

/-- The body's layer value at entry (r, j) of point t's blocks is the layer's array at (2048 t + r, j). -/
theorem entry (c : Dev nD) (t : Fin cfg2.N) (r : Fin 2048) (j : Fin 256) :
    k2_pay2 (F := Ideal) (iblk2 V c 0 t) (iblk2 V c 2 t) (iblk2 V c 1 t) (iblk2 V c 3 t) (ix2 r j)
      = out V c (ix2 (rowOf ⟨t.val, t_lt t⟩ r) j) := by
  refine (congrFun (pay2_layer_eq (iblk2 V c 0 t) (iblk2 V c 2 t) (iblk2 V c 1 t) (iblk2 V c 3 t)) (ix2 r j)).trans ?_
  refine (relu_lin_rows (iblk2 V c 0 t) (iblk2 V c 2 t) (iblk2 V c 1 t) (iblk2 V c 3 t) r j).trans ?_
  refine Eq.trans ?_ (layerArr_read true _ _ _ _ (rowOf ⟨t.val, t_lt t⟩ r) j).symm
  show Cert.Spec.relu (rowOut _ _ _ _) = Cert.Spec.relu (layerEntry _ _ _ _ _ _)
  unfold layerEntry
  exact congrArg Cert.Spec.relu (congr (congr (congr (congrArg rowOut (funext fun s => x_read V c t r s)) (sq_read V c t))
    (funext fun k => w_read V c t k j)) (so_read V c t))

/-- What point t writes back to the layer's output is block t of the layer's array. -/
theorem flushed4 (c : Dev nD) (t : Fin cfg2.N) :
    (dat2 V c).flushed 4 t = ((cfg2.win 4).blk t).view.read (Elt Ideal) (out V c) := by
  obtain ⟨-, -, -, -, -, -, -, -, e8, e9, -⟩ := idx t
  show (cfg2.win 4).cut (grid2.coords t) ((dat2 V c).after 4 t) = _
  rw [after2_4]
  unfold out2_4
  rw [View.canon_unit_zero hz]
  simp only [View.ld_unit_zero (S := S2048x256) hz, View.ld_unit_zero (S := S256x256) hz, View.ld_unit_zero (S := S1x1) hz]
  funext y
  obtain ⟨r, j, rfl⟩ : ∃ (r : Fin 2048) (j : Fin 256), y = ix2 r j := ⟨y 0, y 1, eq_ix2 y⟩
  show k2_pay2 (F := Ideal) (iblk2 V c 0 t) (iblk2 V c 2 t) (iblk2 V c 1 t) (iblk2 V c 3 t) (ix2 r j)
    = out V c (((cfg2.win 4).blk t).view.emb (ix2 r j))
  have hrow : (((cfg2.win 4).blk t).view.emb (ix2 r j)) = ix2 (rowOf ⟨t.val, t_lt t⟩ r) j := by
    funext ax
    apply Fin.ext
    match ax with
    | ⟨0, _⟩ => show win2_4.index t (0 : Fin 2) * 2048 + 1 * r.val = t.val * 2048 + r.val; rw [e8]; omega
    | ⟨1, _⟩ => show win2_4.index t (1 : Fin 2) * 256 + 1 * j.val = j.val; rw [e9]; omega
  rw [hrow]
  exact entry V c t r j

/-- The layer's output array after the launch. -/
theorem final4 (c : Dev nD) : (dat2 V c).arrAt 4 cfg2.N = out V c :=
  (dat2 V c).arrAt_eq_of_cover 4 (out V c) (fun t _ => flushed4 V c t) fun i => by
    have hi0 : (i 0).val < 131072 := (i 0).isLt
    have hi1 : (i 1).val < 256 := (i 1).isLt
    have hN : cfg2.N = 64 := N_2
    let t : Fin cfg2.N := ⟨(i 0).val / 2048, by rw [hN]; omega⟩
    obtain ⟨-, -, -, -, -, -, -, -, e8, e9, -⟩ := idx t
    refine ⟨t, flush2_4 t, ?_⟩
    show i ∈ ((View.whole main_v44_0).slice (win2_4.rect t)).set
    rw [View.set_slice_whole, Rect.mem_set_unit]
    intro ax
    match ax with
    | ⟨0, _⟩ =>
      show win2_4.index t (0 : Fin 2) * 2048 ≤ (i 0).val ∧ (i 0).val < win2_4.index t (0 : Fin 2) * 2048 + 2048
      rw [e8]; show (i 0).val / 2048 * 2048 ≤ (i 0).val ∧ (i 0).val < (i 0).val / 2048 * 2048 + 2048; omega
    | ⟨1, _⟩ =>
      show win2_4.index t (1 : Fin 2) * 256 ≤ (i 1).val ∧ (i 1).val < win2_4.index t (1 : Fin 2) * 256 + 256
      rw [e9]; omega

/-- What point t writes back to the partial maxima is block t of the partial maxima of the layer's array. -/
theorem flushed5 (c : Dev nD) (t : Fin cfg2.N) :
    (dat2 V c).flushed 5 t = ((cfg2.win 5).blk t).view.read (Elt Ideal) (partials (out V c)) := by
  obtain ⟨-, -, -, -, -, -, -, -, -, -, e10, e11⟩ := idx t
  show (cfg2.win 5).cut (grid2.coords t) ((dat2 V c).after 5 t) = _
  rw [after2_5]
  unfold out2_5
  rw [View.canon_unit_zero hz]
  simp only [View.ld_unit_zero (S := S2048x256) hz, View.ld_unit_zero (S := S256x256) hz, View.ld_unit_zero (S := S1x1) hz]
  funext y
  obtain ⟨a, b, rfl⟩ : ∃ (a : Fin 8) (b : Fin 128), y = ix2 a b := ⟨y 0, y 1, eq_ix2 y⟩
  show k2_pay1 (F := Ideal) (k2_pay2 (F := Ideal) (iblk2 V c 0 t) (iblk2 V c 2 t) (iblk2 V c 1 t) (iblk2 V c 3 t)) (ix2 a b)
    = partials (out V c) (((cfg2.win 5).blk t).view.emb (ix2 a b))
  refine (congrFun (pay2_partial_eq _) (ix2 a b)).trans ?_
  refine (tileMax_rows _ a b).trans ?_
  have hrow : (((cfg2.win 5).blk t).view.emb (ix2 a b)) = ix2 (⟨t.val * 8 + a.val, by have := t_lt t; have := a.isLt; omega⟩ : Fin 512) b := by
    funext ax
    apply Fin.ext
    match ax with
    | ⟨0, _⟩ => show win2_5.index t (0 : Fin 2) * 8 + 1 * a.val = t.val * 8 + a.val; rw [e10]; omega
    | ⟨1, _⟩ => show win2_5.index t (1 : Fin 2) * 128 + 1 * b.val = b.val; rw [e11]; omega
  rw [hrow, partials_read]
  have htile : tileOfRow (⟨t.val * 8 + a.val, by have := t_lt t; have := a.isLt; omega⟩ : Fin 512) = ⟨t.val, t_lt t⟩ :=
    Fin.ext (by show (t.val * 8 + a.val) / 8 = t.val; have := a.isLt; omega)
  rw [htile]
  exact congrArg foldRows (funext fun r => funext fun s => entry V c t r s)

/-- The partial-maxima array after the launch. -/
theorem final5 (c : Dev nD) : (dat2 V c).arrAt 5 cfg2.N = partials (out V c) :=
  (dat2 V c).arrAt_eq_of_cover 5 (partials (out V c)) (fun t _ => flushed5 V c t) fun i => by
    have hi0 : (i 0).val < 512 := (i 0).isLt
    have hi1 : (i 1).val < 128 := (i 1).isLt
    have hN : cfg2.N = 64 := N_2
    let t : Fin cfg2.N := ⟨(i 0).val / 8, by rw [hN]; omega⟩
    obtain ⟨-, -, -, -, -, -, -, -, -, -, e10, e11⟩ := idx t
    refine ⟨t, flush2_5 t, ?_⟩
    show i ∈ ((View.whole main_v44_1).slice (win2_5.rect t)).set
    rw [View.set_slice_whole, Rect.mem_set_unit]
    intro ax
    match ax with
    | ⟨0, _⟩ =>
      show win2_5.index t (0 : Fin 2) * 8 ≤ (i 0).val ∧ (i 0).val < win2_5.index t (0 : Fin 2) * 8 + 8
      rw [e10]; show (i 0).val / 8 * 8 ≤ (i 0).val ∧ (i 0).val < (i 0).val / 8 * 8 + 8; omega
    | ⟨1, _⟩ =>
      show win2_5.index t (1 : Fin 2) * 128 ≤ (i 1).val ∧ (i 1).val < win2_5.index t (1 : Fin 2) * 128 + 128
      rw [e11]; omega

end Cert.Bridge.Reg2

end
-- ==== Proof.KReg3.lean ====
/- Kernel launch 3: 64 grid points; point t reads rows 2048 t … 2048 t + 2047 of its activation array, the whole weight array and
   the two one-entry scale arrays, and writes the layer's output for those rows. So the output array ends holding the layer's
   array, whatever the arrays hold when the launch is entered. -/
import proofs.«165368_j14456859918944_2_alg».proof.Proof.Gen.KernelIdeal.Frame
import proofs.«165368_j14456859918944_2_alg».proof.Proof.KBody
import proofs.«165368_j14456859918944_2_alg».proof.Proof.KSpec
import Idealize.ShloMosaic.Lib.Pipeline.Value

set_option maxRecDepth 16384

noncomputable section

open Idealize.ShloMosaic Idealize.ShloMosaic.TcCoe Idealize.SL.Sem
open Idealize.ShloMosaic.Pipeline (Dat)

namespace Cert.Bridge.Reg3

open Idealize.ShloMosaic.ValueIdx Cert.KernelIdeal Cert.KernelIdeal.Gen Cert.Bridge.Body Cert.Bridge.KSpec

variable (V : (c : Dev nD) → (b : Ref sig .tc) → Buf (Elt Ideal) ((c : Thread nD τ).loc b))

theorem hz : (![0, 0] : Fin 2 → Nat) = fun _ => 0 := funext fun a => by fin_cases a <;> rfl

/-- The block index maps, decided over the grid: point t reads block (t, 0) of the activations and block (0, 0) of the weights and
    of each scale, and writes block (t, 0) of each output. -/
theorem idx : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

theorem t_lt (t : Fin cfg3.N) : t.val < 64 := lt_of_lt_of_eq t.isLt N_3

/-- The activation block at point t is rows 2048 t … of the activation array. -/
theorem x_read (c : Dev nD) (t : Fin cfg3.N) (r : Fin 2048) (s : Fin 256) :
    (iblk3 V c 0 t : Vec Ideal S2048x256 .f32) (ix2 r s)
      = (V c (Pipeline.arrRef spec3 0) : S131072x256.Idx → EReal) (ix2 (rowOf ⟨t.val, t_lt t⟩ r) s) := by
  obtain ⟨e0, e1, -⟩ := idx t
  unfold iblk3
  rw [View.read_apply]
  refine congrArg (V c (Pipeline.arrRef spec3 0)) ?_
  funext a
  apply Fin.ext
  match a with
  | ⟨0, _⟩ => show win3_0.index t (0 : Fin 2) * 2048 + 1 * r.val = t.val * 2048 + r.val; rw [e0]; omega
  | ⟨1, _⟩ => show win3_0.index t (1 : Fin 2) * 256 + 1 * s.val = s.val; rw [e1]; omega

/-- The weight block at every point is the whole weight array. -/
theorem w_read (c : Dev nD) (t : Fin cfg3.N) (k j : Fin 256) :
    (iblk3 V c 1 t : Vec Ideal S256x256 .bf16) (ix2 k j)
      = (V c (Pipeline.arrRef spec3 1) : S256x256.Idx → EReal) (ix2 k j) := by
  obtain ⟨-, -, e0, e1, -⟩ := idx t
  unfold iblk3
  rw [View.read_apply]
  refine congrArg (V c (Pipeline.arrRef spec3 1)) ?_
  funext a
  apply Fin.ext
  match a with
  | ⟨0, _⟩ => show win3_1.index t (0 : Fin 2) * 256 + 1 * k.val = k.val; rw [e0]; omega
  | ⟨1, _⟩ => show win3_1.index t (1 : Fin 2) * 256 + 1 * j.val = j.val; rw [e1]; omega

/-- The activation-scale block at every point is the one-entry scale array. -/
theorem sq_read (c : Dev nD) (t : Fin cfg3.N) :
    (iblk3 V c 2 t : Vec Ideal S1x1 .f32) (ix2 (0 : Fin 1) (0 : Fin 1))
      = (V c (Pipeline.arrRef spec3 2) : S1x1.Idx → EReal) (ix2 (0 : Fin 1) (0 : Fin 1)) := by
  obtain ⟨-, -, -, -, e0, e1, -⟩ := idx t
  unfold iblk3
  rw [View.read_apply]
  refine congrArg (V c (Pipeline.arrRef spec3 2)) ?_
  funext a
  apply Fin.ext
  match a with
  | ⟨0, _⟩ => show win3_2.index t (0 : Fin 2) * 1 + 1 * 0 = 0; rw [e0]
  | ⟨1, _⟩ => show win3_2.index t (1 : Fin 2) * 1 + 1 * 0 = 0; rw [e1]

/-- The output-scale block at every point is the one-entry scale array. -/
theorem so_read (c : Dev nD) (t : Fin cfg3.N) :
    (iblk3 V c 3 t : Vec Ideal S1x1 .f32) (ix2 (0 : Fin 1) (0 : Fin 1))
      = (V c (Pipeline.arrRef spec3 3) : S1x1.Idx → EReal) (ix2 (0 : Fin 1) (0 : Fin 1)) := by
  obtain ⟨-, -, -, -, -, -, e0, e1, -⟩ := idx t
  unfold iblk3
  rw [View.read_apply]
  refine congrArg (V c (Pipeline.arrRef spec3 3)) ?_
  funext a
  apply Fin.ext
  match a with
  | ⟨0, _⟩ => show win3_3.index t (0 : Fin 2) * 1 + 1 * 0 = 0; rw [e0]
  | ⟨1, _⟩ => show win3_3.index t (1 : Fin 2) * 1 + 1 * 0 = 0; rw [e1]

/-- The layer's array of the arrays as the launch finds them. -/
abbrev out (c : Dev nD) : S131072x256.Idx → EReal :=
  layerArr false (V c (Pipeline.arrRef spec3 0)) (V c (Pipeline.arrRef spec3 2)) (V c (Pipeline.arrRef spec3 1))
    (V c (Pipeline.arrRef spec3 3))

/-- The body's layer value at entry (r, j) of point t's blocks is the layer's array at (2048 t + r, j). -/
theorem entry (c : Dev nD) (t : Fin cfg3.N) (r : Fin 2048) (j : Fin 256) :
    k3_pay1 (F := Ideal) (iblk3 V c 0 t) (iblk3 V c 2 t) (iblk3 V c 1 t) (iblk3 V c 3 t) (ix2 r j)
      = out V c (ix2 (rowOf ⟨t.val, t_lt t⟩ r) j) := by
  refine (congrFun (pay3_layer_eq (iblk3 V c 0 t) (iblk3 V c 2 t) (iblk3 V c 1 t) (iblk3 V c 3 t)) (ix2 r j)).trans ?_
  refine (lin_rows (iblk3 V c 0 t) (iblk3 V c 2 t) (iblk3 V c 1 t) (iblk3 V c 3 t) r j).trans ?_
  refine Eq.trans ?_ (layerArr_read false _ _ _ _ (rowOf ⟨t.val, t_lt t⟩ r) j).symm
  show rowOut _ _ _ _ = layerEntry _ _ _ _ _ _
  unfold layerEntry
  exact (congr (congr (congr (congrArg rowOut (funext fun s => x_read V c t r s)) (sq_read V c t))
    (funext fun k => w_read V c t k j)) (so_read V c t))

/-- What point t writes back to the layer's output is block t of the layer's array. -/
theorem flushed4 (c : Dev nD) (t : Fin cfg3.N) :
    (dat3 V c).flushed 4 t = ((cfg3.win 4).blk t).view.read (Elt Ideal) (out V c) := by
  obtain ⟨-, -, -, -, -, -, -, -, e8, e9⟩ := idx t
  show (cfg3.win 4).cut (grid3.coords t) ((dat3 V c).after 4 t) = _
  rw [after3_4]
  unfold out3_4
  rw [View.canon_unit_zero hz]
  simp only [View.ld_unit_zero (S := S2048x256) hz, View.ld_unit_zero (S := S256x256) hz, View.ld_unit_zero (S := S1x1) hz]
  funext y
  obtain ⟨r, j, rfl⟩ : ∃ (r : Fin 2048) (j : Fin 256), y = ix2 r j := ⟨y 0, y 1, eq_ix2 y⟩
  show k3_pay1 (F := Ideal) (iblk3 V c 0 t) (iblk3 V c 2 t) (iblk3 V c 1 t) (iblk3 V c 3 t) (ix2 r j)
    = out V c (((cfg3.win 4).blk t).view.emb (ix2 r j))
  have hrow : (((cfg3.win 4).blk t).view.emb (ix2 r j)) = ix2 (rowOf ⟨t.val, t_lt t⟩ r) j := by
    funext ax
    apply Fin.ext
    match ax with
    | ⟨0, _⟩ => show win3_4.index t (0 : Fin 2) * 2048 + 1 * r.val = t.val * 2048 + r.val; rw [e8]; omega
    | ⟨1, _⟩ => show win3_4.index t (1 : Fin 2) * 256 + 1 * j.val = j.val; rw [e9]; omega
  rw [hrow]
  exact entry V c t r j

/-- The layer's output array after the launch. -/
theorem final4 (c : Dev nD) : (dat3 V c).arrAt 4 cfg3.N = out V c :=
  (dat3 V c).arrAt_eq_of_cover 4 (out V c) (fun t _ => flushed4 V c t) fun i => by
    have hi0 : (i 0).val < 131072 := (i 0).isLt
    have hi1 : (i 1).val < 256 := (i 1).isLt
    have hN : cfg3.N = 64 := N_3
    let t : Fin cfg3.N := ⟨(i 0).val / 2048, by rw [hN]; omega⟩
    obtain ⟨-, -, -, -, -, -, -, -, e8, e9⟩ := idx t
    refine ⟨t, flush3_4 t, ?_⟩
    show i ∈ ((View.whole main_v66).slice (win3_4.rect t)).set
    rw [View.set_slice_whole, Rect.mem_set_unit]
    intro ax
    match ax with
    | ⟨0, _⟩ =>
      show win3_4.index t (0 : Fin 2) * 2048 ≤ (i 0).val ∧ (i 0).val < win3_4.index t (0 : Fin 2) * 2048 + 2048
      rw [e8]; show (i 0).val / 2048 * 2048 ≤ (i 0).val ∧ (i 0).val < (i 0).val / 2048 * 2048 + 2048; omega
    | ⟨1, _⟩ =>
      show win3_4.index t (1 : Fin 2) * 256 ≤ (i 1).val ∧ (i 1).val < win3_4.index t (1 : Fin 2) * 256 + 256
      rw [e9]; omega

end Cert.Bridge.Reg3

end
-- ==== Proof.KGlue.lean ====
/- The host operations between the kernel launches, read off the run: after each stretch the transposed sign
   weights, the activation scale 127 / g and the output scale β · g / 127 are the host functions of the arrays the
   stretch found, the activations pass through unchanged, and the weight arguments are as launched. -/
import proofs.«165368_j14456859918944_2_alg».proof.Proof.Gen.KernelIdeal.Frame
import proofs.«165368_j14456859918944_2_alg».proof.Proof.KHost
import Idealize.ShloMosaic.Lib.StableHlo.Run

set_option maxRecDepth 16384

noncomputable section

namespace Cert.Bridge.Glue

open Idealize.ShloMosaic Idealize.ShloMosaic.TcCoe Idealize.SL.Sem Idealize.ShloMosaic.StableHlo
open Cert.KernelIdeal Cert.KernelIdeal.Gen Cert.Bridge.Host

variable (m : (ℓ : Loc nD τ sig) → Buf (Elt Ideal) ℓ) (ρ : Dev nD → PrngReg) (c : Dev nD)

/-! ### The first stretch of host operations -/

/-- The transposed sign weights of the first weight matrix. -/
theorem s1_w : W4 m ρ c (Proc.devRef .tc main_v16) = hWbT (W1 m ρ c (Proc.devRef .tc main_arg1)) := by
  show StableHlo.after hostOps1_2 (StableHlo.after hostOps1_1 (StableHlo.after hostOps1 (W1 m ρ c))) (Proc.devRef .tc main_v16) = _
  after_results_simp
  simp only [cast_cast, cast_eq]
  rfl

/-- The activation scale 127 / g, g from the array of partial maxima. -/
theorem s1_sq : W4 m ρ c (Proc.devRef .tc main_v18) = hSq (hGamma (W1 m ρ c (Proc.devRef .tc main_v0))) := by
  show StableHlo.after hostOps1_2 (StableHlo.after hostOps1_1 (StableHlo.after hostOps1 (W1 m ρ c))) (Proc.devRef .tc main_v18) = _
  after_results_simp
  rfl

/-- The output scale β · g / 127. -/
theorem s1_so : W4 m ρ c (Proc.devRef .tc main_v21)
    = hSo (hBeta (W1 m ρ c (Proc.devRef .tc main_arg1))) (hGamma (W1 m ρ c (Proc.devRef .tc main_v0))) := by
  show StableHlo.after hostOps1_2 (StableHlo.after hostOps1_1 (StableHlo.after hostOps1 (W1 m ρ c))) (Proc.devRef .tc main_v21) = _
  after_results_simp
  rfl

/-- No operation of the stretch writes the input activations. -/
theorem s1_x : W4 m ρ c (Proc.devRef .tc main_arg0) = W1 m ρ c (Proc.devRef .tc main_arg0) := by
  show StableHlo.after hostOps1_2 (StableHlo.after hostOps1_1 (StableHlo.after hostOps1 (W1 m ρ c))) (Proc.devRef .tc main_arg0) = _
  after_results_simp

/-! ### The second stretch of host operations -/

/-- The transposed sign weights of the second weight matrix. -/
theorem s2_w : W8 m ρ c (Proc.devRef .tc main_v38) = hWbT (W5 m ρ c (Proc.devRef .tc main_arg2)) := by
  show StableHlo.after hostOps2_2 (StableHlo.after hostOps2_1 (StableHlo.after hostOps2 (W5 m ρ c))) (Proc.devRef .tc main_v38) = _
  after_results_simp
  simp only [cast_cast, cast_eq]
  rfl

/-- The activation scale 127 / g, g from the array of partial maxima. -/
theorem s2_sq : W8 m ρ c (Proc.devRef .tc main_v40) = hSq (hGamma (W5 m ρ c (Proc.devRef .tc main_v22_1))) := by
  show StableHlo.after hostOps2_2 (StableHlo.after hostOps2_1 (StableHlo.after hostOps2 (W5 m ρ c))) (Proc.devRef .tc main_v40) = _
  after_results_simp
  rfl

/-- The output scale β · g / 127. -/
theorem s2_so : W8 m ρ c (Proc.devRef .tc main_v43)
    = hSo (hBeta (W5 m ρ c (Proc.devRef .tc main_arg2))) (hGamma (W5 m ρ c (Proc.devRef .tc main_v22_1))) := by
  show StableHlo.after hostOps2_2 (StableHlo.after hostOps2_1 (StableHlo.after hostOps2 (W5 m ρ c))) (Proc.devRef .tc main_v43) = _
  after_results_simp
  rfl

/-- No operation of the stretch writes the first layer's activations. -/
theorem s2_x : W8 m ρ c (Proc.devRef .tc main_v22_0) = W5 m ρ c (Proc.devRef .tc main_v22_0) := by
  show StableHlo.after hostOps2_2 (StableHlo.after hostOps2_1 (StableHlo.after hostOps2 (W5 m ρ c))) (Proc.devRef .tc main_v22_0) = _
  after_results_simp

/-! ### The third stretch of host operations -/

/-- The transposed sign weights of the third weight matrix. -/
theorem s3_w : W12 m ρ c (Proc.devRef .tc main_v60) = hWbT (W9 m ρ c (Proc.devRef .tc main_arg3)) := by
  show StableHlo.after hostOps3_2 (StableHlo.after hostOps3_1 (StableHlo.after hostOps3 (W9 m ρ c))) (Proc.devRef .tc main_v60) = _
  after_results_simp
  simp only [cast_cast, cast_eq]
  rfl

/-- The activation scale 127 / g, g from the array of partial maxima. -/
theorem s3_sq : W12 m ρ c (Proc.devRef .tc main_v62) = hSq (hGamma (W9 m ρ c (Proc.devRef .tc main_v44_1))) := by
  show StableHlo.after hostOps3_2 (StableHlo.after hostOps3_1 (StableHlo.after hostOps3 (W9 m ρ c))) (Proc.devRef .tc main_v62) = _
  after_results_simp
  rfl

/-- The output scale β · g / 127. -/
theorem s3_so : W12 m ρ c (Proc.devRef .tc main_v65)
    = hSo (hBeta (W9 m ρ c (Proc.devRef .tc main_arg3))) (hGamma (W9 m ρ c (Proc.devRef .tc main_v44_1))) := by
  show StableHlo.after hostOps3_2 (StableHlo.after hostOps3_1 (StableHlo.after hostOps3 (W9 m ρ c))) (Proc.devRef .tc main_v65) = _
  after_results_simp
  rfl

/-- No operation of the stretch writes the second layer's activations. -/
theorem s3_x : W12 m ρ c (Proc.devRef .tc main_v44_0) = W9 m ρ c (Proc.devRef .tc main_v44_0) := by
  show StableHlo.after hostOps3_2 (StableHlo.after hostOps3_1 (StableHlo.after hostOps3 (W9 m ρ c))) (Proc.devRef .tc main_v44_0) = _
  after_results_simp

/-! ### The arguments are as launched where they are read -/

/-- The input activations after the first launch. -/
theorem a0 : W1 m ρ c (Proc.devRef .tc main_arg0) = m ((c : Thread nD τ).loc main_arg0) :=
  calc W1 m ρ c (Proc.devRef .tc main_arg0)
    _ = W0 m ρ c (Proc.devRef .tc main_arg0) :=
        (W1_arr m ρ c 0).trans (((dat0 (V0 m ρ) c).arrAt_in 0 rfl _).trans (A_eq0 (V0 m ρ) c 0))
    _ = m ((c : Thread nD τ).loc main_arg0) := rfl

/-- The first weight matrix after the first launch. -/
theorem a1 : W1 m ρ c (Proc.devRef .tc main_arg1) = m ((c : Thread nD τ).loc main_arg1) :=
  calc W1 m ρ c (Proc.devRef .tc main_arg1)
    _ = W0 m ρ c (Proc.devRef .tc main_arg1) := W1_of_ne m ρ c main_arg1 (by decide)
    _ = m ((c : Thread nD τ).loc main_arg1) := rfl

/-- The first stretch writes neither of the later weight matrices. -/
theorem s1_arg2 : W4 m ρ c (Proc.devRef .tc main_arg2) = W1 m ρ c (Proc.devRef .tc main_arg2) := by
  show StableHlo.after hostOps1_2 (StableHlo.after hostOps1_1 (StableHlo.after hostOps1 (W1 m ρ c))) (Proc.devRef .tc main_arg2) = _
  after_results_simp

theorem s1_arg3 : W4 m ρ c (Proc.devRef .tc main_arg3) = W1 m ρ c (Proc.devRef .tc main_arg3) := by
  show StableHlo.after hostOps1_2 (StableHlo.after hostOps1_1 (StableHlo.after hostOps1 (W1 m ρ c))) (Proc.devRef .tc main_arg3) = _
  after_results_simp

/-- The second stretch does not write the third weight matrix. -/
theorem s2_arg3 : W8 m ρ c (Proc.devRef .tc main_arg3) = W5 m ρ c (Proc.devRef .tc main_arg3) := by
  show StableHlo.after hostOps2_2 (StableHlo.after hostOps2_1 (StableHlo.after hostOps2 (W5 m ρ c))) (Proc.devRef .tc main_arg3) = _
  after_results_simp

/-- The second weight matrix after the second launch. -/
theorem a2 : W5 m ρ c (Proc.devRef .tc main_arg2) = m ((c : Thread nD τ).loc main_arg2) :=
  calc W5 m ρ c (Proc.devRef .tc main_arg2)
    _ = W4 m ρ c (Proc.devRef .tc main_arg2) := W5_of_ne m ρ c main_arg2 (by decide)
    _ = W1 m ρ c (Proc.devRef .tc main_arg2) := s1_arg2 m ρ c
    _ = W0 m ρ c (Proc.devRef .tc main_arg2) := W1_of_ne m ρ c main_arg2 (by decide)
    _ = m ((c : Thread nD τ).loc main_arg2) := rfl

/-- The third weight matrix after the third launch. -/
theorem a3 : W9 m ρ c (Proc.devRef .tc main_arg3) = m ((c : Thread nD τ).loc main_arg3) :=
  calc W9 m ρ c (Proc.devRef .tc main_arg3)
    _ = W8 m ρ c (Proc.devRef .tc main_arg3) := W9_of_ne m ρ c main_arg3 (by decide)
    _ = W5 m ρ c (Proc.devRef .tc main_arg3) := s2_arg3 m ρ c
    _ = W4 m ρ c (Proc.devRef .tc main_arg3) := W5_of_ne m ρ c main_arg3 (by decide)
    _ = W1 m ρ c (Proc.devRef .tc main_arg3) := s1_arg3 m ρ c
    _ = W0 m ρ c (Proc.devRef .tc main_arg3) := W1_of_ne m ρ c main_arg3 (by decide)
    _ = m ((c : Thread nD τ).loc main_arg3) := rfl

end Cert.Bridge.Glue

end
-- ==== Proof.KValue.lean ====
/- The kernel program's result is the network of the specification. The run's last boundary holds, at the result buffer,
   what the fourth launch leaves; each launch leaves the kernel's layer of the arrays it was entered with; the host
   operations before a launch prepare, from the previous activations' partial maxima and from the weights, the two scales and
   the transposed sign matrix; so the three layer launches compute the specification's three layers, with max(·, 0) after
   the first two, of the four arguments as launched. -/
import proofs.«165368_j14456859918944_2_alg».proof.Proof.Gen.KernelIdeal.Frame
import proofs.«165368_j14456859918944_2_alg».proof.Proof.KLayer
import proofs.«165368_j14456859918944_2_alg».proof.Proof.KReg0
import proofs.«165368_j14456859918944_2_alg».proof.Proof.KReg1
import proofs.«165368_j14456859918944_2_alg».proof.Proof.KReg2
import proofs.«165368_j14456859918944_2_alg».proof.Proof.KReg3
import proofs.«165368_j14456859918944_2_alg».proof.Proof.KGlue

set_option maxRecDepth 16384

noncomputable section

namespace Cert.Bridge.KValue

open Idealize.ShloMosaic Idealize.ShloMosaic.TcCoe Idealize.SL.Sem Idealize.ShloMosaic.ValueIdx
open Cert.KernelIdeal Cert.KernelIdeal.Gen Cert.Spec Cert.Bridge.KSpec Cert.Bridge.Host Cert.Bridge.KLayer

variable (m : (ℓ : Loc nD τ sig) → Buf (Elt Ideal) ℓ) (ρ : Dev nD → PrngReg) (c : Dev nD)

/-- An activation array. -/
abbrev XA : Type := S131072x256.Idx → EReal

/-- The kernel's layer at the scales and sign matrix the host computes from the activations and the weights. -/
def klayer (bounded : Bool) (X : XA) (W : WM) : XA :=
  layerArr bounded X (hSq (hGamma (partials X))) (hWbT W) (hSo (hBeta W) (hGamma (partials X)))

/-- The four arguments as launched. -/
abbrev X0 : XA := m ((c : Thread nD τ).loc main_arg0)
abbrev Wa1 : WM := m ((c : Thread nD τ).loc main_arg1)
abbrev Wa2 : WM := m ((c : Thread nD τ).loc main_arg2)
abbrev Wa3 : WM := m ((c : Thread nD τ).loc main_arg3)

/-- The activations after the first, second and third launch that computes a layer. -/
def A1 : XA := klayer true (X0 m c) (Wa1 m c)
def A2 : XA := klayer true (A1 m c) (Wa2 m c)
def A3 : XA := klayer false (A2 m c) (Wa3 m c)

/-- After the first launch the partial-maxima array holds the partial maxima of the input. -/
theorem w1_v0 : W1 m ρ c (Proc.devRef .tc main_v0) = partials (X0 m c) :=
  (W1_arr m ρ c 1).trans (Cert.Bridge.Reg0.final (V0 m ρ) c)

/-- After the second launch: the first layer's activations and their partial maxima. -/
theorem w5_act : W5 m ρ c (Proc.devRef .tc main_v22_0) = A1 m c := by
  refine (W5_arr m ρ c 4).trans ((Cert.Bridge.Reg1.final4 (V4 m ρ) c).trans ?_)
  show layerArr true (W4 m ρ c (Proc.devRef .tc main_arg0)) (W4 m ρ c (Proc.devRef .tc main_v18))
    (W4 m ρ c (Proc.devRef .tc main_v16)) (W4 m ρ c (Proc.devRef .tc main_v21)) = _
  rw [Cert.Bridge.Glue.s1_x, Cert.Bridge.Glue.s1_sq, Cert.Bridge.Glue.s1_w, Cert.Bridge.Glue.s1_so,
    Cert.Bridge.Glue.a0, Cert.Bridge.Glue.a1, w1_v0]
  rfl

theorem w5_par : W5 m ρ c (Proc.devRef .tc main_v22_1) = partials (A1 m c) := by
  refine (W5_arr m ρ c 5).trans ((Cert.Bridge.Reg1.final5 (V4 m ρ) c).trans ?_)
  show partials (layerArr true (W4 m ρ c (Proc.devRef .tc main_arg0)) (W4 m ρ c (Proc.devRef .tc main_v18))
    (W4 m ρ c (Proc.devRef .tc main_v16)) (W4 m ρ c (Proc.devRef .tc main_v21))) = _
  rw [Cert.Bridge.Glue.s1_x, Cert.Bridge.Glue.s1_sq, Cert.Bridge.Glue.s1_w, Cert.Bridge.Glue.s1_so,
    Cert.Bridge.Glue.a0, Cert.Bridge.Glue.a1, w1_v0]
  rfl

/-- After the third launch: the second layer's activations and their partial maxima. -/
theorem w9_act : W9 m ρ c (Proc.devRef .tc main_v44_0) = A2 m c := by
  refine (W9_arr m ρ c 4).trans ((Cert.Bridge.Reg2.final4 (V8 m ρ) c).trans ?_)
  show layerArr true (W8 m ρ c (Proc.devRef .tc main_v22_0)) (W8 m ρ c (Proc.devRef .tc main_v40))
    (W8 m ρ c (Proc.devRef .tc main_v38)) (W8 m ρ c (Proc.devRef .tc main_v43)) = _
  rw [Cert.Bridge.Glue.s2_x, Cert.Bridge.Glue.s2_sq, Cert.Bridge.Glue.s2_w, Cert.Bridge.Glue.s2_so,
    Cert.Bridge.Glue.a2, w5_act, w5_par]
  rfl

theorem w9_par : W9 m ρ c (Proc.devRef .tc main_v44_1) = partials (A2 m c) := by
  refine (W9_arr m ρ c 5).trans ((Cert.Bridge.Reg2.final5 (V8 m ρ) c).trans ?_)
  show partials (layerArr true (W8 m ρ c (Proc.devRef .tc main_v22_0)) (W8 m ρ c (Proc.devRef .tc main_v40))
    (W8 m ρ c (Proc.devRef .tc main_v38)) (W8 m ρ c (Proc.devRef .tc main_v43))) = _
  rw [Cert.Bridge.Glue.s2_x, Cert.Bridge.Glue.s2_sq, Cert.Bridge.Glue.s2_w, Cert.Bridge.Glue.s2_so,
    Cert.Bridge.Glue.a2, w5_act, w5_par]
  rfl

/-- After the fourth launch: the third layer's output. -/
theorem w13_out : W13 m ρ c (Proc.devRef .tc main_v66) = A3 m c := by
  refine (W13_arr m ρ c 4).trans ((Cert.Bridge.Reg3.final4 (V12 m ρ) c).trans ?_)
  show layerArr false (W12 m ρ c (Proc.devRef .tc main_v44_0)) (W12 m ρ c (Proc.devRef .tc main_v62))
    (W12 m ρ c (Proc.devRef .tc main_v60)) (W12 m ρ c (Proc.devRef .tc main_v65)) = _
  rw [Cert.Bridge.Glue.s3_x, Cert.Bridge.Glue.s3_sq, Cert.Bridge.Glue.s3_w, Cert.Bridge.Glue.s3_so,
    Cert.Bridge.Glue.a3, w9_act, w9_par]
  rfl

/-- The three layers as matrices. -/
theorem cur_A1 : cur (A1 m c) = fun i j => relu (layer (cur (X0 m c)) (cur (Wa1 m c)) i j) :=
  cur_layer_true (X0 m c) (Wa1 m c)

theorem cur_A2 : cur (A2 m c) = fun i j => relu (layer (cur (A1 m c)) (cur (Wa2 m c)) i j) :=
  cur_layer_true (A1 m c) (Wa2 m c)

/-- The kernel program's result, entry by entry, is the network of the specification at the launch contents of the four
    arguments. -/
theorem result_eq (p : Fin 131072) (q : Fin 256) :
    (W13 m ρ c (Proc.devRef .tc main_v66) : S131072x256.Idx → EReal) (ix2 p q)
      = Cert.Spec.net (cur (m ((c : Thread nD τ).loc main_arg0))) (cur (m ((c : Thread nD τ).loc main_arg1)))
          (cur (m ((c : Thread nD τ).loc main_arg2))) (cur (m ((c : Thread nD τ).loc main_arg3))) p q := by
  rw [w13_out]
  unfold A3 klayer
  rw [layer_of_host false (A2 m c) (Wa3 m c) p q, cur_A2, cur_A1]
  rfl

end Cert.Bridge.KValue

end
-- ==== Proof.lean ====
/- The certificate of a three-layer network with sign weights and rounded, clipped activations: the kernel program
   against its reference, on the extended reals.

   Each layer normalises the rows of its input, finds the largest absolute value g of the normalised matrix (bounded below),
   scales by 127 / g, clips to [-127, 127], rounds, multiplies by the transposed sign matrix of the weights' deviations from
   their mean, and rescales by β · g / 127 (β the mean absolute weight, bounded below); max(·, 0) follows the first two layers.
   The kernel program finds g from per-tile maxima written by the previous launch — a maximum regrouped by tiles is the same
   maximum. The reference adds to the normalised entries (and to the weights' deviations) the difference between the rounded
   values (the signs) and themselves; that sum gives the rounded values (the signs) back exactly when the entries are real
   numbers, which they are, layer after layer, because every input entry is finite. Both programs therefore end at the
   specification's network of the argument arrays, entry by entry. -/
import proofs.«165368_j14456859918944_2_alg».proof.Defs
import proofs.«165368_j14456859918944_2_alg».proof.Proof.Gen.Kernel
import proofs.«165368_j14456859918944_2_alg».proof.Proof.Gen.Kernel.Skeleton
import proofs.«165368_j14456859918944_2_alg».proof.Proof.Gen.Kernel.Launch
import proofs.«165368_j14456859918944_2_alg».proof.Proof.Gen.Kernel.Points
import proofs.«165368_j14456859918944_2_alg».proof.Proof.Gen.Kernel.Frame
import proofs.«165368_j14456859918944_2_alg».proof.Proof.Gen.KernelIdeal
import proofs.«165368_j14456859918944_2_alg».proof.Proof.Gen.KernelIdeal.Skeleton
import proofs.«165368_j14456859918944_2_alg».proof.Proof.Gen.KernelIdeal.Launch
import proofs.«165368_j14456859918944_2_alg».proof.Proof.Gen.KernelIdeal.Points
import proofs.«165368_j14456859918944_2_alg».proof.Proof.Gen.KernelIdeal.Frame
import proofs.«165368_j14456859918944_2_alg».proof.Proof.Gen.ReferenceIdeal
import proofs.«165368_j14456859918944_2_alg».proof.Proof.Gen.Pre_finite_inputs
import proofs.«165368_j14456859918944_2_alg».proof.Proof.PreReal
import proofs.«165368_j14456859918944_2_alg».proof.Proof.RefBridge
import proofs.«165368_j14456859918944_2_alg».proof.Proof.RefRun
import proofs.«165368_j14456859918944_2_alg».proof.Proof.KRun
import proofs.«165368_j14456859918944_2_alg».proof.Proof.KValue
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- So does the idealized reference: its run with the result dropped. -/
theorem frame_ri : Cert.frame_ReferenceIdeal := fun m ρ _ =>
  (θ_run Cert.ReferenceIdeal.defs _ _).mono (fun _ h c => (h c).2) (Cert.Bridge.RefRun.run (F := Ideal) m ρ)

/-- The idealization rewrote nothing. -/
theorem preserves : Cert.preserves_Kernel_KernelIdeal := trivial

/-- From memories agreeing on finite arguments both idealized programs end at the network of the argument arrays. -/
theorem algebraic : Cert.algebraic_KernelIdeal_ReferenceIdeal := by
  intro m ρ m' ρ' hpre hagree
  refine ⟨fun c => Cert.KernelIdeal.Gen.W13 m ρ c (Proc.devRef .tc Cert.KernelIdeal.main_v66),
    Cert.Bridge.Run.run (F := Ideal) m ρ, ?_⟩
  refine (θ_run Cert.ReferenceIdeal.defs _ _).mono (fun _ h c => ⟨(h c).1.trans ?_, (h c).2⟩)
    (Cert.Bridge.RefRun.run (F := Ideal) m' ρ')
  obtain ⟨e0, e1, e2, e3⟩ := hagree c
  rw [e0, e1, e2, e3]
  obtain ⟨r0, r1, r2, r3⟩ := Cert.Bridge.Pre.inputs_real _ _ _ _ (hpre c)
  funext i
  obtain ⟨p, q, rfl⟩ : ∃ (p : Fin 131072) (q : Fin 256), i = ValueIdx.ix2 p q := ⟨i 0, i 1, ValueIdx.eq_ix2 i⟩
  exact (Cert.Bridge.Ref.result_eq _ _ _ _ r0 r1 r2 r3 p q).trans (Cert.Bridge.KValue.result_eq m ρ c p q).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
